-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S1 .f32) (main_arg10 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x64x64x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S1 .f32) (main_arg10 : FVec F S1 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S4x64x64x64 : Shape := ⟨4, ![4, 64, 64, 64]⟩
abbrev S64x64 : Shape := ⟨2, ![64, 64]⟩
abbrev S64 : Shape := ⟨1, ![64]⟩
abbrev S1 : Shape := ⟨1, ![1]⟩
abbrev S4x4096x64 : Shape := ⟨3, ![4, 4096, 64]⟩
abbrev S1x64 : Shape := ⟨2, ![1, 64]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩
abbrev S1x1x1x1 : Shape := ⟨4, ![1, 1, 1, 1]⟩

abbrev nBuf : Space → Nat
  | .hbm => 33
  | .vmem => 24
  | .smem => 0
  | _ => 0

abbrev bufTy : (tb : Table) → Fin (tcTables nBuf tb) → BufTy
  | .hbm, ⟨0, _⟩ => ⟨S4x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1, .f32⟩
  | .hbm, ⟨10, _⟩ => ⟨S1, .f32⟩
  | .hbm, ⟨11, _⟩ => ⟨S4x64x64x64, .f32⟩
  | .hbm, ⟨12, _⟩ => ⟨S4x4096x64, .f32⟩
  | .hbm, ⟨13, _⟩ => ⟨S1x64, .f32⟩
  | .hbm, ⟨14, _⟩ => ⟨S1x64, .f32⟩
  | .hbm, ⟨15, _⟩ => ⟨S4x4096x64, .f32⟩
  | .hbm, ⟨16, _⟩ => ⟨S4x64x64x64, .f32⟩
  | .hbm, ⟨17, _⟩ => ⟨S4x64x64x64, .f32⟩
  | .hbm, ⟨18, _⟩ => ⟨S1x1x1x1, .f32⟩
  | .hbm, ⟨19, _⟩ => ⟨S4x64x64x64, .f32⟩
  | .hbm, ⟨20, _⟩ => ⟨S4x64x64x64, .f32⟩
  | .hbm, ⟨21, _⟩ => ⟨S4x64x64x64, .f32⟩
  | .hbm, ⟨22, _⟩ => ⟨S4x64x64x64, .f32⟩
  | .hbm, ⟨23, _⟩ => ⟨S4x4096x64, .f32⟩
  | .hbm, ⟨24, _⟩ => ⟨S1x64, .f32⟩
  | .hbm, ⟨25, _⟩ => ⟨S1x64, .f32⟩
  | .hbm, ⟨26, _⟩ => ⟨S4x4096x64, .f32⟩
  | .hbm, ⟨27, _⟩ => ⟨S4x64x64x64, .f32⟩
  | .hbm, ⟨28, _⟩ => ⟨S4x64x64x64, .f32⟩
  | .hbm, ⟨29, _⟩ => ⟨S1x1x1x1, .f32⟩
  | .hbm, ⟨30, _⟩ => ⟨S4x64x64x64, .f32⟩
  | .hbm, ⟨31, _⟩ => ⟨S4x64x64x64, .f32⟩
  | .hbm, ⟨32, _⟩ => ⟨S4x64x64x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | .local _ .vmem, ⟨10, _⟩ => ⟨S512x64, .f32⟩
  | .local _ .vmem, ⟨11, _⟩ => ⟨S512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S1x512x64, .f32⟩
  | .local _ .vmem, ⟨21, _⟩ => ⟨S1x512x64, .f32⟩
  | .local _ .vmem, ⟨22, _⟩ => ⟨S512x64, .f32⟩
  | .local _ .vmem, ⟨23, _⟩ => ⟨S512x64, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_21 : BitVec 32 := 0#32
  let v40 : BitVec 1 := Scalar.cmpi .ne v39 c0_i32_21
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_21 : BitVec 32 := 0#32
  let v40 : BitVec 1 := Scalar.cmpi .ne v39 c0_i32_21
  v40

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  transposes_S4x64x64x64_S4x64x64x64_0_2_3_1 : S4x64x64x64.Transposes [0, 2, 3, 1] S4x64x64x64
  shapeCasts_S4x64x64x64_S4x4096x64 : S4x64x64x64.ShapeCasts S4x4096x64
  shapeCasts_S64_S1x64 : S64.ShapeCasts S1x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S64x64_p1_0_S64x64 : S64x64.Transposes [1, 0] S64x64
  broadcasts_S1x64_S512x64 : S1x64.Broadcasts S512x64
  transposes_S512x64_p1_0_S64x512 : S512x64.Transposes [1, 0] S64x512
  shapeCasts_S512x64_S1x512x64 : S512x64.ShapeCasts S1x512x64
  shapeCasts_S4x4096x64_S4x64x64x64 : S4x4096x64.ShapeCasts S4x64x64x64
  transposes_S4x64x64x64_S4x64x64x64_0_3_1_2 : S4x64x64x64.Transposes [0, 3, 1, 2] S4x64x64x64
  bcast_S1_S1x1x1x1_3 : S1.BroadcastsInDim S1x1x1x1 (![3] : Fin 1 → Fin S1x1x1x1.rank)
  bcast_S1x1x1x1_S4x64x64x64_0_1_2_3 : S1x1x1x1.BroadcastsInDim S4x64x64x64 (![0, 1, 2, 3] : Fin 4 → Fin S4x64x64x64.rank)
  transposes_S4x64x64x64_S4x64x64x64_0_1_3_2 : S4x64x64x64.Transposes [0, 1, 3, 2] S4x64x64x64
  dot_S512x64_S64x64_S512x64_1_0_0_1_n_n_wf : DotDims.WF S512x64 S64x64 S512x64 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S4x4096x64.size a
  hwx0_1 : ∀ i : grid0.Coords, EltTy.bits .f32 = 32 ∨ (Rect.block (s := S4x4096x64) S1x512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S4x4096x64.size a
  hwx0_6 : ∀ i : grid0.Coords, EltTy.bits .f32 = 32 ∨ (Rect.block (s := S4x4096x64) S1x512x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x4096x64.size a
  hwx1_0 : ∀ i : grid1.Coords, EltTy.bits .f32 = 32 ∨ (Rect.block (s := S4x4096x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S4x4096x64.size a
  hwx1_1 : ∀ i : grid1.Coords, EltTy.bits .f32 = 32 ∨ (Rect.block (s := S4x4096x64) S1x512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x64.size a ≤ S4x4096x64.size a
  hwx1_6 : ∀ i : grid1.Coords, EltTy.bits .f32 = 32 ∨ (Rect.block (s := S4x4096x64) S1x512x64.size (cc1_transform_6 i) (hinb1_6 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v12) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x64x64x64 : Shape := ⟨4, ![4, 64, 64, 64]⟩
abbrev S64x64 : Shape := ⟨2, ![64, 64]⟩
abbrev S64 : Shape := ⟨1, ![64]⟩
abbrev S1 : Shape := ⟨1, ![1]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S1x1x1x1 : Shape := ⟨4, ![1, 1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1, .f32⟩
  | .hbm, ⟨10, _⟩ => ⟨S1, .f32⟩
  | .hbm, ⟨11, _⟩ => ⟨S4x64x64x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S4x4096x4096, .f32⟩
  | .hbm, ⟨22, _⟩ => ⟨S_, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x64, .f32⟩
  | .hbm, ⟨35, _⟩ => ⟨S4x64x64x64, .f32⟩
  | .hbm, ⟨36, _⟩ => ⟨S4x64x64x64, .f32⟩
  | .hbm, ⟨37, _⟩ => ⟨S1x1x1x1, .f32⟩
  | .hbm, ⟨38, _⟩ => ⟨S4x64x64x64, .f32⟩
  | .hbm, ⟨39, _⟩ => ⟨S4x64x64x64, .f32⟩
  | .hbm, ⟨40, _⟩ => ⟨S4x64x64x64, .f32⟩
  | .hbm, ⟨41, _⟩ => ⟨S4x64x64x64, .f32⟩
  | .hbm, ⟨42, _⟩ => ⟨S4x4096x64, .f32⟩
  | .hbm, ⟨43, _⟩ => ⟨S4x4096x64, .f32⟩
  | .hbm, ⟨44, _⟩ => ⟨S1x1x64, .f32⟩
  | .hbm, ⟨45, _⟩ => ⟨S4x4096x64, .f32⟩
  | .hbm, ⟨46, _⟩ => ⟨S4x4096x64, .f32⟩
  | .hbm, ⟨47, _⟩ => ⟨S4x4096x64, .f32⟩
  | .hbm, ⟨48, _⟩ => ⟨S1x1x64, .f32⟩
  | .hbm, ⟨49, _⟩ => ⟨S4x4096x64, .f32⟩
  | .hbm, ⟨50, _⟩ => ⟨S4x4096x64, .f32⟩
  | .hbm, ⟨51, _⟩ => ⟨S4x4096x4096, .f32⟩
  | .hbm, ⟨52, _⟩ => ⟨S_, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096x4096, .f32⟩
  | .hbm, ⟨63, _⟩ => ⟨S4x4096x4096, .f32⟩
  | .hbm, ⟨64, _⟩ => ⟨S4x4096x64, .f32⟩
  | .hbm, ⟨65, _⟩ => ⟨S4x64x64x64, .f32⟩
  | .hbm, ⟨66, _⟩ => ⟨S4x64x64x64, .f32⟩
  | .hbm, ⟨67, _⟩ => ⟨S1x1x1x1, .f32⟩
  | .hbm, ⟨68, _⟩ => ⟨S4x64x64x64, .f32⟩
  | .hbm, ⟨69, _⟩ => ⟨S4x64x64x64, .f32⟩
  | .hbm, ⟨70, _⟩ => ⟨S4x64x64x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  transposes_S4x64x64x64_S4x64x64x64_0_2_3_1 : S4x64x64x64.Transposes [0, 2, 3, 1] S4x64x64x64
  shapeCasts_S4x64x64x64_S4x4096x64 : S4x64x64x64.ShapeCasts S4x4096x64
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  shapeCasts_S4x4096x64_S4x64x64x64 : S4x4096x64.ShapeCasts S4x64x64x64
  transposes_S4x64x64x64_S4x64x64x64_0_3_1_2 : S4x64x64x64.Transposes [0, 3, 1, 2] S4x64x64x64
  bcast_S1_S1x1x1x1_3 : S1.BroadcastsInDim S1x1x1x1 (![3] : Fin 1 → Fin S1x1x1x1.rank)
  bcast_S1x1x1x1_S4x64x64x64_0_1_2_3 : S1x1x1x1.BroadcastsInDim S4x64x64x64 (![0, 1, 2, 3] : Fin 4 → Fin S4x64x64x64.rank)
  transposes_S4x64x64x64_S4x64x64x64_0_1_3_2 : S4x64x64x64.Transposes [0, 1, 3, 2] S4x64x64x64
  dot_S4x4096x64_S64x64_S4x4096x64_2_1_01_0_n_n_wf : DotDims.WF S4x4096x64 S64x64 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S64x64_S4x4096x64_2_1_01_0_n_n : DotDims S4x4096x64 S64x64 S4x4096x64 where
  lhsContracting := [2]
  rhsContracting := [1]
  lhsNonContracting := [0, 1]
  rhsNonContracting := [0]
  lhsBatch := []
  rhsBatch := []
  wf := dot_S4x4096x64_S64x64_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KData.lean ====
/-
  What the two pallas calls' buffers hold at every grid point, as data the launch theorems take: each window's
  block, the two scratch buffers' contents by recursion on the point, the invariant between points.
-/
import proofs.«100374_j17686675325050_1_alg».proof.Proof.Gen.Kernel.Launch
import proofs.«100374_j17686675325050_1_alg».proof.Proof.Gen.Kernel.Skeleton
import proofs.«100374_j17686675325050_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

/-! # Pallas call 0: what its buffers hold, point by point

The grid is 4 × 8 × 8 (batch, query block, key block), the key block innermost. At a point the body reads the query
block and the key block of the activations (windows 0 and 1, both on ONE array), the two weight matrices and the two bias
rows (windows 2 to 5), and keeps two scratch buffers between points: the projected queries q of the current query
block and the running sum acc. At a point with key block 0 it sets acc to zero and q to the projection of the query
block; at every point it adds the key block's contribution to acc; at a point with key block 7 it copies acc into the
output's staging buffer (window 6), which the pipeline then writes back. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pair (q, acc) a point with key block 0 leaves: q the projection of the query block, acc the key block's
    contribution added to zero. -/
def first0 (c : Dev nD) (t : Fin cfg0.N) : Vec F S512x64 .f32 × Vec F S512x64 .f32 :=
  (k0_pay6 (iblk0 V c 2 t) (iblk0 V c 3 t) (iblk0 V c 0 t),
   k0_pay1 (k0_pay5 (F := F)) (k0_pay7 (iblk0 V c 2 t) (iblk0 V c 3 t) (iblk0 V c 4 t) (iblk0 V c 5 t) (iblk0 V c 1 t)
     (k0_pay6 (iblk0 V c 2 t) (iblk0 V c 3 t) (iblk0 V c 0 t))))

/-- The pair a later point leaves, from the pair p the point before left: q kept, the key block's contribution added to acc. -/
def next0 (c : Dev nD) (t : Fin cfg0.N) (p : Vec F S512x64 .f32 × Vec F S512x64 .f32) : Vec F S512x64 .f32 × Vec F S512x64 .f32 :=
  (p.1, k0_pay1 p.2 (k0_pay7 (iblk0 V c 2 t) (iblk0 V c 3 t) (iblk0 V c 4 t) (iblk0 V c 5 t) (iblk0 V c 1 t) p.1))

/-- The pair (q, acc) in the two scratch buffers after the point at position n, by recursion on the position: a point
    with key block 0 (position ≡ 0 mod 8) starts afresh, any other continues from the point before. -/
def sc0 (c : Dev nD) : (n : ℕ) → n < cfg0.N → Vec F S512x64 .f32 × Vec F S512x64 .f32
  | 0, hn => first0 V c ⟨0, hn⟩
  | n + 1, hn => if (n + 1) % 8 = 0 then first0 V c ⟨n + 1, hn⟩ else next0 V c ⟨n + 1, hn⟩ (sc0 c n (Nat.lt_of_succ_lt hn))

theorem sc0_first (c : Dev nD) (t : Fin cfg0.N) (h : t.val % 8 = 0) : sc0 V c t.val t.isLt = first0 V c t := by
  obtain ⟨n, hn⟩ := t
  cases n with
  | zero => rfl
  | succ n => exact (if_pos h).trans rfl

theorem sc0_next (c : Dev nD) (t : Fin cfg0.N) (h : ¬t.val % 8 = 0) :
    sc0 V c t.val t.isLt = next0 V c t (sc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- The two scratch operands, whole scoped buffers of the kernel's own: the running sum and the projected queries. -/
abbrev scA0 : Memref sig .tc .vmem S512x64 .f32 := Memref.whole cc0_scratch0
abbrev scQ0 : Memref sig .tc .vmem S512x64 .f32 := Memref.whole cc0_scratch1

/-- The core's scoped buffers that are neither a staging buffer nor a scratch of this call, each whole at some contents:
    the other call's twelve. The body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two scratch operands as memrefs owned at some contents. -/
theorem PhiA0_eq (c : Dev nD) :
    (Pipeline.ΦA spec0 c : sProp 𝕄)
      = iprop(((∃ d, owns (c : Thread nD τ) scA0 fullShare d) ∗ (∃ d, owns (c : Thread nD τ) scQ0 fullShare d) ∗ others0 (F := F) c) ∗ (∃ r, prngReg c r)) := by
  unfold Pipeline.ΦA others0; rw [scopedRest0_eq]; simp only [scA0, scQ0, owns_whole]; try rfl

/-- The region's invariant before position n: before the first point the class's (every scratch at anything); afterwards
    the two scratch buffers at the pair the point before left, the other scoped buffers at anything, the generator
    register at some state. -/
def Phi0 (c : Dev nD) : (n : ℕ) → n ≤ cfg0.N → sProp 𝕄
  | 0, _ => Pipeline.ΦA spec0 c
  | n + 1, hn => iprop((owns (c : Thread nD τ) scA0 fullShare (sc0 V c n hn).2 ∗ owns (c : Thread nD τ) scQ0 fullShare (sc0 V c n hn).1 ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scA0 fullShare (sc0 V c n hn).2 ∗ owns (c : Thread nD τ) scQ0 fullShare (sc0 V c n hn).1 ∗ others0 (F := F) c) ∗ (∃ r, prngReg c r)) := rfl

theorem Phi0_pos (c : Dev nD) (n : ℕ) (h : n ≤ cfg0.N) (hz : n ≠ 0) :
    Phi0 V c n h = iprop((owns (c : Thread nD τ) scA0 fullShare (sc0 V c (n - 1) (by omega)).2 ∗ owns (c : Thread nD τ) scQ0 fullShare (sc0 V c (n - 1) (by omega)).1 ∗ others0 (F := F) c) ∗ (∃ r, prngReg c r)) := by
  cases n with
  | zero => exact absurd rfl hz
  | succ n => rfl

/-- The proof data of pipeline 0 on core c: the arrays as the region finds them; after the body at point t each input's
    buffer at its block and the output's at the running sum (consulted only where the point stores it: key block 7);
    the invariant above; the activations' array, which windows 0 and 1 both read, held half by each; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (sc0 V c t.val t.isLt).2
  Φ t := Phi0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (sc0 V c t.val t.isLt).2 := by dsimp only [dat0]

/-- Input window 0's current staging buffer holds its block at every point, fetched there or not: where it is not
    fetched its block index has not moved since the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every point, fetched there or not: where it is not
    fetched its block index has not moved since the point before, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Input window 2's current staging buffer holds its block at every point, fetched there or not: where it is not
    fetched its block index has not moved since the point before, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- Input window 3's current staging buffer holds its block at every point, fetched there or not: where it is not
    fetched its block index has not moved since the point before, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- Input window 4's current staging buffer holds its block at every point, fetched there or not: where it is not
    fetched its block index has not moved since the point before, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- Input window 5's current staging buffer holds its block at every point, fetched there or not: where it is not
    fetched its block index has not moved since the point before, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

end Region0

section Region1

/-! # Pallas call 1: what its buffers hold, point by point

The grid is 4 × 8 × 8 (batch, query block, key block), the key block innermost. At a point the body reads the query
block and the key block of the activations (windows 0 and 1, both on ONE array), the two weight matrices and the two bias
rows (windows 2 to 5), and keeps two scratch buffers between points: the projected queries q of the current query
block and the running sum acc. At a point with key block 0 it sets acc to zero and q to the projection of the query
block; at every point it adds the key block's contribution to acc; at a point with key block 7 it copies acc into the
output's staging buffer (window 6), which the pipeline then writes back. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pair (q, acc) a point with key block 0 leaves: q the projection of the query block, acc the key block's
    contribution added to zero. -/
def first1 (c : Dev nD) (t : Fin cfg1.N) : Vec F S512x64 .f32 × Vec F S512x64 .f32 :=
  (k1_pay6 (iblk1 V c 2 t) (iblk1 V c 3 t) (iblk1 V c 0 t),
   k1_pay1 (k1_pay5 (F := F)) (k1_pay7 (iblk1 V c 2 t) (iblk1 V c 3 t) (iblk1 V c 4 t) (iblk1 V c 5 t) (iblk1 V c 1 t)
     (k1_pay6 (iblk1 V c 2 t) (iblk1 V c 3 t) (iblk1 V c 0 t))))

/-- The pair a later point leaves, from the pair p the point before left: q kept, the key block's contribution added to acc. -/
def next1 (c : Dev nD) (t : Fin cfg1.N) (p : Vec F S512x64 .f32 × Vec F S512x64 .f32) : Vec F S512x64 .f32 × Vec F S512x64 .f32 :=
  (p.1, k1_pay1 p.2 (k1_pay7 (iblk1 V c 2 t) (iblk1 V c 3 t) (iblk1 V c 4 t) (iblk1 V c 5 t) (iblk1 V c 1 t) p.1))

/-- The pair (q, acc) in the two scratch buffers after the point at position n, by recursion on the position: a point
    with key block 0 (position ≡ 0 mod 8) starts afresh, any other continues from the point before. -/
def sc1 (c : Dev nD) : (n : ℕ) → n < cfg1.N → Vec F S512x64 .f32 × Vec F S512x64 .f32
  | 0, hn => first1 V c ⟨0, hn⟩
  | n + 1, hn => if (n + 1) % 8 = 0 then first1 V c ⟨n + 1, hn⟩ else next1 V c ⟨n + 1, hn⟩ (sc1 c n (Nat.lt_of_succ_lt hn))

theorem sc1_first (c : Dev nD) (t : Fin cfg1.N) (h : t.val % 8 = 0) : sc1 V c t.val t.isLt = first1 V c t := by
  obtain ⟨n, hn⟩ := t
  cases n with
  | zero => rfl
  | succ n => exact (if_pos h).trans rfl

theorem sc1_next (c : Dev nD) (t : Fin cfg1.N) (h : ¬t.val % 8 = 0) :
    sc1 V c t.val t.isLt = next1 V c t (sc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The two scratch operands, whole scoped buffers of the kernel's own: the running sum and the projected queries. -/
abbrev scA1 : Memref sig .tc .vmem S512x64 .f32 := Memref.whole cc1_scratch0
abbrev scQ1 : Memref sig .tc .vmem S512x64 .f32 := Memref.whole cc1_scratch1

/-- The core's scoped buffers that are neither a staging buffer nor a scratch of this call, each whole at some contents:
    the other call's twelve. The body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant with the two scratch operands as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scA1 fullShare d) ∗ (∃ d, owns (c : Thread nD τ) scQ1 fullShare d)) ∗ (∃ r, prngReg c r)) := by
  unfold Pipeline.ΦA; rw [scopedRest1_eq]; simp only [scA1, scQ1, owns_whole]; try rfl

/-- The region's invariant before position n: before the first point the class's (every scratch at anything); afterwards
    the two scratch buffers at the pair the point before left, the other scoped buffers at anything, the generator
    register at some state. -/
def Phi1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scA1 fullShare (sc1 V c n hn).2 ∗ owns (c : Thread nD τ) scQ1 fullShare (sc1 V c n hn).1) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scA1 fullShare (sc1 V c n hn).2 ∗ owns (c : Thread nD τ) scQ1 fullShare (sc1 V c n hn).1) ∗ (∃ r, prngReg c r)) := rfl

theorem Phi1_pos (c : Dev nD) (n : ℕ) (h : n ≤ cfg1.N) (hz : n ≠ 0) :
    Phi1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scA1 fullShare (sc1 V c (n - 1) (by omega)).2 ∗ owns (c : Thread nD τ) scQ1 fullShare (sc1 V c (n - 1) (by omega)).1) ∗ (∃ r, prngReg c r)) := by
  cases n with
  | zero => exact absurd rfl hz
  | succ n => rfl

/-- The proof data of pipeline 1 on core c: the arrays as the region finds them; after the body at point t each input's
    buffer at its block and the output's at the running sum (consulted only where the point stores it: key block 7);
    the invariant above; the activations' array, which windows 0 and 1 both read, held half by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (sc1 V c t.val t.isLt).2
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (sc1 V c t.val t.isLt).2 := by dsimp only [dat1]

/-- Input window 0's current staging buffer holds its block at every point, fetched there or not: where it is not
    fetched its block index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- Input window 1's current staging buffer holds its block at every point, fetched there or not: where it is not
    fetched its block index has not moved since the point before, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Input window 2's current staging buffer holds its block at every point, fetched there or not: where it is not
    fetched its block index has not moved since the point before, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Input window 3's current staging buffer holds its block at every point, fetched there or not: where it is not
    fetched its block index has not moved since the point before, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Input window 4's current staging buffer holds its block at every point, fetched there or not: where it is not
    fetched its block index has not moved since the point before, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- Input window 5's current staging buffer holds its block at every point, fetched there or not: where it is not
    fetched its block index has not moved since the point before, and the body leaves the block in place. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

end Region1

end Cert.Kernel.Ax

end
-- ==== Proof.KRun.lean ====
/-
  The two pallas calls as regions of the host program: how the buffers the host tracks become each call's arrays (the
  activations' array, read through two windows, dealt half to each), what each call gives back, and the run of the
  whole program from the launch to the return.
-/
import proofs.«100374_j17686675325050_1_alg».proof.Proof.Gen.Kernel.Launch
import proofs.«100374_j17686675325050_1_alg».proof.Proof.Gen.Kernel.Skeleton
import proofs.«100374_j17686675325050_1_alg».proof.Proof.Gen.Kernel.Points
import proofs.«100374_j17686675325050_1_alg».proof.Proof.Gen.Kernel.Regions
import proofs.«100374_j17686675325050_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

section Split0
variable (V : (c : Dev nD) → (b : Ref sig .tc) → Buf (Elt F) ((c : Thread nD τ).loc b))

/-- The six distinct buffers behind call 0's seven windows. -/
theorem arrBufs0_eq (c : Dev nD) :
    (Pipeline.arrBufs (Ix := Unit) (Name := ℕ) (U := UR sig nD τ) (Lvl := ℕ) spec0 c (V c) : sProp 𝕄)
      = iprop((((c : Thread nD τ).loc main_v1) ↦{fullShare} V c main_v1) ∗ (((c : Thread nD τ).loc main_arg1) ↦{fullShare} V c main_arg1) ∗ (((c : Thread nD τ).loc main_v2) ↦{fullShare} V c main_v2) ∗ (((c : Thread nD τ).loc main_arg3) ↦{fullShare} V c main_arg3) ∗ (((c : Thread nD τ).loc main_v3) ↦{fullShare} V c main_v3) ∗ (((c : Thread nD τ).loc main_v4) ↦{fullShare} V c main_v4)) := by
  unfold Pipeline.arrBufs
  exact bigSep_eq_bigSepL_of_eq [main_v1, main_arg1, main_v2, main_arg3, main_v3, main_v4] (by decide) (by decide) _

/-- The six buffers whole are the seven windows' arrays at the proof data's shares: the activations' array, which two
    windows read, is dealt half to each; every other window holds its own array whole. -/
theorem arrays0_split (c : Dev nD) (Fa : (w : Fin cfg0.W) → Buf (Elt F) ((cfg0.win w).arr.view.loc (c : Thread nD τ)))
    (hF : ∀ w, Fa w = V c (Pipeline.arrRef spec0 w)) :
    (Pipeline.arrBufs (Ix := Unit) (Name := ℕ) (U := UR sig nD τ) (Lvl := ℕ) spec0 c (V c) : sProp 𝕄) ⊢ (dat0 V c).arrays Fa := by
  rw [arrBufs0_eq]
  unfold Dat.arrays
  rw [bigSep_W0]
  have e0 : (((cfg0.win 0).arr.view.loc (c : Thread nD τ)) ↦[(cfg0.win 0).arr.view.set]{(dat0 V c).share 0} Fa 0 : sProp 𝕄)
      = (((c : Thread nD τ).loc main_v1) ↦{fullShare.left} V c main_v1) := by rw [(arr_whole0 0).set_eq_univ, hF]; rfl
  have e1 : (((cfg0.win 1).arr.view.loc (c : Thread nD τ)) ↦[(cfg0.win 1).arr.view.set]{(dat0 V c).share 1} Fa 1 : sProp 𝕄)
      = (((c : Thread nD τ).loc main_v1) ↦{fullShare.right} V c main_v1) := by rw [(arr_whole0 1).set_eq_univ, hF]; rfl
  have e2 : (((cfg0.win 2).arr.view.loc (c : Thread nD τ)) ↦[(cfg0.win 2).arr.view.set]{(dat0 V c).share 2} Fa 2 : sProp 𝕄)
      = (((c : Thread nD τ).loc main_arg1) ↦{fullShare} V c main_arg1) := by rw [(arr_whole0 2).set_eq_univ, hF]; rfl
  have e3 : (((cfg0.win 3).arr.view.loc (c : Thread nD τ)) ↦[(cfg0.win 3).arr.view.set]{(dat0 V c).share 3} Fa 3 : sProp 𝕄)
      = (((c : Thread nD τ).loc main_v2) ↦{fullShare} V c main_v2) := by rw [(arr_whole0 3).set_eq_univ, hF]; rfl
  have e4 : (((cfg0.win 4).arr.view.loc (c : Thread nD τ)) ↦[(cfg0.win 4).arr.view.set]{(dat0 V c).share 4} Fa 4 : sProp 𝕄)
      = (((c : Thread nD τ).loc main_arg3) ↦{fullShare} V c main_arg3) := by rw [(arr_whole0 4).set_eq_univ, hF]; rfl
  have e5 : (((cfg0.win 5).arr.view.loc (c : Thread nD τ)) ↦[(cfg0.win 5).arr.view.set]{(dat0 V c).share 5} Fa 5 : sProp 𝕄)
      = (((c : Thread nD τ).loc main_v3) ↦{fullShare} V c main_v3) := by rw [(arr_whole0 5).set_eq_univ, hF]; rfl
  have e6 : (((cfg0.win 6).arr.view.loc (c : Thread nD τ)) ↦[(cfg0.win 6).arr.view.set]{(dat0 V c).share 6} Fa 6 : sProp 𝕄)
      = (((c : Thread nD τ).loc main_v4) ↦{fullShare} V c main_v4) := by rw [(arr_whole0 6).set_eq_univ, hF]; rfl
  rw [e0, e1, e2, e3, e4, e5, e6]
  iintro ⟨H1, Ha1, H2, Ha3, H3, H4⟩
  have hs : ((((c : Thread nD τ).loc main_v1) ↦{fullShare} V c main_v1) : sProp 𝕄)
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave Hs := hs $$ H1
  icases Hs with ⟨Hl, Hr⟩
  isplitl [Hl]; · iexact Hl
  isplitl [Hr]; · iexact Hr
  isplitl [Ha1]; · iexact Ha1
  isplitl [H2]; · iexact H2
  isplitl [Ha3]; · iexact Ha3
  isplitl [H3]; · iexact H3
  iexact H4

/-- The converse at the exit: the seven windows' arrays, the activations' two halves rejoined, are the six buffers
    whole, at any contents the windows agree on. -/
theorem arrays0_join (c : Dev nD) (V' : (c : Dev nD) → (b : Ref sig .tc) → Buf (Elt F) ((c : Thread nD τ).loc b))
    (Fa : (w : Fin cfg0.W) → Buf (Elt F) ((cfg0.win w).arr.view.loc (c : Thread nD τ)))
    (hF : ∀ w, Fa w = V' c (Pipeline.arrRef spec0 w)) :
    (dat0 V c).arrays Fa ⊢ (Pipeline.arrBufs (Ix := Unit) (Name := ℕ) (U := UR sig nD τ) (Lvl := ℕ) spec0 c (V' c) : sProp 𝕄) := by
  rw [arrBufs0_eq]
  unfold Dat.arrays
  rw [bigSep_W0]
  have e0 : (((cfg0.win 0).arr.view.loc (c : Thread nD τ)) ↦[(cfg0.win 0).arr.view.set]{(dat0 V c).share 0} Fa 0 : sProp 𝕄)
      = (((c : Thread nD τ).loc main_v1) ↦{fullShare.left} V' c main_v1) := by rw [(arr_whole0 0).set_eq_univ, hF]; rfl
  have e1 : (((cfg0.win 1).arr.view.loc (c : Thread nD τ)) ↦[(cfg0.win 1).arr.view.set]{(dat0 V c).share 1} Fa 1 : sProp 𝕄)
      = (((c : Thread nD τ).loc main_v1) ↦{fullShare.right} V' c main_v1) := by rw [(arr_whole0 1).set_eq_univ, hF]; rfl
  have e2 : (((cfg0.win 2).arr.view.loc (c : Thread nD τ)) ↦[(cfg0.win 2).arr.view.set]{(dat0 V c).share 2} Fa 2 : sProp 𝕄)
      = (((c : Thread nD τ).loc main_arg1) ↦{fullShare} V' c main_arg1) := by rw [(arr_whole0 2).set_eq_univ, hF]; rfl
  have e3 : (((cfg0.win 3).arr.view.loc (c : Thread nD τ)) ↦[(cfg0.win 3).arr.view.set]{(dat0 V c).share 3} Fa 3 : sProp 𝕄)
      = (((c : Thread nD τ).loc main_v2) ↦{fullShare} V' c main_v2) := by rw [(arr_whole0 3).set_eq_univ, hF]; rfl
  have e4 : (((cfg0.win 4).arr.view.loc (c : Thread nD τ)) ↦[(cfg0.win 4).arr.view.set]{(dat0 V c).share 4} Fa 4 : sProp 𝕄)
      = (((c : Thread nD τ).loc main_arg3) ↦{fullShare} V' c main_arg3) := by rw [(arr_whole0 4).set_eq_univ, hF]; rfl
  have e5 : (((cfg0.win 5).arr.view.loc (c : Thread nD τ)) ↦[(cfg0.win 5).arr.view.set]{(dat0 V c).share 5} Fa 5 : sProp 𝕄)
      = (((c : Thread nD τ).loc main_v3) ↦{fullShare} V' c main_v3) := by rw [(arr_whole0 5).set_eq_univ, hF]; rfl
  have e6 : (((cfg0.win 6).arr.view.loc (c : Thread nD τ)) ↦[(cfg0.win 6).arr.view.set]{(dat0 V c).share 6} Fa 6 : sProp 𝕄)
      = (((c : Thread nD τ).loc main_v4) ↦{fullShare} V' c main_v4) := by rw [(arr_whole0 6).set_eq_univ, hF]; rfl
  rw [e0, e1, e2, e3, e4, e5, e6]
  have hs : iprop((((c : Thread nD τ).loc main_v1) ↦{fullShare.left} V' c main_v1) ∗ (((c : Thread nD τ).loc main_v1) ↦{fullShare.right} V' c main_v1))
      ⊢ ((((c : Thread nD τ).loc main_v1) ↦{fullShare} V' c main_v1) : sProp 𝕄) :=
    (pointsTo_share (PosShare.mem_left_op_right fullShare)).2
  iintro ⟨Hl, Hr, Ha1, H2, Ha3, H3, H4⟩
  isplitl [Hl Hr]
  · iapply hs; isplitl [Hl]; · iexact Hl
    iexact Hr
  isplitl [Ha1]; · iexact Ha1
  isplitl [H2]; · iexact H2
  isplitl [Ha3]; · iexact Ha3
  isplitl [H3]; · iexact H3
  iexact H4

/-- ENTRY: the core's unscoped buffers at the region's entry contents are the pipeline's arrays at the proof data's
    entry contents and the rest. -/
theorem entry0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (arrays0_split V c _ (fun w => by rw [show (dat0 V c).arrAt w 0 = (dat0 V c).A w from rfl, A_eq0])) .rfl

/-- EXIT: the arrays at contents Fa and the rest at the entry contents are the core's unscoped buffers at any
    valuation that has the arrays at Fa and agrees with the entry contents off them. -/
theorem exit0 (c : Dev nD) (V' : (c : Dev nD) → (b : Ref sig .tc) → Buf (Elt F) ((c : Thread nD τ).loc b))
    (Fa : (w : Fin cfg0.W) → Buf (Elt F) ((cfg0.win w).arr.view.loc (c : Thread nD τ)))
    (hF : ∀ w, Fa w = V' c (Pipeline.arrRef spec0 w))
    (hrest : ∀ b, b ∉ Finset.univ.image (Pipeline.arrRef spec0) → V' c b = V c b) :
    iprop((dat0 V c).arrays Fa ∗ Pipeline.unscopedRest spec0 c (V c)) ⊢ (unscopedBufs c (V' c) : sProp 𝕄) := by
  rw [Pipeline.unscopedBufs_split₀ cfgs 0 winFacts₀0.arr_unscoped c (V' c)]
  refine sep_mono (arrays0_join V c V' Fa hF) (Entails.of_eq ?_)
  unfold Pipeline.unscopedRest
  exact bigSep_congr fun b hb => by rw [hrest b (Finset.mem_sdiff.mp hb).2]

end Split0

section Split1
variable (V : (c : Dev nD) → (b : Ref sig .tc) → Buf (Elt F) ((c : Thread nD τ).loc b))

/-- The six distinct buffers behind call 1's seven windows. -/
theorem arrBufs1_eq (c : Dev nD) :
    (Pipeline.arrBufs (Ix := Unit) (Name := ℕ) (U := UR sig nD τ) (Lvl := ℕ) spec1 c (V c) : sProp 𝕄)
      = iprop((((c : Thread nD τ).loc main_v12) ↦{fullShare} V c main_v12) ∗ (((c : Thread nD τ).loc main_arg5) ↦{fullShare} V c main_arg5) ∗ (((c : Thread nD τ).loc main_v13) ↦{fullShare} V c main_v13) ∗ (((c : Thread nD τ).loc main_arg7) ↦{fullShare} V c main_arg7) ∗ (((c : Thread nD τ).loc main_v14) ↦{fullShare} V c main_v14) ∗ (((c : Thread nD τ).loc main_v15) ↦{fullShare} V c main_v15)) := by
  unfold Pipeline.arrBufs
  exact bigSep_eq_bigSepL_of_eq [main_v12, main_arg5, main_v13, main_arg7, main_v14, main_v15] (by decide) (by decide) _

/-- The six buffers whole are the seven windows' arrays at the proof data's shares: the activations' array, which two
    windows read, is dealt half to each; every other window holds its own array whole. -/
theorem arrays1_split (c : Dev nD) (Fa : (w : Fin cfg1.W) → Buf (Elt F) ((cfg1.win w).arr.view.loc (c : Thread nD τ)))
    (hF : ∀ w, Fa w = V c (Pipeline.arrRef spec1 w)) :
    (Pipeline.arrBufs (Ix := Unit) (Name := ℕ) (U := UR sig nD τ) (Lvl := ℕ) spec1 c (V c) : sProp 𝕄) ⊢ (dat1 V c).arrays Fa := by
  rw [arrBufs1_eq]
  unfold Dat.arrays
  rw [bigSep_W1]
  have e0 : (((cfg1.win 0).arr.view.loc (c : Thread nD τ)) ↦[(cfg1.win 0).arr.view.set]{(dat1 V c).share 0} Fa 0 : sProp 𝕄)
      = (((c : Thread nD τ).loc main_v12) ↦{fullShare.left} V c main_v12) := by rw [(arr_whole1 0).set_eq_univ, hF]; rfl
  have e1 : (((cfg1.win 1).arr.view.loc (c : Thread nD τ)) ↦[(cfg1.win 1).arr.view.set]{(dat1 V c).share 1} Fa 1 : sProp 𝕄)
      = (((c : Thread nD τ).loc main_v12) ↦{fullShare.right} V c main_v12) := by rw [(arr_whole1 1).set_eq_univ, hF]; rfl
  have e2 : (((cfg1.win 2).arr.view.loc (c : Thread nD τ)) ↦[(cfg1.win 2).arr.view.set]{(dat1 V c).share 2} Fa 2 : sProp 𝕄)
      = (((c : Thread nD τ).loc main_arg5) ↦{fullShare} V c main_arg5) := by rw [(arr_whole1 2).set_eq_univ, hF]; rfl
  have e3 : (((cfg1.win 3).arr.view.loc (c : Thread nD τ)) ↦[(cfg1.win 3).arr.view.set]{(dat1 V c).share 3} Fa 3 : sProp 𝕄)
      = (((c : Thread nD τ).loc main_v13) ↦{fullShare} V c main_v13) := by rw [(arr_whole1 3).set_eq_univ, hF]; rfl
  have e4 : (((cfg1.win 4).arr.view.loc (c : Thread nD τ)) ↦[(cfg1.win 4).arr.view.set]{(dat1 V c).share 4} Fa 4 : sProp 𝕄)
      = (((c : Thread nD τ).loc main_arg7) ↦{fullShare} V c main_arg7) := by rw [(arr_whole1 4).set_eq_univ, hF]; rfl
  have e5 : (((cfg1.win 5).arr.view.loc (c : Thread nD τ)) ↦[(cfg1.win 5).arr.view.set]{(dat1 V c).share 5} Fa 5 : sProp 𝕄)
      = (((c : Thread nD τ).loc main_v14) ↦{fullShare} V c main_v14) := by rw [(arr_whole1 5).set_eq_univ, hF]; rfl
  have e6 : (((cfg1.win 6).arr.view.loc (c : Thread nD τ)) ↦[(cfg1.win 6).arr.view.set]{(dat1 V c).share 6} Fa 6 : sProp 𝕄)
      = (((c : Thread nD τ).loc main_v15) ↦{fullShare} V c main_v15) := by rw [(arr_whole1 6).set_eq_univ, hF]; rfl
  rw [e0, e1, e2, e3, e4, e5, e6]
  iintro ⟨H1, Ha1, H2, Ha3, H3, H4⟩
  have hs : ((((c : Thread nD τ).loc main_v12) ↦{fullShare} V c main_v12) : sProp 𝕄)
      ⊢ iprop((((c : Thread nD τ).loc main_v12) ↦{fullShare.left} V c main_v12) ∗ (((c : Thread nD τ).loc main_v12) ↦{fullShare.right} V c main_v12)) :=
    (pointsTo_share (PosShare.mem_left_op_right fullShare)).1
  ihave Hs := hs $$ H1
  icases Hs with ⟨Hl, Hr⟩
  isplitl [Hl]; · iexact Hl
  isplitl [Hr]; · iexact Hr
  isplitl [Ha1]; · iexact Ha1
  isplitl [H2]; · iexact H2
  isplitl [Ha3]; · iexact Ha3
  isplitl [H3]; · iexact H3
  iexact H4

/-- The converse at the exit: the seven windows' arrays, the activations' two halves rejoined, are the six buffers
    whole, at any contents the windows agree on. -/
theorem arrays1_join (c : Dev nD) (V' : (c : Dev nD) → (b : Ref sig .tc) → Buf (Elt F) ((c : Thread nD τ).loc b))
    (Fa : (w : Fin cfg1.W) → Buf (Elt F) ((cfg1.win w).arr.view.loc (c : Thread nD τ)))
    (hF : ∀ w, Fa w = V' c (Pipeline.arrRef spec1 w)) :
    (dat1 V c).arrays Fa ⊢ (Pipeline.arrBufs (Ix := Unit) (Name := ℕ) (U := UR sig nD τ) (Lvl := ℕ) spec1 c (V' c) : sProp 𝕄) := by
  rw [arrBufs1_eq]
  unfold Dat.arrays
  rw [bigSep_W1]
  have e0 : (((cfg1.win 0).arr.view.loc (c : Thread nD τ)) ↦[(cfg1.win 0).arr.view.set]{(dat1 V c).share 0} Fa 0 : sProp 𝕄)
      = (((c : Thread nD τ).loc main_v12) ↦{fullShare.left} V' c main_v12) := by rw [(arr_whole1 0).set_eq_univ, hF]; rfl
  have e1 : (((cfg1.win 1).arr.view.loc (c : Thread nD τ)) ↦[(cfg1.win 1).arr.view.set]{(dat1 V c).share 1} Fa 1 : sProp 𝕄)
      = (((c : Thread nD τ).loc main_v12) ↦{fullShare.right} V' c main_v12) := by rw [(arr_whole1 1).set_eq_univ, hF]; rfl
  have e2 : (((cfg1.win 2).arr.view.loc (c : Thread nD τ)) ↦[(cfg1.win 2).arr.view.set]{(dat1 V c).share 2} Fa 2 : sProp 𝕄)
      = (((c : Thread nD τ).loc main_arg5) ↦{fullShare} V' c main_arg5) := by rw [(arr_whole1 2).set_eq_univ, hF]; rfl
  have e3 : (((cfg1.win 3).arr.view.loc (c : Thread nD τ)) ↦[(cfg1.win 3).arr.view.set]{(dat1 V c).share 3} Fa 3 : sProp 𝕄)
      = (((c : Thread nD τ).loc main_v13) ↦{fullShare} V' c main_v13) := by rw [(arr_whole1 3).set_eq_univ, hF]; rfl
  have e4 : (((cfg1.win 4).arr.view.loc (c : Thread nD τ)) ↦[(cfg1.win 4).arr.view.set]{(dat1 V c).share 4} Fa 4 : sProp 𝕄)
      = (((c : Thread nD τ).loc main_arg7) ↦{fullShare} V' c main_arg7) := by rw [(arr_whole1 4).set_eq_univ, hF]; rfl
  have e5 : (((cfg1.win 5).arr.view.loc (c : Thread nD τ)) ↦[(cfg1.win 5).arr.view.set]{(dat1 V c).share 5} Fa 5 : sProp 𝕄)
      = (((c : Thread nD τ).loc main_v14) ↦{fullShare} V' c main_v14) := by rw [(arr_whole1 5).set_eq_univ, hF]; rfl
  have e6 : (((cfg1.win 6).arr.view.loc (c : Thread nD τ)) ↦[(cfg1.win 6).arr.view.set]{(dat1 V c).share 6} Fa 6 : sProp 𝕄)
      = (((c : Thread nD τ).loc main_v15) ↦{fullShare} V' c main_v15) := by rw [(arr_whole1 6).set_eq_univ, hF]; rfl
  rw [e0, e1, e2, e3, e4, e5, e6]
  have hs : iprop((((c : Thread nD τ).loc main_v12) ↦{fullShare.left} V' c main_v12) ∗ (((c : Thread nD τ).loc main_v12) ↦{fullShare.right} V' c main_v12))
      ⊢ ((((c : Thread nD τ).loc main_v12) ↦{fullShare} V' c main_v12) : sProp 𝕄) :=
    (pointsTo_share (PosShare.mem_left_op_right fullShare)).2
  iintro ⟨Hl, Hr, Ha1, H2, Ha3, H3, H4⟩
  isplitl [Hl Hr]
  · iapply hs; isplitl [Hl]; · iexact Hl
    iexact Hr
  isplitl [Ha1]; · iexact Ha1
  isplitl [H2]; · iexact H2
  isplitl [Ha3]; · iexact Ha3
  isplitl [H3]; · iexact H3
  iexact H4

/-- ENTRY: the core's unscoped buffers at the region's entry contents are the pipeline's arrays at the proof data's
    entry contents and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_split V c _ (fun w => by rw [show (dat1 V c).arrAt w 0 = (dat1 V c).A w from rfl, A_eq1])) .rfl

/-- EXIT: the arrays at contents Fa and the rest at the entry contents are the core's unscoped buffers at any
    valuation that has the arrays at Fa and agrees with the entry contents off them. -/
theorem exit1 (c : Dev nD) (V' : (c : Dev nD) → (b : Ref sig .tc) → Buf (Elt F) ((c : Thread nD τ).loc b))
    (Fa : (w : Fin cfg1.W) → Buf (Elt F) ((cfg1.win w).arr.view.loc (c : Thread nD τ)))
    (hF : ∀ w, Fa w = V' c (Pipeline.arrRef spec1 w))
    (hrest : ∀ b, b ∉ Finset.univ.image (Pipeline.arrRef spec1) → V' c b = V c b) :
    iprop((dat1 V c).arrays Fa ∗ Pipeline.unscopedRest spec1 c (V c)) ⊢ (unscopedBufs c (V' c) : sProp 𝕄) := by
  rw [Pipeline.unscopedBufs_split₀ cfgs 1 winFacts₀1.arr_unscoped c (V' c)]
  refine sep_mono (arrays1_join V c V' Fa hF) (Entails.of_eq ?_)
  unfold Pipeline.unscopedRest
  exact bigSep_congr fun b hb => by rw [hrest b (Finset.mem_sdiff.mp hb).2]

end Split1

/-- After the last point the invariant gives the class's back: the scratch buffers' named contents are forgotten. -/
theorem Phi_out0 (V : (c : Dev nD) → (b : Ref sig .tc) → Buf (Elt F) ((c : Thread nD τ).loc b)) (c : Dev nD) :
    (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_eq]
  iintro ⟨⟨HA, HQ, Ho⟩, Hg⟩
  isplitl [HA HQ Ho]
  · isplitl [HA]; · iexists _; iexact HA
    isplitl [HQ]; · iexists _; iexact HQ
    iexact Ho
  iexact Hg

/-- After the last point the invariant gives the class's back: the scratch buffers' named contents are forgotten. -/
theorem Phi_out1 (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), PhiA1_eq]
  iintro ⟨⟨H0, H1, H2, H3, H4, H5, H6, H7, H8, H9, H10, H11, HA, HQ⟩, Hg⟩
  isplitl [H0 H1 H2 H3 H4 H5 H6 H7 H8 H9 H10 H11 HA HQ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HA]; · iexists _; iexact HA
    iexists _; iexact HQ
  iexact Hg

/-! ## The buffers between the program's items -/

/-- The buffers as call 0 finds them: the launch contents after the first host stretch. -/
abbrev VA (c : Dev nD) (b : Ref sig .tc) : Buf (Elt F) ((c : Thread nD τ).loc b) := V1 m c b
/-- What call 0 leaves in its output array: the write-backs of all its points. -/
def outA (c : Dev nD) : Buf (Elt F) ((c : Thread nD τ).loc main_v4) := (dat0 (VA m) c).arrAt 6 cfg0.N
/-- The regions' results as far as call 0: its output array at what it leaves. -/
def outsA : Outs (F := F) := fun _ r c => Function.update (V1 m c) main_v4 (outA m c) r
/-- The buffers as call 1 finds them: after call 0 and the second host stretch. -/
abbrev VB (c : Dev nD) (b : Ref sig .tc) : Buf (Elt F) ((c : Thread nD τ).loc b) := V3 m (outsA m) c b
/-- What call 1 leaves in its output array. -/
def outB (c : Dev nD) : Buf (Elt F) ((c : Thread nD τ).loc main_v15) := (dat1 (VB m) c).arrAt 6 cfg1.N
/-- The regions' results: call 0's output array after item 1, call 1's after item 3. -/
def outs : Outs (F := F) := fun j r c =>
  if j = 2 then outsA m j r c else Function.update (V3 m (outsA m) c) main_v15 (outB m c) r

theorem outs_2 (c : Dev nD) : outs m 2 main_v4 c = outA m c := by
  unfold outs outsA; rw [if_pos rfl]; exact Function.update_self ..
theorem outsA_2 (c : Dev nD) : outsA m 2 main_v4 c = outA m c := by
  unfold outsA; exact Function.update_self ..
theorem outs_4 (c : Dev nD) : outs m 4 main_v15 c = outB m c := by
  unfold outs; rw [if_neg (by decide)]; exact Function.update_self ..
theorem V2_outs (c : Dev nD) : V2 m (outs m) c = V2 m (outsA m) c := by
  unfold V2; rw [outs_2, outsA_2]
theorem V3_outs (c : Dev nD) : V3 m (outs m) c = V3 m (outsA m) c := by
  unfold V3; rw [V2_outs]

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

/-- What call 0's arrays hold at its exit is the next valuation at them: an input as entered, the output at what the
    write-backs leave. -/
theorem exitF0 (c : Dev nD) (w : Fin cfg0.W) : (dat0 (VA m) c).arrAt w cfg0.N = V2 m (outs m) c (Pipeline.arrRef spec0 w) := by
  fin_cases w
  · exact ((dat0 (VA m) c).arrAt_in 0 rfl _).trans ((A_eq0 (VA m) c 0).trans (V2_of m (outs m) c main_v1 (by decide)).symm)
  · exact ((dat0 (VA m) c).arrAt_in 1 rfl _).trans ((A_eq0 (VA m) c 1).trans (V2_of m (outs m) c main_v1 (by decide)).symm)
  · exact ((dat0 (VA m) c).arrAt_in 2 rfl _).trans ((A_eq0 (VA m) c 2).trans (V2_of m (outs m) c main_arg1 (by decide)).symm)
  · exact ((dat0 (VA m) c).arrAt_in 3 rfl _).trans ((A_eq0 (VA m) c 3).trans (V2_of m (outs m) c main_v2 (by decide)).symm)
  · exact ((dat0 (VA m) c).arrAt_in 4 rfl _).trans ((A_eq0 (VA m) c 4).trans (V2_of m (outs m) c main_arg3 (by decide)).symm)
  · exact ((dat0 (VA m) c).arrAt_in 5 rfl _).trans ((A_eq0 (VA m) c 5).trans (V2_of m (outs m) c main_v3 (by decide)).symm)
  · show outA m c = V2 m (outs m) c main_v4
    unfold V2; rw [Function.update_self]; exact (outs_2 m c).symm

/-- What call 1's arrays hold at its exit is the next valuation at them. -/
theorem exitF1 (c : Dev nD) (w : Fin cfg1.W) : (dat1 (VB m) c).arrAt w cfg1.N = V4 m (outs m) c (Pipeline.arrRef spec1 w) := by
  have hv : ∀ r : Ref sig .tc, r ∉ ([main_v15] : List (Ref sig .tc)) → VB m c r = V4 m (outs m) c r :=
    fun r hr => ((V4_of m (outs m) c r hr).trans (by rw [V3_outs])).symm
  fin_cases w
  · exact ((dat1 (VB m) c).arrAt_in 0 rfl _).trans ((A_eq1 (VB m) c 0).trans (hv main_v12 (by decide)))
  · exact ((dat1 (VB m) c).arrAt_in 1 rfl _).trans ((A_eq1 (VB m) c 1).trans (hv main_v12 (by decide)))
  · exact ((dat1 (VB m) c).arrAt_in 2 rfl _).trans ((A_eq1 (VB m) c 2).trans (hv main_arg5 (by decide)))
  · exact ((dat1 (VB m) c).arrAt_in 3 rfl _).trans ((A_eq1 (VB m) c 3).trans (hv main_v13 (by decide)))
  · exact ((dat1 (VB m) c).arrAt_in 4 rfl _).trans ((A_eq1 (VB m) c 4).trans (hv main_arg7 (by decide)))
  · exact ((dat1 (VB m) c).arrAt_in 5 rfl _).trans ((A_eq1 (VB m) c 5).trans (hv main_v14 (by decide)))
  · show outB m c = V4 m (outs m) c main_v15
    unfold V4; rw [Function.update_self]; exact (outs_4 m c).symm

set_option backward.isDefEq.respectTransparency.types false in
/-- Call 0 as a region of the host program: entered from every unscoped buffer at the contents the host stretch before
    it left, left at those contents with its output array at what the write-backs leave. Its arrays are split out of the
    unscoped buffers at the entry (the activations' array dealt half to each of its two windows) and put back, the
    halves rejoined, at the exit; the generator register goes into the invariant and comes back; nothing is owed; the
    kernel has no semaphore of its own. -/
def reg0 (hb : ∀ c, BodyObligation (dat0 (F := F) (VA m) c) (defs₀ (F := F)) Variants.none () Set.univ) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := entry0 (VA m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (VA m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (VA m c))
        ⊢ (unscopedBufs c (fun b => V2 m (outs m) c b) : sProp 𝕄) :=
      exit0 (VA m) c (fun c b => V2 m (outs m) c b) ((pdats m 0 c).arrAt · cfg0.N) (exitF0 m c)
        (fun b hb => V2_of m (outs m) c b (fun h => hb (by rw [List.mem_singleton] at h; subst h; exact Finset.mem_image.mpr ⟨6, Finset.mem_univ _, rfl⟩)))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a region of the host program: entered from every unscoped buffer at the contents the host stretch before
    it left, left at those contents with its output array at what the write-backs leave. Its arrays are split out of the
    unscoped buffers at the entry (the activations' array dealt half to each of its two windows) and put back, the
    halves rejoined, at the exit; the generator register goes into the invariant and comes back; nothing is owed; the
    kernel has no semaphore of its own. -/
def reg1 (hb : ∀ c, BodyObligation (dat1 (F := F) (VB m) c) (defs₀ (F := F)) Variants.none () Set.univ) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := entry1 (VB m) c
    rw [Pipeline.unscopedBufs_held] at hsplit
    rw [V3_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (VB m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (VB m c))
        ⊢ (unscopedBufs c (fun b => V4 m (outs m) c b) : sProp 𝕄) :=
      exit1 (VB m) c (fun c b => V4 m (outs m) c b) ((pdats m 1 c).arrAt · cfg1.N) (exitF1 m c)
        (fun b hb => (V4_of m (outs m) c b (fun h => hb (by rw [List.mem_singleton] at h; subst h; exact Finset.mem_image.mpr ⟨6, Finset.mem_univ _, rfl⟩))).trans (by rw [V3_outs]))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The run -/

/-- What rides beside the buffers at every boundary between the program's items. -/
abbrev E : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Given the two calls' body obligations: from any memory with zero counters every weakly fair execution of
    the program terminates, nothing faulting, and every final state holds each unscoped buffer at the last valuation —
    the launch contents pushed through the three host stretches and the two calls' results. -/
theorem run_all (hb0 : ∀ c, BodyObligation (dat0 (F := F) (VA m) c) (defs₀ (F := F)) Variants.none () Set.univ)
    (hb1 : ∀ c, BodyObligation (dat1 (F := F) (VB m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = V5 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m hb0) (reg1 m hb1))
    (fun c Q => by
      rewrite [main_chain c, Pipeline.Seg.run_eq_chain,
        show (segs m (outs m) 𝒱₀ L lv E () (pdats m) (reg0 m hb0) (reg1 m hb1) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl,
      sep_mono .rfl (show (R c : sProp 𝕄) ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨Hh, HSI⟩
      unfold StableHlo.held
      imodintro
      iapply (pointsTo_read_all (Pipeline.ucRefs τ sig) (fun b => (((c : Thread nD τ)).1, b)) (V5 m (outs m) c) s')
      isplitl [Hh] <;> iassumption)
    (hQ := fun s h c => h c)

/-- THE FRAME: every argument array ends holding its launch contents — no host stretch writes an argument and no call
    may change one. -/
theorem frame (hb0 : ∀ c, BodyObligation (dat0 (F := F) (VA m) c) (defs₀ (F := F)) Variants.none () Set.univ)
    (hb1 : ∀ c, BodyObligation (dat1 (F := F) (VB m) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (V5_main_arg0 m (outs m) c),
    (h c _ (mem_uc main_arg1 (by decide))).trans (V5_main_arg1 m (outs m) c),
    (h c _ (mem_uc main_arg2 (by decide))).trans (V5_main_arg2 m (outs m) c),
    (h c _ (mem_uc main_arg3 (by decide))).trans (V5_main_arg3 m (outs m) c),
    (h c _ (mem_uc main_arg4 (by decide))).trans (V5_main_arg4 m (outs m) c),
    (h c _ (mem_uc main_arg5 (by decide))).trans (V5_main_arg5 m (outs m) c),
    (h c _ (mem_uc main_arg6 (by decide))).trans (V5_main_arg6 m (outs m) c),
    (h c _ (mem_uc main_arg7 (by decide))).trans (V5_main_arg7 m (outs m) c),
    (h c _ (mem_uc main_arg8 (by decide))).trans (V5_main_arg8 m (outs m) c),
    (h c _ (mem_uc main_arg9 (by decide))).trans (V5_main_arg9 m (outs m) c),
    (h c _ (mem_uc main_arg10 (by decide))).trans (V5_main_arg10 m (outs m) c)⟩)
    (run_all m ρ hb0 hb1)

/-- THE RESULT: the program's result array ends at the last valuation's contents, beside the frame. -/
theorem run_value (hb0 : ∀ c, BodyObligation (dat0 (F := F) (VA m) c) (defs₀ (F := F)) Variants.none () Set.univ)
    (hb1 : ∀ c, BodyObligation (dat1 (F := F) (VB m) c) (defs₀ (F := F)) Variants.none () Set.univ) :
    θ_run defs (onTc (τ := τ) (main (F := F))) ⟨m, fun _ => 0, ρ⟩ (fun r => ∀ c : Dev nD,
      r.2.mem ((c.tc : Thread nD τ).loc main_v21) = V5 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v21 (by decide)),
    (h c _ (mem_uc main_arg0 (by decide))).trans (V5_main_arg0 m (outs m) c),
    (h c _ (mem_uc main_arg1 (by decide))).trans (V5_main_arg1 m (outs m) c),
    (h c _ (mem_uc main_arg2 (by decide))).trans (V5_main_arg2 m (outs m) c),
    (h c _ (mem_uc main_arg3 (by decide))).trans (V5_main_arg3 m (outs m) c),
    (h c _ (mem_uc main_arg4 (by decide))).trans (V5_main_arg4 m (outs m) c),
    (h c _ (mem_uc main_arg5 (by decide))).trans (V5_main_arg5 m (outs m) c),
    (h c _ (mem_uc main_arg6 (by decide))).trans (V5_main_arg6 m (outs m) c),
    (h c _ (mem_uc main_arg7 (by decide))).trans (V5_main_arg7 m (outs m) c),
    (h c _ (mem_uc main_arg8 (by decide))).trans (V5_main_arg8 m (outs m) c),
    (h c _ (mem_uc main_arg9 (by decide))).trans (V5_main_arg9 m (outs m) c),
    (h c _ (mem_uc main_arg10 (by decide))).trans (V5_main_arg10 m (outs m) c)⟩)
    (run_all m ρ hb0 hb1)

end Cert.Kernel.Ax

end
-- ==== Proof.KBodyRuns.lean ====
import proofs.«100374_j17686675325050_1_alg».proof.Proof.KData
import Idealize.ShloMosaic.Lib.Pipeline.Value
set_option maxRecDepth 16384

noncomputable section

namespace Cert.Kernel.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The body of the two pallas calls, run once per case of its two conditionals

The two calls have the same body. Its two conditionals read only the key block, the grid's innermost coordinate: at key
block 0 it first resets the two scratch buffers (the running sum to zero, the queries to their projection), at key block
7 it finally copies the running sum out. Every load and every store moves a whole buffer, so what each buffer holds
afterwards is the last payload stored into it, and a load after a store reads that store's payload. -/

/-! ## The body's two conditions over the grid -/

/-- The body's first conditional asks whether the key block (the grid's last coordinate) is 0. -/
abbrev cond0_0 (i : grid0.Coords) : Prop := (Scalar.cmpi .ne (Scalar.extui (Scalar.cmpi .eq (BitVec.ofNat 32 (i 2).val) 0#32)) 0#32) = 1#1
/-- The key block is the innermost coordinate: it is 0 exactly at the positions ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second conditional asks whether the key block is the last, 7. -/
abbrev cond0_1 (i : grid0.Coords) : Prop := k0_cond2 i = 1#1
/-- It is 7 exactly at the positions ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The body's two conditions over the grid -/

/-- The body's first conditional asks whether the key block (the grid's last coordinate) is 0. -/
abbrev cond1_0 (i : grid1.Coords) : Prop := (Scalar.cmpi .ne (Scalar.extui (Scalar.cmpi .eq (BitVec.ofNat 32 (i 2).val) 0#32)) 0#32) = 1#1
/-- The key block is the innermost coordinate: it is 0 exactly at the positions ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second conditional asks whether the key block is the last, 7. -/
abbrev cond1_1 (i : grid1.Coords) : Prop := k1_cond2 i = 1#1
/-- It is 7 exactly at the positions ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets, however they are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, last in a list of stores, covers the buffer. -/
theorem cover_S512x64 (p : Vec F S512x64 .f32) (L : List (View.Piece (Elt F) S512x64 .f32)) (y : S512x64.Idx) :
    ∃ pc ∈ ((⟨Rect.unit (s := S512x64) ![0, 0] S512x64.size inb_S512x64_S512x64_0_0, p⟩ : View.Piece (Elt F) S512x64 .f32) :: L), y ∈ pc.1.set :=
  ⟨_, List.mem_cons_self, View.mem_set_unit_zero hz2 inb_S512x64_S512x64_0_0 y⟩
theorem cover_S1x512x64 (p : Vec F S1x512x64 .f32) (L : List (View.Piece (Elt F) S1x512x64 .f32)) (y : S1x512x64.Idx) :
    ∃ pc ∈ ((⟨Rect.unit (s := S1x512x64) ![0, 0, 0] S1x512x64.size inb_S1x512x64_S1x512x64_0_0_0, p⟩ : View.Piece (Elt F) S1x512x64 .f32) :: L), y ∈ pc.1.set :=
  ⟨_, List.mem_cons_self, View.mem_set_unit_zero hz3 inb_S1x512x64_S1x512x64_0_0_0 y⟩

/-! ## Pallas call 0 -/

set_option maxHeartbeats 1000000 in
/-- The body at a point with key block 0 (first conditional taken, second not): whatever the two scratch buffers held,
    it leaves the projected queries in the second and zero plus the key block's contribution in the first; the inputs'
    buffers and the output's stay as they were. -/
theorem kernelA0 (c : Dev nD) (E : Set ℕ) (i : grid0.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : cond0_0 i) (hc1 : ¬cond0_1 i)
    (x0 x1 : Vec F S1x512x64 .f32) (w : Vec F S64x64 .f32) (b : Vec F S1x64 .f32) (wv : Vec F S64x64 .f32) (bv : Vec F S1x64 .f32)
    (y : Vec F S1x512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k0_pay1 (k0_pay5 (F := F)) (k0_pay7 w b wv bv x1 (k0_pay6 w b x0)))
            ∗ owns (c : Thread nD τ) arg11 fullShare (k0_pay6 w b x0)) -∗ K ⟨⟩))
      ⊢ wp frame (wpE (defs₀ (F := F)) Variants.none c none) E (cc0__axial_attn_kernel i arg3 harg3 arg4 harg4 arg5 harg5 arg6 harg6 arg7 harg7 arg8 harg8 arg9 harg9 arg10 harg10 arg11 harg11) K := by
  simp only [cc0__axial_attn_kernel_eq_skeleton]; unfold cc0__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf3 hf4 hf5 hf6 hf7 hf8 hf9
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  iexists _; isplitr
  swap; · iexact H11
  ipureintro
  sl_unfold_run_names
  rw [View.read_writes_eq_canon _ _ _ (cover_S512x64 _ _)]
  rw [View.canon_unit_zero (S := S512x64) hz2]
  simp only [View.readAt_eq_ld, View.ld_unit_zero (S := S64x64) hz2, View.ld_unit_zero (S := S1x64) hz2, View.ld_unit_zero (S := S512x64) hz2, View.ld_unit_zero (S := S1x512x64) hz3]

set_option maxHeartbeats 1000000 in
/-- The body at a point with key block strictly between 0 and 7 (neither conditional taken): the projected queries q stay,
    the key block's contribution is added to the running sum; the inputs' buffers and the output's stay as they were. -/
theorem kernelB0 (c : Dev nD) (E : Set ℕ) (i : grid0.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond0_0 i) (hc1 : ¬cond0_1 i)
    (x0 x1 : Vec F S1x512x64 .f32) (w : Vec F S64x64 .f32) (b : Vec F S1x64 .f32) (wv : Vec F S64x64 .f32) (bv : Vec F S1x64 .f32)
    (y : Vec F S1x512x64 .f32) (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k0_pay1 acc (k0_pay7 w b wv bv x1 q))
            ∗ owns (c : Thread nD τ) arg11 fullShare q) -∗ K ⟨⟩))
      ⊢ wp frame (wpE (defs₀ (F := F)) Variants.none c none) E (cc0__axial_attn_kernel i arg3 harg3 arg4 harg4 arg5 harg5 arg6 harg6 arg7 harg7 arg8 harg8 arg9 harg9 arg10 harg10 arg11 harg11) K := by
  simp only [cc0__axial_attn_kernel_eq_skeleton]; unfold cc0__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

set_option maxHeartbeats 1000000 in
/-- The body at a point with key block 7 (only the second conditional taken): as between, and the running sum is then
    copied, reshaped, into the output's buffer, whatever that held. -/
theorem kernelC0 (c : Dev nD) (E : Set ℕ) (i : grid0.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond0_0 i) (hc1 : cond0_1 i)
    (x0 x1 : Vec F S1x512x64 .f32) (w : Vec F S64x64 .f32) (b : Vec F S1x64 .f32) (wv : Vec F S64x64 .f32) (bv : Vec F S1x64 .f32)
    (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ (∃ d, owns (c : Thread nD τ) arg9 fullShare d) ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare (k0_pay2 (k0_pay1 acc (k0_pay7 w b wv bv x1 q)))
            ∗ owns (c : Thread nD τ) arg10 fullShare (k0_pay1 acc (k0_pay7 w b wv bv x1 q))
            ∗ owns (c : Thread nD τ) arg11 fullShare q) -∗ K ⟨⟩))
      ⊢ wp frame (wpE (defs₀ (F := F)) Variants.none c none) E (cc0__axial_attn_kernel i arg3 harg3 arg4 harg4 arg5 harg5 arg6 harg6 arg7 harg7 arg8 harg8 arg9 harg9 arg10 harg10 arg11 harg11) K := by
  simp only [cc0__axial_attn_kernel_eq_skeleton]; unfold cc0__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf3 hf4 hf5 hf6 hf7 hf8 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    sl_unfold_run_names
    rw [View.read_writes_eq_canon _ _ _ (cover_S1x512x64 _ _)]
    rw [View.canon_cons_unit_zero (S := S1x512x64) hz3]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

/-! ## Pallas call 1 -/

set_option maxHeartbeats 1000000 in
/-- The body at a point with key block 0 (first conditional taken, second not): whatever the two scratch buffers held,
    it leaves the projected queries in the second and zero plus the key block's contribution in the first; the inputs'
    buffers and the output's stay as they were. -/
theorem kernelA1 (c : Dev nD) (E : Set ℕ) (i : grid1.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : cond1_0 i) (hc1 : ¬cond1_1 i)
    (x0 x1 : Vec F S1x512x64 .f32) (w : Vec F S64x64 .f32) (b : Vec F S1x64 .f32) (wv : Vec F S64x64 .f32) (bv : Vec F S1x64 .f32)
    (y : Vec F S1x512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k1_pay1 (k1_pay5 (F := F)) (k1_pay7 w b wv bv x1 (k1_pay6 w b x0)))
            ∗ owns (c : Thread nD τ) arg11 fullShare (k1_pay6 w b x0)) -∗ K ⟨⟩))
      ⊢ wp frame (wpE (defs₀ (F := F)) Variants.none c none) E (cc1__axial_attn_kernel i arg3 harg3 arg4 harg4 arg5 harg5 arg6 harg6 arg7 harg7 arg8 harg8 arg9 harg9 arg10 harg10 arg11 harg11) K := by
  simp only [cc1__axial_attn_kernel_eq_skeleton]; unfold cc1__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf3 hf4 hf5 hf6 hf7 hf8 hf9
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  iexists _; isplitr
  swap; · iexact H11
  ipureintro
  sl_unfold_run_names
  rw [View.read_writes_eq_canon _ _ _ (cover_S512x64 _ _)]
  rw [View.canon_unit_zero (S := S512x64) hz2]
  simp only [View.readAt_eq_ld, View.ld_unit_zero (S := S64x64) hz2, View.ld_unit_zero (S := S1x64) hz2, View.ld_unit_zero (S := S512x64) hz2, View.ld_unit_zero (S := S1x512x64) hz3]

set_option maxHeartbeats 1000000 in
/-- The body at a point with key block strictly between 0 and 7 (neither conditional taken): the projected queries q stay,
    the key block's contribution is added to the running sum; the inputs' buffers and the output's stay as they were. -/
theorem kernelB1 (c : Dev nD) (E : Set ℕ) (i : grid1.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond1_0 i) (hc1 : ¬cond1_1 i)
    (x0 x1 : Vec F S1x512x64 .f32) (w : Vec F S64x64 .f32) (b : Vec F S1x64 .f32) (wv : Vec F S64x64 .f32) (bv : Vec F S1x64 .f32)
    (y : Vec F S1x512x64 .f32) (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k1_pay1 acc (k1_pay7 w b wv bv x1 q))
            ∗ owns (c : Thread nD τ) arg11 fullShare q) -∗ K ⟨⟩))
      ⊢ wp frame (wpE (defs₀ (F := F)) Variants.none c none) E (cc1__axial_attn_kernel i arg3 harg3 arg4 harg4 arg5 harg5 arg6 harg6 arg7 harg7 arg8 harg8 arg9 harg9 arg10 harg10 arg11 harg11) K := by
  simp only [cc1__axial_attn_kernel_eq_skeleton]; unfold cc1__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

set_option maxHeartbeats 1000000 in
/-- The body at a point with key block 7 (only the second conditional taken): as between, and the running sum is then
    copied, reshaped, into the output's buffer, whatever that held. -/
theorem kernelC1 (c : Dev nD) (E : Set ℕ) (i : grid1.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond1_0 i) (hc1 : cond1_1 i)
    (x0 x1 : Vec F S1x512x64 .f32) (w : Vec F S64x64 .f32) (b : Vec F S1x64 .f32) (wv : Vec F S64x64 .f32) (bv : Vec F S1x64 .f32)
    (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ (∃ d, owns (c : Thread nD τ) arg9 fullShare d) ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare (k1_pay2 (k1_pay1 acc (k1_pay7 w b wv bv x1 q)))
            ∗ owns (c : Thread nD τ) arg10 fullShare (k1_pay1 acc (k1_pay7 w b wv bv x1 q))
            ∗ owns (c : Thread nD τ) arg11 fullShare q) -∗ K ⟨⟩))
      ⊢ wp frame (wpE (defs₀ (F := F)) Variants.none c none) E (cc1__axial_attn_kernel i arg3 harg3 arg4 harg4 arg5 harg5 arg6 harg6 arg7 harg7 arg8 harg8 arg9 harg9 arg10 harg10 arg11 harg11) K := by
  simp only [cc1__axial_attn_kernel_eq_skeleton]; unfold cc1__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf3 hf4 hf5 hf6 hf7 hf8 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    sl_unfold_run_names
    rw [View.read_writes_eq_canon _ _ _ (cover_S1x512x64 _ _)]
    rw [View.canon_cons_unit_zero (S := S1x512x64) hz3]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

end Cert.Kernel.Ax

end
-- ==== Proof.KBody.lean ====
/-
  The body obligation of the two pallas calls: at every grid point the kernel body, handed the invariant and each
  window's current staging buffer, runs to the invariant of the next point and each buffer at what the proof data say.
  The point's position mod 8 (the key block) selects one of three runs of the body; the pair (q, acc) in the two scratch
  buffers then moves from the pair the point before left to this point's, by the recursion that defines it.
-/
import proofs.«100374_j17686675325050_1_alg».proof.Proof.KData
import proofs.«100374_j17686675325050_1_alg».proof.Proof.KBodyRuns
set_option maxRecDepth 16384

noncomputable section

namespace Cert.Kernel.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Pallas call 0: where its windows are idle -/

/-- The six input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle exactly where the key block is not the last: there the body stores nothing into it, -/
theorem idleAt0_6 : ∀ t : Fin cfg0.N, ¬cond0_1 (grid0.coords t) → cfg0.idle 6 (grid0.coords t) = true := by decide +kernel
/-- and the pipeline does not write its block back; -/
theorem noFlush0_6 : ∀ t : Fin cfg0.N, ¬cond0_1 (grid0.coords t) → (cfg0.win 6).flush t = false := by decide +kernel
/-- at the last key block it is live. -/
theorem liveAt0_6 : ∀ t : Fin cfg0.N, cond0_1 (grid0.coords t) → cfg0.idle 6 (grid0.coords t) = false := by decide +kernel

/-! ## Pallas call 1: where its windows are idle -/

/-- The six input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The output window is idle exactly where the key block is not the last: there the body stores nothing into it, -/
theorem idleAt1_6 : ∀ t : Fin cfg1.N, ¬cond1_1 (grid1.coords t) → cfg1.idle 6 (grid1.coords t) = true := by decide +kernel
/-- and the pipeline does not write its block back; -/
theorem noFlush1_6 : ∀ t : Fin cfg1.N, ¬cond1_1 (grid1.coords t) → (cfg1.win 6).flush t = false := by decide +kernel
/-- at the last key block it is live. -/
theorem liveAt1_6 : ∀ t : Fin cfg1.N, cond1_1 (grid1.coords t) → cfg1.idle 6 (grid1.coords t) = false := by decide +kernel

section Region0
variable (V : (c : Dev nD) → (b : Ref sig .tc) → Buf (Elt F) ((c : Thread nD τ).loc b))

/-! ## Pallas call 0: the body at a point -/

/-- What the body is handed at point t: the invariant, the core's debts (none), and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the position's residue mod 8 says which conditionals are
    taken. At key block 0 the scratch buffers may hold anything (before the very first point the class's invariant says no
    more) and are left at the fresh pair; elsewhere they hold the pair the point before left and are left at the next pair;
    at key block 7 the output's buffer receives the running sum, elsewhere it is idle and handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  rw [show (dat0 V c).leavesExact 3 t = owns (c : Thread nD τ) (st0_3 t) fullShare ((dat0 V c).after 3 t) from by
      unfold Dat.leavesExact; rw [liveAt0_3 t], after0_3]
  rw [show (dat0 V c).leavesExact 4 t = owns (c : Thread nD τ) (st0_4 t) fullShare ((dat0 V c).after 4 t) from by
      unfold Dat.leavesExact; rw [liveAt0_4 t], after0_4]
  rw [show (dat0 V c).leavesExact 5 t = owns (c : Thread nD τ) (st0_5 t) fullShare ((dat0 V c).after 5 t) from by
      unfold Dat.leavesExact; rw [liveAt0_5 t], after0_5]
  have hN : t.val < 256 := lt_of_lt_of_eq t.isLt (show cfg0.N = 256 from N_0)
  by_cases h0 : t.val % 8 = 0
  · have h1 : ¬t.val % 8 = 7 := by omega
    rw [Dat.leavesExact_idle (dat0 V c) 6 t (idleAt0_6 t (fun h => h1 ((hcond0_1 t).mp h))) (noFlush0_6 t (fun h => h1 ((hcond0_1 t).mp h)))]
    rw [sc0_first V c t h0]
    unfold first0; dsimp only
    by_cases hz : t.val = 0
    · rw [Phi0_castSucc V c t, Phi0_zero V c _ _ hz, PhiA0_eq]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA0 c Set.univ (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi0_castSucc V c t, Phi0_pos V c _ _ hz]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA0 c Set.univ (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexists _; iexact HA
      isplitl [HQ]; · iexists _; iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [sc0_next V c t h0]
    unfold next0; dsimp only
    rw [Phi0_castSucc V c t, Phi0_pos V c _ _ hz]
    by_cases h1 : t.val % 8 = 7
    · rw [show (dat0 V c).leavesExact 6 t = owns (c : Thread nD τ) (st0_6 t) fullShare ((dat0 V c).after 6 t) from by
        unfold Dat.leavesExact; rw [liveAt0_6 t ((hcond0_1 t).mpr h1)], after0_6]
      rw [sc0_next V c t h0]
      unfold next0; dsimp only
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelC0 c Set.univ (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (sc0 V c (t.val - 1) (Nat.lt_of_le_of_lt (Nat.sub_le _ _) t.isLt)).2 (sc0 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HQ]; · iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idleAt0_6 t (fun h => h1 ((hcond0_1 t).mp h))) (noFlush0_6 t (fun h => h1 ((hcond0_1 t).mp h)))]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelB0 c Set.univ (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((dat0 V c).before 6 t d6) (sc0 V c (t.val - 1) (Nat.lt_of_le_of_lt (Nat.sub_le _ _) t.isLt)).2 (sc0 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pallas call 0, at every point. -/
theorem body_obligation0 (c : Dev nD) : BodyObligation (dat0 (F := F) V c) (defs₀ (F := F)) Variants.none () Set.univ := fun t => by
  rw [bigSep_W0, bigSep_W0]
  exact sound_body0 V c t

end Region0

section Region1
variable (V : (c : Dev nD) → (b : Ref sig .tc) → Buf (Elt F) ((c : Thread nD τ).loc b))

/-! ## Pallas call 1: the body at a point -/

/-- What the body is handed at point t: the invariant, the core's debts (none), and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the position's residue mod 8 says which conditionals are
    taken. At key block 0 the scratch buffers may hold anything (before the very first point the class's invariant says no
    more) and are left at the fresh pair; elsewhere they hold the pair the point before left and are left at the next pair;
    at key block 7 the output's buffer receives the running sum, elsewhere it is idle and handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  rw [show (dat1 V c).leavesExact 4 t = owns (c : Thread nD τ) (st1_4 t) fullShare ((dat1 V c).after 4 t) from by
      unfold Dat.leavesExact; rw [liveAt1_4 t], after1_4]
  rw [show (dat1 V c).leavesExact 5 t = owns (c : Thread nD τ) (st1_5 t) fullShare ((dat1 V c).after 5 t) from by
      unfold Dat.leavesExact; rw [liveAt1_5 t], after1_5]
  have hN : t.val < 256 := lt_of_lt_of_eq t.isLt (show cfg1.N = 256 from N_1)
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [sc1_first V c t h0]
    unfold first1; dsimp only
    by_cases hz : t.val = 0
    · rw [Phi1_castSucc V c t, Phi1_zero V c _ _ hz, PhiA1_eq]
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA1 c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc V c t, Phi1_pos V c _ _ hz]
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA1 c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexists _; iexact HA
      isplitl [HQ]; · iexists _; iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [sc1_next V c t h0]
    unfold next1; dsimp only
    rw [Phi1_castSucc V c t, Phi1_pos V c _ _ hz]
    by_cases h1 : t.val % 8 = 7
    · rw [show (dat1 V c).leavesExact 6 t = owns (c : Thread nD τ) (st1_6 t) fullShare ((dat1 V c).after 6 t) from by
        unfold Dat.leavesExact; rw [liveAt1_6 t ((hcond1_1 t).mpr h1)], after1_6]
      rw [sc1_next V c t h0]
      unfold next1; dsimp only
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelC1 c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (sc1 V c (t.val - 1) (Nat.lt_of_le_of_lt (Nat.sub_le _ _) t.isLt)).2 (sc1 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HQ]; · iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => h1 ((hcond1_1 t).mp h))) (noFlush1_6 t (fun h => h1 ((hcond1_1 t).mp h)))]
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelB1 c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((dat1 V c).before 6 t d6) (sc1 V c (t.val - 1) (Nat.lt_of_le_of_lt (Nat.sub_le _ _) t.isLt)).2 (sc1 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pallas call 1, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Ax

end
-- ==== Proof.KIData.lean ====
/-
  What the two pallas calls' buffers hold at every grid point, as data the launch theorems take: each window's
  block, the two scratch buffers' contents by recursion on the point, the invariant between points.
-/
import proofs.«100374_j17686675325050_1_alg».proof.Proof.Gen.KernelIdeal.Launch
import proofs.«100374_j17686675325050_1_alg».proof.Proof.Gen.KernelIdeal.Skeleton
import proofs.«100374_j17686675325050_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

/-! # Pallas call 0: what its buffers hold, point by point

The grid is 4 × 8 × 8 (batch, query block, key block), the key block innermost. At a point the body reads the query
block and the key block of the activations (windows 0 and 1, both on ONE array), the two weight matrices and the two bias
rows (windows 2 to 5), and keeps two scratch buffers between points: the projected queries q of the current query
block and the running sum acc. At a point with key block 0 it sets acc to zero and q to the projection of the query
block; at every point it adds the key block's contribution to acc; at a point with key block 7 it copies acc into the
output's staging buffer (window 6), which the pipeline then writes back. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pair (q, acc) a point with key block 0 leaves: q the projection of the query block, acc the key block's
    contribution added to zero. -/
def first0 (c : Dev nD) (t : Fin cfg0.N) : Vec F S512x64 .f32 × Vec F S512x64 .f32 :=
  (k0_pay6 (iblk0 V c 2 t) (iblk0 V c 3 t) (iblk0 V c 0 t),
   k0_pay1 (k0_pay5 (F := F)) (k0_pay7 (iblk0 V c 2 t) (iblk0 V c 3 t) (iblk0 V c 4 t) (iblk0 V c 5 t) (iblk0 V c 1 t)
     (k0_pay6 (iblk0 V c 2 t) (iblk0 V c 3 t) (iblk0 V c 0 t))))

/-- The pair a later point leaves, from the pair p the point before left: q kept, the key block's contribution added to acc. -/
def next0 (c : Dev nD) (t : Fin cfg0.N) (p : Vec F S512x64 .f32 × Vec F S512x64 .f32) : Vec F S512x64 .f32 × Vec F S512x64 .f32 :=
  (p.1, k0_pay1 p.2 (k0_pay7 (iblk0 V c 2 t) (iblk0 V c 3 t) (iblk0 V c 4 t) (iblk0 V c 5 t) (iblk0 V c 1 t) p.1))

/-- The pair (q, acc) in the two scratch buffers after the point at position n, by recursion on the position: a point
    with key block 0 (position ≡ 0 mod 8) starts afresh, any other continues from the point before. -/
def sc0 (c : Dev nD) : (n : ℕ) → n < cfg0.N → Vec F S512x64 .f32 × Vec F S512x64 .f32
  | 0, hn => first0 V c ⟨0, hn⟩
  | n + 1, hn => if (n + 1) % 8 = 0 then first0 V c ⟨n + 1, hn⟩ else next0 V c ⟨n + 1, hn⟩ (sc0 c n (Nat.lt_of_succ_lt hn))

theorem sc0_first (c : Dev nD) (t : Fin cfg0.N) (h : t.val % 8 = 0) : sc0 V c t.val t.isLt = first0 V c t := by
  obtain ⟨n, hn⟩ := t
  cases n with
  | zero => rfl
  | succ n => exact (if_pos h).trans rfl

theorem sc0_next (c : Dev nD) (t : Fin cfg0.N) (h : ¬t.val % 8 = 0) :
    sc0 V c t.val t.isLt = next0 V c t (sc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- The two scratch operands, whole scoped buffers of the kernel's own: the running sum and the projected queries. -/
abbrev scA0 : Memref sig .tc .vmem S512x64 .f32 := Memref.whole cc0_scratch0
abbrev scQ0 : Memref sig .tc .vmem S512x64 .f32 := Memref.whole cc0_scratch1

/-- The core's scoped buffers that are neither a staging buffer nor a scratch of this call, each whole at some contents:
    the other call's twelve. The body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the two scratch operands as memrefs owned at some contents. -/
theorem PhiA0_eq (c : Dev nD) :
    (Pipeline.ΦA spec0 c : sProp 𝕄)
      = iprop(((∃ d, owns (c : Thread nD τ) scA0 fullShare d) ∗ (∃ d, owns (c : Thread nD τ) scQ0 fullShare d) ∗ others0 (F := F) c) ∗ (∃ r, prngReg c r)) := by
  unfold Pipeline.ΦA others0; rw [scopedRest0_eq]; simp only [scA0, scQ0, owns_whole]; try rfl

/-- The region's invariant before position n: before the first point the class's (every scratch at anything); afterwards
    the two scratch buffers at the pair the point before left, the other scoped buffers at anything, the generator
    register at some state. -/
def Phi0 (c : Dev nD) : (n : ℕ) → n ≤ cfg0.N → sProp 𝕄
  | 0, _ => Pipeline.ΦA spec0 c
  | n + 1, hn => iprop((owns (c : Thread nD τ) scA0 fullShare (sc0 V c n hn).2 ∗ owns (c : Thread nD τ) scQ0 fullShare (sc0 V c n hn).1 ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scA0 fullShare (sc0 V c n hn).2 ∗ owns (c : Thread nD τ) scQ0 fullShare (sc0 V c n hn).1 ∗ others0 (F := F) c) ∗ (∃ r, prngReg c r)) := rfl

theorem Phi0_pos (c : Dev nD) (n : ℕ) (h : n ≤ cfg0.N) (hz : n ≠ 0) :
    Phi0 V c n h = iprop((owns (c : Thread nD τ) scA0 fullShare (sc0 V c (n - 1) (by omega)).2 ∗ owns (c : Thread nD τ) scQ0 fullShare (sc0 V c (n - 1) (by omega)).1 ∗ others0 (F := F) c) ∗ (∃ r, prngReg c r)) := by
  cases n with
  | zero => exact absurd rfl hz
  | succ n => rfl

/-- The proof data of pipeline 0 on core c: the arrays as the region finds them; after the body at point t each input's
    buffer at its block and the output's at the running sum (consulted only where the point stores it: key block 7);
    the invariant above; the activations' array, which windows 0 and 1 both read, held half by each; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (sc0 V c t.val t.isLt).2
  Φ t := Phi0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay2 (sc0 V c t.val t.isLt).2 := by dsimp only [dat0]

/-- Input window 0's current staging buffer holds its block at every point, fetched there or not: where it is not
    fetched its block index has not moved since the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every point, fetched there or not: where it is not
    fetched its block index has not moved since the point before, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Input window 2's current staging buffer holds its block at every point, fetched there or not: where it is not
    fetched its block index has not moved since the point before, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- Input window 3's current staging buffer holds its block at every point, fetched there or not: where it is not
    fetched its block index has not moved since the point before, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- Input window 4's current staging buffer holds its block at every point, fetched there or not: where it is not
    fetched its block index has not moved since the point before, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- Input window 5's current staging buffer holds its block at every point, fetched there or not: where it is not
    fetched its block index has not moved since the point before, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

end Region0

section Region1

/-! # Pallas call 1: what its buffers hold, point by point

The grid is 4 × 8 × 8 (batch, query block, key block), the key block innermost. At a point the body reads the query
block and the key block of the activations (windows 0 and 1, both on ONE array), the two weight matrices and the two bias
rows (windows 2 to 5), and keeps two scratch buffers between points: the projected queries q of the current query
block and the running sum acc. At a point with key block 0 it sets acc to zero and q to the projection of the query
block; at every point it adds the key block's contribution to acc; at a point with key block 7 it copies acc into the
output's staging buffer (window 6), which the pipeline then writes back. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pair (q, acc) a point with key block 0 leaves: q the projection of the query block, acc the key block's
    contribution added to zero. -/
def first1 (c : Dev nD) (t : Fin cfg1.N) : Vec F S512x64 .f32 × Vec F S512x64 .f32 :=
  (k1_pay6 (iblk1 V c 2 t) (iblk1 V c 3 t) (iblk1 V c 0 t),
   k1_pay1 (k1_pay5 (F := F)) (k1_pay7 (iblk1 V c 2 t) (iblk1 V c 3 t) (iblk1 V c 4 t) (iblk1 V c 5 t) (iblk1 V c 1 t)
     (k1_pay6 (iblk1 V c 2 t) (iblk1 V c 3 t) (iblk1 V c 0 t))))

/-- The pair a later point leaves, from the pair p the point before left: q kept, the key block's contribution added to acc. -/
def next1 (c : Dev nD) (t : Fin cfg1.N) (p : Vec F S512x64 .f32 × Vec F S512x64 .f32) : Vec F S512x64 .f32 × Vec F S512x64 .f32 :=
  (p.1, k1_pay1 p.2 (k1_pay7 (iblk1 V c 2 t) (iblk1 V c 3 t) (iblk1 V c 4 t) (iblk1 V c 5 t) (iblk1 V c 1 t) p.1))

/-- The pair (q, acc) in the two scratch buffers after the point at position n, by recursion on the position: a point
    with key block 0 (position ≡ 0 mod 8) starts afresh, any other continues from the point before. -/
def sc1 (c : Dev nD) : (n : ℕ) → n < cfg1.N → Vec F S512x64 .f32 × Vec F S512x64 .f32
  | 0, hn => first1 V c ⟨0, hn⟩
  | n + 1, hn => if (n + 1) % 8 = 0 then first1 V c ⟨n + 1, hn⟩ else next1 V c ⟨n + 1, hn⟩ (sc1 c n (Nat.lt_of_succ_lt hn))

theorem sc1_first (c : Dev nD) (t : Fin cfg1.N) (h : t.val % 8 = 0) : sc1 V c t.val t.isLt = first1 V c t := by
  obtain ⟨n, hn⟩ := t
  cases n with
  | zero => rfl
  | succ n => exact (if_pos h).trans rfl

theorem sc1_next (c : Dev nD) (t : Fin cfg1.N) (h : ¬t.val % 8 = 0) :
    sc1 V c t.val t.isLt = next1 V c t (sc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The two scratch operands, whole scoped buffers of the kernel's own: the running sum and the projected queries. -/
abbrev scA1 : Memref sig .tc .vmem S512x64 .f32 := Memref.whole cc1_scratch0
abbrev scQ1 : Memref sig .tc .vmem S512x64 .f32 := Memref.whole cc1_scratch1

/-- The core's scoped buffers that are neither a staging buffer nor a scratch of this call, each whole at some contents:
    the other call's twelve. The body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant with the two scratch operands as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scA1 fullShare d) ∗ (∃ d, owns (c : Thread nD τ) scQ1 fullShare d)) ∗ (∃ r, prngReg c r)) := by
  unfold Pipeline.ΦA; rw [scopedRest1_eq]; simp only [scA1, scQ1, owns_whole]; try rfl

/-- The region's invariant before position n: before the first point the class's (every scratch at anything); afterwards
    the two scratch buffers at the pair the point before left, the other scoped buffers at anything, the generator
    register at some state. -/
def Phi1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scA1 fullShare (sc1 V c n hn).2 ∗ owns (c : Thread nD τ) scQ1 fullShare (sc1 V c n hn).1) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scA1 fullShare (sc1 V c n hn).2 ∗ owns (c : Thread nD τ) scQ1 fullShare (sc1 V c n hn).1) ∗ (∃ r, prngReg c r)) := rfl

theorem Phi1_pos (c : Dev nD) (n : ℕ) (h : n ≤ cfg1.N) (hz : n ≠ 0) :
    Phi1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scA1 fullShare (sc1 V c (n - 1) (by omega)).2 ∗ owns (c : Thread nD τ) scQ1 fullShare (sc1 V c (n - 1) (by omega)).1) ∗ (∃ r, prngReg c r)) := by
  cases n with
  | zero => exact absurd rfl hz
  | succ n => rfl

/-- The proof data of pipeline 1 on core c: the arrays as the region finds them; after the body at point t each input's
    buffer at its block and the output's at the running sum (consulted only where the point stores it: key block 7);
    the invariant above; the activations' array, which windows 0 and 1 both read, held half by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (sc1 V c t.val t.isLt).2
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (sc1 V c t.val t.isLt).2 := by dsimp only [dat1]

/-- Input window 0's current staging buffer holds its block at every point, fetched there or not: where it is not
    fetched its block index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- Input window 1's current staging buffer holds its block at every point, fetched there or not: where it is not
    fetched its block index has not moved since the point before, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Input window 2's current staging buffer holds its block at every point, fetched there or not: where it is not
    fetched its block index has not moved since the point before, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Input window 3's current staging buffer holds its block at every point, fetched there or not: where it is not
    fetched its block index has not moved since the point before, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Input window 4's current staging buffer holds its block at every point, fetched there or not: where it is not
    fetched its block index has not moved since the point before, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- Input window 5's current staging buffer holds its block at every point, fetched there or not: where it is not
    fetched its block index has not moved since the point before, and the body leaves the block in place. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

end Region1

end Cert.KernelIdeal.Ax

end
-- ==== Proof.KIRun.lean ====
/-
  The two pallas calls as regions of the host program: how the buffers the host tracks become each call's arrays (the
  activations' array, read through two windows, dealt half to each), what each call gives back, and the run of the
  whole program from the launch to the return.
-/
import proofs.«100374_j17686675325050_1_alg».proof.Proof.Gen.KernelIdeal.Launch
import proofs.«100374_j17686675325050_1_alg».proof.Proof.Gen.KernelIdeal.Skeleton
import proofs.«100374_j17686675325050_1_alg».proof.Proof.Gen.KernelIdeal.Points
import proofs.«100374_j17686675325050_1_alg».proof.Proof.Gen.KernelIdeal.Regions
import proofs.«100374_j17686675325050_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

section Split0
variable (V : (c : Dev nD) → (b : Ref sig .tc) → Buf (Elt F) ((c : Thread nD τ).loc b))

/-- The six distinct buffers behind call 0's seven windows. -/
theorem arrBufs0_eq (c : Dev nD) :
    (Pipeline.arrBufs (Ix := Unit) (Name := ℕ) (U := UR sig nD τ) (Lvl := ℕ) spec0 c (V c) : sProp 𝕄)
      = iprop((((c : Thread nD τ).loc main_v1) ↦{fullShare} V c main_v1) ∗ (((c : Thread nD τ).loc main_arg1) ↦{fullShare} V c main_arg1) ∗ (((c : Thread nD τ).loc main_v2) ↦{fullShare} V c main_v2) ∗ (((c : Thread nD τ).loc main_arg3) ↦{fullShare} V c main_arg3) ∗ (((c : Thread nD τ).loc main_v3) ↦{fullShare} V c main_v3) ∗ (((c : Thread nD τ).loc main_v4) ↦{fullShare} V c main_v4)) := by
  unfold Pipeline.arrBufs
  exact bigSep_eq_bigSepL_of_eq [main_v1, main_arg1, main_v2, main_arg3, main_v3, main_v4] (by decide) (by decide) _

/-- The six buffers whole are the seven windows' arrays at the proof data's shares: the activations' array, which two
    windows read, is dealt half to each; every other window holds its own array whole. -/
theorem arrays0_split (c : Dev nD) (Fa : (w : Fin cfg0.W) → Buf (Elt F) ((cfg0.win w).arr.view.loc (c : Thread nD τ)))
    (hF : ∀ w, Fa w = V c (Pipeline.arrRef spec0 w)) :
    (Pipeline.arrBufs (Ix := Unit) (Name := ℕ) (U := UR sig nD τ) (Lvl := ℕ) spec0 c (V c) : sProp 𝕄) ⊢ (dat0 V c).arrays Fa := by
  rw [arrBufs0_eq]
  unfold Dat.arrays
  rw [bigSep_W0]
  have e0 : (((cfg0.win 0).arr.view.loc (c : Thread nD τ)) ↦[(cfg0.win 0).arr.view.set]{(dat0 V c).share 0} Fa 0 : sProp 𝕄)
      = (((c : Thread nD τ).loc main_v1) ↦{fullShare.left} V c main_v1) := by rw [(arr_whole0 0).set_eq_univ, hF]; rfl
  have e1 : (((cfg0.win 1).arr.view.loc (c : Thread nD τ)) ↦[(cfg0.win 1).arr.view.set]{(dat0 V c).share 1} Fa 1 : sProp 𝕄)
      = (((c : Thread nD τ).loc main_v1) ↦{fullShare.right} V c main_v1) := by rw [(arr_whole0 1).set_eq_univ, hF]; rfl
  have e2 : (((cfg0.win 2).arr.view.loc (c : Thread nD τ)) ↦[(cfg0.win 2).arr.view.set]{(dat0 V c).share 2} Fa 2 : sProp 𝕄)
      = (((c : Thread nD τ).loc main_arg1) ↦{fullShare} V c main_arg1) := by rw [(arr_whole0 2).set_eq_univ, hF]; rfl
  have e3 : (((cfg0.win 3).arr.view.loc (c : Thread nD τ)) ↦[(cfg0.win 3).arr.view.set]{(dat0 V c).share 3} Fa 3 : sProp 𝕄)
      = (((c : Thread nD τ).loc main_v2) ↦{fullShare} V c main_v2) := by rw [(arr_whole0 3).set_eq_univ, hF]; rfl
  have e4 : (((cfg0.win 4).arr.view.loc (c : Thread nD τ)) ↦[(cfg0.win 4).arr.view.set]{(dat0 V c).share 4} Fa 4 : sProp 𝕄)
      = (((c : Thread nD τ).loc main_arg3) ↦{fullShare} V c main_arg3) := by rw [(arr_whole0 4).set_eq_univ, hF]; rfl
  have e5 : (((cfg0.win 5).arr.view.loc (c : Thread nD τ)) ↦[(cfg0.win 5).arr.view.set]{(dat0 V c).share 5} Fa 5 : sProp 𝕄)
      = (((c : Thread nD τ).loc main_v3) ↦{fullShare} V c main_v3) := by rw [(arr_whole0 5).set_eq_univ, hF]; rfl
  have e6 : (((cfg0.win 6).arr.view.loc (c : Thread nD τ)) ↦[(cfg0.win 6).arr.view.set]{(dat0 V c).share 6} Fa 6 : sProp 𝕄)
      = (((c : Thread nD τ).loc main_v4) ↦{fullShare} V c main_v4) := by rw [(arr_whole0 6).set_eq_univ, hF]; rfl
  rw [e0, e1, e2, e3, e4, e5, e6]
  iintro ⟨H1, Ha1, H2, Ha3, H3, H4⟩
  have hs : ((((c : Thread nD τ).loc main_v1) ↦{fullShare} V c main_v1) : sProp 𝕄)
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave Hs := hs $$ H1
  icases Hs with ⟨Hl, Hr⟩
  isplitl [Hl]; · iexact Hl
  isplitl [Hr]; · iexact Hr
  isplitl [Ha1]; · iexact Ha1
  isplitl [H2]; · iexact H2
  isplitl [Ha3]; · iexact Ha3
  isplitl [H3]; · iexact H3
  iexact H4

/-- The converse at the exit: the seven windows' arrays, the activations' two halves rejoined, are the six buffers
    whole, at any contents the windows agree on. -/
theorem arrays0_join (c : Dev nD) (V' : (c : Dev nD) → (b : Ref sig .tc) → Buf (Elt F) ((c : Thread nD τ).loc b))
    (Fa : (w : Fin cfg0.W) → Buf (Elt F) ((cfg0.win w).arr.view.loc (c : Thread nD τ)))
    (hF : ∀ w, Fa w = V' c (Pipeline.arrRef spec0 w)) :
    (dat0 V c).arrays Fa ⊢ (Pipeline.arrBufs (Ix := Unit) (Name := ℕ) (U := UR sig nD τ) (Lvl := ℕ) spec0 c (V' c) : sProp 𝕄) := by
  rw [arrBufs0_eq]
  unfold Dat.arrays
  rw [bigSep_W0]
  have e0 : (((cfg0.win 0).arr.view.loc (c : Thread nD τ)) ↦[(cfg0.win 0).arr.view.set]{(dat0 V c).share 0} Fa 0 : sProp 𝕄)
      = (((c : Thread nD τ).loc main_v1) ↦{fullShare.left} V' c main_v1) := by rw [(arr_whole0 0).set_eq_univ, hF]; rfl
  have e1 : (((cfg0.win 1).arr.view.loc (c : Thread nD τ)) ↦[(cfg0.win 1).arr.view.set]{(dat0 V c).share 1} Fa 1 : sProp 𝕄)
      = (((c : Thread nD τ).loc main_v1) ↦{fullShare.right} V' c main_v1) := by rw [(arr_whole0 1).set_eq_univ, hF]; rfl
  have e2 : (((cfg0.win 2).arr.view.loc (c : Thread nD τ)) ↦[(cfg0.win 2).arr.view.set]{(dat0 V c).share 2} Fa 2 : sProp 𝕄)
      = (((c : Thread nD τ).loc main_arg1) ↦{fullShare} V' c main_arg1) := by rw [(arr_whole0 2).set_eq_univ, hF]; rfl
  have e3 : (((cfg0.win 3).arr.view.loc (c : Thread nD τ)) ↦[(cfg0.win 3).arr.view.set]{(dat0 V c).share 3} Fa 3 : sProp 𝕄)
      = (((c : Thread nD τ).loc main_v2) ↦{fullShare} V' c main_v2) := by rw [(arr_whole0 3).set_eq_univ, hF]; rfl
  have e4 : (((cfg0.win 4).arr.view.loc (c : Thread nD τ)) ↦[(cfg0.win 4).arr.view.set]{(dat0 V c).share 4} Fa 4 : sProp 𝕄)
      = (((c : Thread nD τ).loc main_arg3) ↦{fullShare} V' c main_arg3) := by rw [(arr_whole0 4).set_eq_univ, hF]; rfl
  have e5 : (((cfg0.win 5).arr.view.loc (c : Thread nD τ)) ↦[(cfg0.win 5).arr.view.set]{(dat0 V c).share 5} Fa 5 : sProp 𝕄)
      = (((c : Thread nD τ).loc main_v3) ↦{fullShare} V' c main_v3) := by rw [(arr_whole0 5).set_eq_univ, hF]; rfl
  have e6 : (((cfg0.win 6).arr.view.loc (c : Thread nD τ)) ↦[(cfg0.win 6).arr.view.set]{(dat0 V c).share 6} Fa 6 : sProp 𝕄)
      = (((c : Thread nD τ).loc main_v4) ↦{fullShare} V' c main_v4) := by rw [(arr_whole0 6).set_eq_univ, hF]; rfl
  rw [e0, e1, e2, e3, e4, e5, e6]
  have hs : iprop((((c : Thread nD τ).loc main_v1) ↦{fullShare.left} V' c main_v1) ∗ (((c : Thread nD τ).loc main_v1) ↦{fullShare.right} V' c main_v1))
      ⊢ ((((c : Thread nD τ).loc main_v1) ↦{fullShare} V' c main_v1) : sProp 𝕄) :=
    (pointsTo_share (PosShare.mem_left_op_right fullShare)).2
  iintro ⟨Hl, Hr, Ha1, H2, Ha3, H3, H4⟩
  isplitl [Hl Hr]
  · iapply hs; isplitl [Hl]; · iexact Hl
    iexact Hr
  isplitl [Ha1]; · iexact Ha1
  isplitl [H2]; · iexact H2
  isplitl [Ha3]; · iexact Ha3
  isplitl [H3]; · iexact H3
  iexact H4

/-- ENTRY: the core's unscoped buffers at the region's entry contents are the pipeline's arrays at the proof data's
    entry contents and the rest. -/
theorem entry0 (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (arrays0_split V c _ (fun w => by rw [show (dat0 V c).arrAt w 0 = (dat0 V c).A w from rfl, A_eq0])) .rfl

/-- EXIT: the arrays at contents Fa and the rest at the entry contents are the core's unscoped buffers at any
    valuation that has the arrays at Fa and agrees with the entry contents off them. -/
theorem exit0 (c : Dev nD) (V' : (c : Dev nD) → (b : Ref sig .tc) → Buf (Elt F) ((c : Thread nD τ).loc b))
    (Fa : (w : Fin cfg0.W) → Buf (Elt F) ((cfg0.win w).arr.view.loc (c : Thread nD τ)))
    (hF : ∀ w, Fa w = V' c (Pipeline.arrRef spec0 w))
    (hrest : ∀ b, b ∉ Finset.univ.image (Pipeline.arrRef spec0) → V' c b = V c b) :
    iprop((dat0 V c).arrays Fa ∗ Pipeline.unscopedRest spec0 c (V c)) ⊢ (unscopedBufs c (V' c) : sProp 𝕄) := by
  rw [Pipeline.unscopedBufs_split₀ cfgs 0 winFacts₀0.arr_unscoped c (V' c)]
  refine sep_mono (arrays0_join V c V' Fa hF) (Entails.of_eq ?_)
  unfold Pipeline.unscopedRest
  exact bigSep_congr fun b hb => by rw [hrest b (Finset.mem_sdiff.mp hb).2]

end Split0

section Split1
variable (V : (c : Dev nD) → (b : Ref sig .tc) → Buf (Elt F) ((c : Thread nD τ).loc b))

/-- The six distinct buffers behind call 1's seven windows. -/
theorem arrBufs1_eq (c : Dev nD) :
    (Pipeline.arrBufs (Ix := Unit) (Name := ℕ) (U := UR sig nD τ) (Lvl := ℕ) spec1 c (V c) : sProp 𝕄)
      = iprop((((c : Thread nD τ).loc main_v12) ↦{fullShare} V c main_v12) ∗ (((c : Thread nD τ).loc main_arg5) ↦{fullShare} V c main_arg5) ∗ (((c : Thread nD τ).loc main_v13) ↦{fullShare} V c main_v13) ∗ (((c : Thread nD τ).loc main_arg7) ↦{fullShare} V c main_arg7) ∗ (((c : Thread nD τ).loc main_v14) ↦{fullShare} V c main_v14) ∗ (((c : Thread nD τ).loc main_v15) ↦{fullShare} V c main_v15)) := by
  unfold Pipeline.arrBufs
  exact bigSep_eq_bigSepL_of_eq [main_v12, main_arg5, main_v13, main_arg7, main_v14, main_v15] (by decide) (by decide) _

/-- The six buffers whole are the seven windows' arrays at the proof data's shares: the activations' array, which two
    windows read, is dealt half to each; every other window holds its own array whole. -/
theorem arrays1_split (c : Dev nD) (Fa : (w : Fin cfg1.W) → Buf (Elt F) ((cfg1.win w).arr.view.loc (c : Thread nD τ)))
    (hF : ∀ w, Fa w = V c (Pipeline.arrRef spec1 w)) :
    (Pipeline.arrBufs (Ix := Unit) (Name := ℕ) (U := UR sig nD τ) (Lvl := ℕ) spec1 c (V c) : sProp 𝕄) ⊢ (dat1 V c).arrays Fa := by
  rw [arrBufs1_eq]
  unfold Dat.arrays
  rw [bigSep_W1]
  have e0 : (((cfg1.win 0).arr.view.loc (c : Thread nD τ)) ↦[(cfg1.win 0).arr.view.set]{(dat1 V c).share 0} Fa 0 : sProp 𝕄)
      = (((c : Thread nD τ).loc main_v12) ↦{fullShare.left} V c main_v12) := by rw [(arr_whole1 0).set_eq_univ, hF]; rfl
  have e1 : (((cfg1.win 1).arr.view.loc (c : Thread nD τ)) ↦[(cfg1.win 1).arr.view.set]{(dat1 V c).share 1} Fa 1 : sProp 𝕄)
      = (((c : Thread nD τ).loc main_v12) ↦{fullShare.right} V c main_v12) := by rw [(arr_whole1 1).set_eq_univ, hF]; rfl
  have e2 : (((cfg1.win 2).arr.view.loc (c : Thread nD τ)) ↦[(cfg1.win 2).arr.view.set]{(dat1 V c).share 2} Fa 2 : sProp 𝕄)
      = (((c : Thread nD τ).loc main_arg5) ↦{fullShare} V c main_arg5) := by rw [(arr_whole1 2).set_eq_univ, hF]; rfl
  have e3 : (((cfg1.win 3).arr.view.loc (c : Thread nD τ)) ↦[(cfg1.win 3).arr.view.set]{(dat1 V c).share 3} Fa 3 : sProp 𝕄)
      = (((c : Thread nD τ).loc main_v13) ↦{fullShare} V c main_v13) := by rw [(arr_whole1 3).set_eq_univ, hF]; rfl
  have e4 : (((cfg1.win 4).arr.view.loc (c : Thread nD τ)) ↦[(cfg1.win 4).arr.view.set]{(dat1 V c).share 4} Fa 4 : sProp 𝕄)
      = (((c : Thread nD τ).loc main_arg7) ↦{fullShare} V c main_arg7) := by rw [(arr_whole1 4).set_eq_univ, hF]; rfl
  have e5 : (((cfg1.win 5).arr.view.loc (c : Thread nD τ)) ↦[(cfg1.win 5).arr.view.set]{(dat1 V c).share 5} Fa 5 : sProp 𝕄)
      = (((c : Thread nD τ).loc main_v14) ↦{fullShare} V c main_v14) := by rw [(arr_whole1 5).set_eq_univ, hF]; rfl
  have e6 : (((cfg1.win 6).arr.view.loc (c : Thread nD τ)) ↦[(cfg1.win 6).arr.view.set]{(dat1 V c).share 6} Fa 6 : sProp 𝕄)
      = (((c : Thread nD τ).loc main_v15) ↦{fullShare} V c main_v15) := by rw [(arr_whole1 6).set_eq_univ, hF]; rfl
  rw [e0, e1, e2, e3, e4, e5, e6]
  iintro ⟨H1, Ha1, H2, Ha3, H3, H4⟩
  have hs : ((((c : Thread nD τ).loc main_v12) ↦{fullShare} V c main_v12) : sProp 𝕄)
      ⊢ iprop((((c : Thread nD τ).loc main_v12) ↦{fullShare.left} V c main_v12) ∗ (((c : Thread nD τ).loc main_v12) ↦{fullShare.right} V c main_v12)) :=
    (pointsTo_share (PosShare.mem_left_op_right fullShare)).1
  ihave Hs := hs $$ H1
  icases Hs with ⟨Hl, Hr⟩
  isplitl [Hl]; · iexact Hl
  isplitl [Hr]; · iexact Hr
  isplitl [Ha1]; · iexact Ha1
  isplitl [H2]; · iexact H2
  isplitl [Ha3]; · iexact Ha3
  isplitl [H3]; · iexact H3
  iexact H4

/-- The converse at the exit: the seven windows' arrays, the activations' two halves rejoined, are the six buffers
    whole, at any contents the windows agree on. -/
theorem arrays1_join (c : Dev nD) (V' : (c : Dev nD) → (b : Ref sig .tc) → Buf (Elt F) ((c : Thread nD τ).loc b))
    (Fa : (w : Fin cfg1.W) → Buf (Elt F) ((cfg1.win w).arr.view.loc (c : Thread nD τ)))
    (hF : ∀ w, Fa w = V' c (Pipeline.arrRef spec1 w)) :
    (dat1 V c).arrays Fa ⊢ (Pipeline.arrBufs (Ix := Unit) (Name := ℕ) (U := UR sig nD τ) (Lvl := ℕ) spec1 c (V' c) : sProp 𝕄) := by
  rw [arrBufs1_eq]
  unfold Dat.arrays
  rw [bigSep_W1]
  have e0 : (((cfg1.win 0).arr.view.loc (c : Thread nD τ)) ↦[(cfg1.win 0).arr.view.set]{(dat1 V c).share 0} Fa 0 : sProp 𝕄)
      = (((c : Thread nD τ).loc main_v12) ↦{fullShare.left} V' c main_v12) := by rw [(arr_whole1 0).set_eq_univ, hF]; rfl
  have e1 : (((cfg1.win 1).arr.view.loc (c : Thread nD τ)) ↦[(cfg1.win 1).arr.view.set]{(dat1 V c).share 1} Fa 1 : sProp 𝕄)
      = (((c : Thread nD τ).loc main_v12) ↦{fullShare.right} V' c main_v12) := by rw [(arr_whole1 1).set_eq_univ, hF]; rfl
  have e2 : (((cfg1.win 2).arr.view.loc (c : Thread nD τ)) ↦[(cfg1.win 2).arr.view.set]{(dat1 V c).share 2} Fa 2 : sProp 𝕄)
      = (((c : Thread nD τ).loc main_arg5) ↦{fullShare} V' c main_arg5) := by rw [(arr_whole1 2).set_eq_univ, hF]; rfl
  have e3 : (((cfg1.win 3).arr.view.loc (c : Thread nD τ)) ↦[(cfg1.win 3).arr.view.set]{(dat1 V c).share 3} Fa 3 : sProp 𝕄)
      = (((c : Thread nD τ).loc main_v13) ↦{fullShare} V' c main_v13) := by rw [(arr_whole1 3).set_eq_univ, hF]; rfl
  have e4 : (((cfg1.win 4).arr.view.loc (c : Thread nD τ)) ↦[(cfg1.win 4).arr.view.set]{(dat1 V c).share 4} Fa 4 : sProp 𝕄)
      = (((c : Thread nD τ).loc main_arg7) ↦{fullShare} V' c main_arg7) := by rw [(arr_whole1 4).set_eq_univ, hF]; rfl
  have e5 : (((cfg1.win 5).arr.view.loc (c : Thread nD τ)) ↦[(cfg1.win 5).arr.view.set]{(dat1 V c).share 5} Fa 5 : sProp 𝕄)
      = (((c : Thread nD τ).loc main_v14) ↦{fullShare} V' c main_v14) := by rw [(arr_whole1 5).set_eq_univ, hF]; rfl
  have e6 : (((cfg1.win 6).arr.view.loc (c : Thread nD τ)) ↦[(cfg1.win 6).arr.view.set]{(dat1 V c).share 6} Fa 6 : sProp 𝕄)
      = (((c : Thread nD τ).loc main_v15) ↦{fullShare} V' c main_v15) := by rw [(arr_whole1 6).set_eq_univ, hF]; rfl
  rw [e0, e1, e2, e3, e4, e5, e6]
  have hs : iprop((((c : Thread nD τ).loc main_v12) ↦{fullShare.left} V' c main_v12) ∗ (((c : Thread nD τ).loc main_v12) ↦{fullShare.right} V' c main_v12))
      ⊢ ((((c : Thread nD τ).loc main_v12) ↦{fullShare} V' c main_v12) : sProp 𝕄) :=
    (pointsTo_share (PosShare.mem_left_op_right fullShare)).2
  iintro ⟨Hl, Hr, Ha1, H2, Ha3, H3, H4⟩
  isplitl [Hl Hr]
  · iapply hs; isplitl [Hl]; · iexact Hl
    iexact Hr
  isplitl [Ha1]; · iexact Ha1
  isplitl [H2]; · iexact H2
  isplitl [Ha3]; · iexact Ha3
  isplitl [H3]; · iexact H3
  iexact H4

/-- ENTRY: the core's unscoped buffers at the region's entry contents are the pipeline's arrays at the proof data's
    entry contents and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_split V c _ (fun w => by rw [show (dat1 V c).arrAt w 0 = (dat1 V c).A w from rfl, A_eq1])) .rfl

/-- EXIT: the arrays at contents Fa and the rest at the entry contents are the core's unscoped buffers at any
    valuation that has the arrays at Fa and agrees with the entry contents off them. -/
theorem exit1 (c : Dev nD) (V' : (c : Dev nD) → (b : Ref sig .tc) → Buf (Elt F) ((c : Thread nD τ).loc b))
    (Fa : (w : Fin cfg1.W) → Buf (Elt F) ((cfg1.win w).arr.view.loc (c : Thread nD τ)))
    (hF : ∀ w, Fa w = V' c (Pipeline.arrRef spec1 w))
    (hrest : ∀ b, b ∉ Finset.univ.image (Pipeline.arrRef spec1) → V' c b = V c b) :
    iprop((dat1 V c).arrays Fa ∗ Pipeline.unscopedRest spec1 c (V c)) ⊢ (unscopedBufs c (V' c) : sProp 𝕄) := by
  rw [Pipeline.unscopedBufs_split₀ cfgs 1 winFacts₀1.arr_unscoped c (V' c)]
  refine sep_mono (arrays1_join V c V' Fa hF) (Entails.of_eq ?_)
  unfold Pipeline.unscopedRest
  exact bigSep_congr fun b hb => by rw [hrest b (Finset.mem_sdiff.mp hb).2]

end Split1

/-- After the last point the invariant gives the class's back: the scratch buffers' named contents are forgotten. -/
theorem Phi_out0 (V : (c : Dev nD) → (b : Ref sig .tc) → Buf (Elt F) ((c : Thread nD τ).loc b)) (c : Dev nD) :
    (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_eq]
  iintro ⟨⟨HA, HQ, Ho⟩, Hg⟩
  isplitl [HA HQ Ho]
  · isplitl [HA]; · iexists _; iexact HA
    isplitl [HQ]; · iexists _; iexact HQ
    iexact Ho
  iexact Hg

/-- After the last point the invariant gives the class's back: the scratch buffers' named contents are forgotten. -/
theorem Phi_out1 (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), PhiA1_eq]
  iintro ⟨⟨H0, H1, H2, H3, H4, H5, H6, H7, H8, H9, H10, H11, HA, HQ⟩, Hg⟩
  isplitl [H0 H1 H2 H3 H4 H5 H6 H7 H8 H9 H10 H11 HA HQ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HA]; · iexists _; iexact HA
    iexists _; iexact HQ
  iexact Hg

/-! ## The buffers between the program's items -/

/-- The buffers as call 0 finds them: the launch contents after the first host stretch. -/
abbrev VA (c : Dev nD) (b : Ref sig .tc) : Buf (Elt F) ((c : Thread nD τ).loc b) := V1 m c b
/-- What call 0 leaves in its output array: the write-backs of all its points. -/
def outA (c : Dev nD) : Buf (Elt F) ((c : Thread nD τ).loc main_v4) := (dat0 (VA m) c).arrAt 6 cfg0.N
/-- The regions' results as far as call 0: its output array at what it leaves. -/
def outsA : Outs (F := F) := fun _ r c => Function.update (V1 m c) main_v4 (outA m c) r
/-- The buffers as call 1 finds them: after call 0 and the second host stretch. -/
abbrev VB (c : Dev nD) (b : Ref sig .tc) : Buf (Elt F) ((c : Thread nD τ).loc b) := V3 m (outsA m) c b
/-- What call 1 leaves in its output array. -/
def outB (c : Dev nD) : Buf (Elt F) ((c : Thread nD τ).loc main_v15) := (dat1 (VB m) c).arrAt 6 cfg1.N
/-- The regions' results: call 0's output array after item 1, call 1's after item 3. -/
def outs : Outs (F := F) := fun j r c =>
  if j = 2 then outsA m j r c else Function.update (V3 m (outsA m) c) main_v15 (outB m c) r

theorem outs_2 (c : Dev nD) : outs m 2 main_v4 c = outA m c := by
  unfold outs outsA; rw [if_pos rfl]; exact Function.update_self ..
theorem outsA_2 (c : Dev nD) : outsA m 2 main_v4 c = outA m c := by
  unfold outsA; exact Function.update_self ..
theorem outs_4 (c : Dev nD) : outs m 4 main_v15 c = outB m c := by
  unfold outs; rw [if_neg (by decide)]; exact Function.update_self ..
theorem V2_outs (c : Dev nD) : V2 m (outs m) c = V2 m (outsA m) c := by
  unfold V2; rw [outs_2, outsA_2]
theorem V3_outs (c : Dev nD) : V3 m (outs m) c = V3 m (outsA m) c := by
  unfold V3; rw [V2_outs]

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

/-- What call 0's arrays hold at its exit is the next valuation at them: an input as entered, the output at what the
    write-backs leave. -/
theorem exitF0 (c : Dev nD) (w : Fin cfg0.W) : (dat0 (VA m) c).arrAt w cfg0.N = V2 m (outs m) c (Pipeline.arrRef spec0 w) := by
  fin_cases w
  · exact ((dat0 (VA m) c).arrAt_in 0 rfl _).trans ((A_eq0 (VA m) c 0).trans (V2_of m (outs m) c main_v1 (by decide)).symm)
  · exact ((dat0 (VA m) c).arrAt_in 1 rfl _).trans ((A_eq0 (VA m) c 1).trans (V2_of m (outs m) c main_v1 (by decide)).symm)
  · exact ((dat0 (VA m) c).arrAt_in 2 rfl _).trans ((A_eq0 (VA m) c 2).trans (V2_of m (outs m) c main_arg1 (by decide)).symm)
  · exact ((dat0 (VA m) c).arrAt_in 3 rfl _).trans ((A_eq0 (VA m) c 3).trans (V2_of m (outs m) c main_v2 (by decide)).symm)
  · exact ((dat0 (VA m) c).arrAt_in 4 rfl _).trans ((A_eq0 (VA m) c 4).trans (V2_of m (outs m) c main_arg3 (by decide)).symm)
  · exact ((dat0 (VA m) c).arrAt_in 5 rfl _).trans ((A_eq0 (VA m) c 5).trans (V2_of m (outs m) c main_v3 (by decide)).symm)
  · show outA m c = V2 m (outs m) c main_v4
    unfold V2; rw [Function.update_self]; exact (outs_2 m c).symm

/-- What call 1's arrays hold at its exit is the next valuation at them. -/
theorem exitF1 (c : Dev nD) (w : Fin cfg1.W) : (dat1 (VB m) c).arrAt w cfg1.N = V4 m (outs m) c (Pipeline.arrRef spec1 w) := by
  have hv : ∀ r : Ref sig .tc, r ∉ ([main_v15] : List (Ref sig .tc)) → VB m c r = V4 m (outs m) c r :=
    fun r hr => ((V4_of m (outs m) c r hr).trans (by rw [V3_outs])).symm
  fin_cases w
  · exact ((dat1 (VB m) c).arrAt_in 0 rfl _).trans ((A_eq1 (VB m) c 0).trans (hv main_v12 (by decide)))
  · exact ((dat1 (VB m) c).arrAt_in 1 rfl _).trans ((A_eq1 (VB m) c 1).trans (hv main_v12 (by decide)))
  · exact ((dat1 (VB m) c).arrAt_in 2 rfl _).trans ((A_eq1 (VB m) c 2).trans (hv main_arg5 (by decide)))
  · exact ((dat1 (VB m) c).arrAt_in 3 rfl _).trans ((A_eq1 (VB m) c 3).trans (hv main_v13 (by decide)))
  · exact ((dat1 (VB m) c).arrAt_in 4 rfl _).trans ((A_eq1 (VB m) c 4).trans (hv main_arg7 (by decide)))
  · exact ((dat1 (VB m) c).arrAt_in 5 rfl _).trans ((A_eq1 (VB m) c 5).trans (hv main_v14 (by decide)))
  · show outB m c = V4 m (outs m) c main_v15
    unfold V4; rw [Function.update_self]; exact (outs_4 m c).symm

set_option backward.isDefEq.respectTransparency.types false in
/-- Call 0 as a region of the host program: entered from every unscoped buffer at the contents the host stretch before
    it left, left at those contents with its output array at what the write-backs leave. Its arrays are split out of the
    unscoped buffers at the entry (the activations' array dealt half to each of its two windows) and put back, the
    halves rejoined, at the exit; the generator register goes into the invariant and comes back; nothing is owed; the
    kernel has no semaphore of its own. -/
def reg0 (hb : ∀ c, BodyObligation (dat0 (F := F) (VA m) c) (defs₀ (F := F)) Variants.none () Set.univ) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := entry0 (VA m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (VA m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (VA m c))
        ⊢ (unscopedBufs c (fun b => V2 m (outs m) c b) : sProp 𝕄) :=
      exit0 (VA m) c (fun c b => V2 m (outs m) c b) ((pdats m 0 c).arrAt · cfg0.N) (exitF0 m c)
        (fun b hb => V2_of m (outs m) c b (fun h => hb (by rw [List.mem_singleton] at h; subst h; exact Finset.mem_image.mpr ⟨6, Finset.mem_univ _, rfl⟩)))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a region of the host program: entered from every unscoped buffer at the contents the host stretch before
    it left, left at those contents with its output array at what the write-backs leave. Its arrays are split out of the
    unscoped buffers at the entry (the activations' array dealt half to each of its two windows) and put back, the
    halves rejoined, at the exit; the generator register goes into the invariant and comes back; nothing is owed; the
    kernel has no semaphore of its own. -/
def reg1 (hb : ∀ c, BodyObligation (dat1 (F := F) (VB m) c) (defs₀ (F := F)) Variants.none () Set.univ) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := entry1 (VB m) c
    rw [Pipeline.unscopedBufs_held] at hsplit
    rw [V3_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_out1 (VB m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (VB m c))
        ⊢ (unscopedBufs c (fun b => V4 m (outs m) c b) : sProp 𝕄) :=
      exit1 (VB m) c (fun c b => V4 m (outs m) c b) ((pdats m 1 c).arrAt · cfg1.N) (exitF1 m c)
        (fun b hb => (V4_of m (outs m) c b (fun h => hb (by rw [List.mem_singleton] at h; subst h; exact Finset.mem_image.mpr ⟨6, Finset.mem_univ _, rfl⟩))).trans (by rw [V3_outs]))
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## The run -/

/-- What rides beside the buffers at every boundary between the program's items. -/
abbrev E : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Given the two calls' body obligations: from any memory with zero counters every weakly fair execution of
    the program terminates, nothing faulting, and every final state holds each unscoped buffer at the last valuation —
    the launch contents pushed through the three host stretches and the two calls' results. -/
theorem run_all (hb0 : ∀ c, BodyObligation (dat0 (F := F) (VA m) c) (defs₀ (F := F)) Variants.none () Set.univ)
    (hb1 : ∀ c, BodyObligation (dat1 (F := F) (VB m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = V5 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m hb0) (reg1 m hb1))
    (fun c Q => by
      rewrite [main_chain c, Pipeline.Seg.run_eq_chain,
        show (segs m (outs m) 𝒱₀ L lv E () (pdats m) (reg0 m hb0) (reg1 m hb1) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl,
      sep_mono .rfl (show (R c : sProp 𝕄) ⊢ iprop(∃ W, owes (c : Thread nD τ) (0 : CellTallies nD τ sig Unit) W) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨Hh, HSI⟩
      unfold StableHlo.held
      imodintro
      iapply (pointsTo_read_all (Pipeline.ucRefs τ sig) (fun b => (((c : Thread nD τ)).1, b)) (V5 m (outs m) c) s')
      isplitl [Hh] <;> iassumption)
    (hQ := fun s h c => h c)

/-- THE FRAME: every argument array ends holding its launch contents — no host stretch writes an argument and no call
    may change one. -/
theorem frame (hb0 : ∀ c, BodyObligation (dat0 (F := F) (VA m) c) (defs₀ (F := F)) Variants.none () Set.univ)
    (hb1 : ∀ c, BodyObligation (dat1 (F := F) (VB m) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (V5_main_arg0 m (outs m) c),
    (h c _ (mem_uc main_arg1 (by decide))).trans (V5_main_arg1 m (outs m) c),
    (h c _ (mem_uc main_arg2 (by decide))).trans (V5_main_arg2 m (outs m) c),
    (h c _ (mem_uc main_arg3 (by decide))).trans (V5_main_arg3 m (outs m) c),
    (h c _ (mem_uc main_arg4 (by decide))).trans (V5_main_arg4 m (outs m) c),
    (h c _ (mem_uc main_arg5 (by decide))).trans (V5_main_arg5 m (outs m) c),
    (h c _ (mem_uc main_arg6 (by decide))).trans (V5_main_arg6 m (outs m) c),
    (h c _ (mem_uc main_arg7 (by decide))).trans (V5_main_arg7 m (outs m) c),
    (h c _ (mem_uc main_arg8 (by decide))).trans (V5_main_arg8 m (outs m) c),
    (h c _ (mem_uc main_arg9 (by decide))).trans (V5_main_arg9 m (outs m) c),
    (h c _ (mem_uc main_arg10 (by decide))).trans (V5_main_arg10 m (outs m) c)⟩)
    (run_all m ρ hb0 hb1)

/-- THE RESULT: the program's result array ends at the last valuation's contents, beside the frame. -/
theorem run_value (hb0 : ∀ c, BodyObligation (dat0 (F := F) (VA m) c) (defs₀ (F := F)) Variants.none () Set.univ)
    (hb1 : ∀ c, BodyObligation (dat1 (F := F) (VB m) c) (defs₀ (F := F)) Variants.none () Set.univ) :
    θ_run defs (onTc (τ := τ) (main (F := F))) ⟨m, fun _ => 0, ρ⟩ (fun r => ∀ c : Dev nD,
      r.2.mem ((c.tc : Thread nD τ).loc main_v21) = V5 m (outs m) c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v21 (by decide)),
    (h c _ (mem_uc main_arg0 (by decide))).trans (V5_main_arg0 m (outs m) c),
    (h c _ (mem_uc main_arg1 (by decide))).trans (V5_main_arg1 m (outs m) c),
    (h c _ (mem_uc main_arg2 (by decide))).trans (V5_main_arg2 m (outs m) c),
    (h c _ (mem_uc main_arg3 (by decide))).trans (V5_main_arg3 m (outs m) c),
    (h c _ (mem_uc main_arg4 (by decide))).trans (V5_main_arg4 m (outs m) c),
    (h c _ (mem_uc main_arg5 (by decide))).trans (V5_main_arg5 m (outs m) c),
    (h c _ (mem_uc main_arg6 (by decide))).trans (V5_main_arg6 m (outs m) c),
    (h c _ (mem_uc main_arg7 (by decide))).trans (V5_main_arg7 m (outs m) c),
    (h c _ (mem_uc main_arg8 (by decide))).trans (V5_main_arg8 m (outs m) c),
    (h c _ (mem_uc main_arg9 (by decide))).trans (V5_main_arg9 m (outs m) c),
    (h c _ (mem_uc main_arg10 (by decide))).trans (V5_main_arg10 m (outs m) c)⟩)
    (run_all m ρ hb0 hb1)

end Cert.KernelIdeal.Ax

end
-- ==== Proof.KIBodyRuns.lean ====
import proofs.«100374_j17686675325050_1_alg».proof.Proof.KIData
import Idealize.ShloMosaic.Lib.Pipeline.Value
set_option maxRecDepth 16384

noncomputable section

namespace Cert.KernelIdeal.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The body of the two pallas calls, run once per case of its two conditionals

The two calls have the same body. Its two conditionals read only the key block, the grid's innermost coordinate: at key
block 0 it first resets the two scratch buffers (the running sum to zero, the queries to their projection), at key block
7 it finally copies the running sum out. Every load and every store moves a whole buffer, so what each buffer holds
afterwards is the last payload stored into it, and a load after a store reads that store's payload. -/

/-! ## The body's two conditions over the grid -/

/-- The body's first conditional asks whether the key block (the grid's last coordinate) is 0. -/
abbrev cond0_0 (i : grid0.Coords) : Prop := (Scalar.cmpi .ne (Scalar.extui (Scalar.cmpi .eq (BitVec.ofNat 32 (i 2).val) 0#32)) 0#32) = 1#1
/-- The key block is the innermost coordinate: it is 0 exactly at the positions ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second conditional asks whether the key block is the last, 7. -/
abbrev cond0_1 (i : grid0.Coords) : Prop := k0_cond2 i = 1#1
/-- It is 7 exactly at the positions ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The body's two conditions over the grid -/

/-- The body's first conditional asks whether the key block (the grid's last coordinate) is 0. -/
abbrev cond1_0 (i : grid1.Coords) : Prop := (Scalar.cmpi .ne (Scalar.extui (Scalar.cmpi .eq (BitVec.ofNat 32 (i 2).val) 0#32)) 0#32) = 1#1
/-- The key block is the innermost coordinate: it is 0 exactly at the positions ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second conditional asks whether the key block is the last, 7. -/
abbrev cond1_1 (i : grid1.Coords) : Prop := k1_cond2 i = 1#1
/-- It is 7 exactly at the positions ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The zero offsets, however they are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, last in a list of stores, covers the buffer. -/
theorem cover_S512x64 (p : Vec F S512x64 .f32) (L : List (View.Piece (Elt F) S512x64 .f32)) (y : S512x64.Idx) :
    ∃ pc ∈ ((⟨Rect.unit (s := S512x64) ![0, 0] S512x64.size inb_S512x64_S512x64_0_0, p⟩ : View.Piece (Elt F) S512x64 .f32) :: L), y ∈ pc.1.set :=
  ⟨_, List.mem_cons_self, View.mem_set_unit_zero hz2 inb_S512x64_S512x64_0_0 y⟩
theorem cover_S1x512x64 (p : Vec F S1x512x64 .f32) (L : List (View.Piece (Elt F) S1x512x64 .f32)) (y : S1x512x64.Idx) :
    ∃ pc ∈ ((⟨Rect.unit (s := S1x512x64) ![0, 0, 0] S1x512x64.size inb_S1x512x64_S1x512x64_0_0_0, p⟩ : View.Piece (Elt F) S1x512x64 .f32) :: L), y ∈ pc.1.set :=
  ⟨_, List.mem_cons_self, View.mem_set_unit_zero hz3 inb_S1x512x64_S1x512x64_0_0_0 y⟩

/-! ## Pallas call 0 -/

set_option maxHeartbeats 1000000 in
/-- The body at a point with key block 0 (first conditional taken, second not): whatever the two scratch buffers held,
    it leaves the projected queries in the second and zero plus the key block's contribution in the first; the inputs'
    buffers and the output's stay as they were. -/
theorem kernelA0 (c : Dev nD) (E : Set ℕ) (i : grid0.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : cond0_0 i) (hc1 : ¬cond0_1 i)
    (x0 x1 : Vec F S1x512x64 .f32) (w : Vec F S64x64 .f32) (b : Vec F S1x64 .f32) (wv : Vec F S64x64 .f32) (bv : Vec F S1x64 .f32)
    (y : Vec F S1x512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k0_pay1 (k0_pay5 (F := F)) (k0_pay7 w b wv bv x1 (k0_pay6 w b x0)))
            ∗ owns (c : Thread nD τ) arg11 fullShare (k0_pay6 w b x0)) -∗ K ⟨⟩))
      ⊢ wp frame (wpE (defs₀ (F := F)) Variants.none c none) E (cc0__axial_attn_kernel i arg3 harg3 arg4 harg4 arg5 harg5 arg6 harg6 arg7 harg7 arg8 harg8 arg9 harg9 arg10 harg10 arg11 harg11) K := by
  simp only [cc0__axial_attn_kernel_eq_skeleton]; unfold cc0__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf3 hf4 hf5 hf6 hf7 hf8 hf9
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  iexists _; isplitr
  swap; · iexact H11
  ipureintro
  sl_unfold_run_names
  rw [View.read_writes_eq_canon _ _ _ (cover_S512x64 _ _)]
  rw [View.canon_unit_zero (S := S512x64) hz2]
  simp only [View.readAt_eq_ld, View.ld_unit_zero (S := S64x64) hz2, View.ld_unit_zero (S := S1x64) hz2, View.ld_unit_zero (S := S512x64) hz2, View.ld_unit_zero (S := S1x512x64) hz3]

set_option maxHeartbeats 1000000 in
/-- The body at a point with key block strictly between 0 and 7 (neither conditional taken): the projected queries q stay,
    the key block's contribution is added to the running sum; the inputs' buffers and the output's stay as they were. -/
theorem kernelB0 (c : Dev nD) (E : Set ℕ) (i : grid0.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond0_0 i) (hc1 : ¬cond0_1 i)
    (x0 x1 : Vec F S1x512x64 .f32) (w : Vec F S64x64 .f32) (b : Vec F S1x64 .f32) (wv : Vec F S64x64 .f32) (bv : Vec F S1x64 .f32)
    (y : Vec F S1x512x64 .f32) (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k0_pay1 acc (k0_pay7 w b wv bv x1 q))
            ∗ owns (c : Thread nD τ) arg11 fullShare q) -∗ K ⟨⟩))
      ⊢ wp frame (wpE (defs₀ (F := F)) Variants.none c none) E (cc0__axial_attn_kernel i arg3 harg3 arg4 harg4 arg5 harg5 arg6 harg6 arg7 harg7 arg8 harg8 arg9 harg9 arg10 harg10 arg11 harg11) K := by
  simp only [cc0__axial_attn_kernel_eq_skeleton]; unfold cc0__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

set_option maxHeartbeats 1000000 in
/-- The body at a point with key block 7 (only the second conditional taken): as between, and the running sum is then
    copied, reshaped, into the output's buffer, whatever that held. -/
theorem kernelC0 (c : Dev nD) (E : Set ℕ) (i : grid0.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond0_0 i) (hc1 : cond0_1 i)
    (x0 x1 : Vec F S1x512x64 .f32) (w : Vec F S64x64 .f32) (b : Vec F S1x64 .f32) (wv : Vec F S64x64 .f32) (bv : Vec F S1x64 .f32)
    (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ (∃ d, owns (c : Thread nD τ) arg9 fullShare d) ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare (k0_pay2 (k0_pay1 acc (k0_pay7 w b wv bv x1 q)))
            ∗ owns (c : Thread nD τ) arg10 fullShare (k0_pay1 acc (k0_pay7 w b wv bv x1 q))
            ∗ owns (c : Thread nD τ) arg11 fullShare q) -∗ K ⟨⟩))
      ⊢ wp frame (wpE (defs₀ (F := F)) Variants.none c none) E (cc0__axial_attn_kernel i arg3 harg3 arg4 harg4 arg5 harg5 arg6 harg6 arg7 harg7 arg8 harg8 arg9 harg9 arg10 harg10 arg11 harg11) K := by
  simp only [cc0__axial_attn_kernel_eq_skeleton]; unfold cc0__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf3 hf4 hf5 hf6 hf7 hf8 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    sl_unfold_run_names
    rw [View.read_writes_eq_canon _ _ _ (cover_S1x512x64 _ _)]
    rw [View.canon_cons_unit_zero (S := S1x512x64) hz3]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

/-! ## Pallas call 1 -/

set_option maxHeartbeats 1000000 in
/-- The body at a point with key block 0 (first conditional taken, second not): whatever the two scratch buffers held,
    it leaves the projected queries in the second and zero plus the key block's contribution in the first; the inputs'
    buffers and the output's stay as they were. -/
theorem kernelA1 (c : Dev nD) (E : Set ℕ) (i : grid1.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : cond1_0 i) (hc1 : ¬cond1_1 i)
    (x0 x1 : Vec F S1x512x64 .f32) (w : Vec F S64x64 .f32) (b : Vec F S1x64 .f32) (wv : Vec F S64x64 .f32) (bv : Vec F S1x64 .f32)
    (y : Vec F S1x512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k1_pay1 (k1_pay5 (F := F)) (k1_pay7 w b wv bv x1 (k1_pay6 w b x0)))
            ∗ owns (c : Thread nD τ) arg11 fullShare (k1_pay6 w b x0)) -∗ K ⟨⟩))
      ⊢ wp frame (wpE (defs₀ (F := F)) Variants.none c none) E (cc1__axial_attn_kernel i arg3 harg3 arg4 harg4 arg5 harg5 arg6 harg6 arg7 harg7 arg8 harg8 arg9 harg9 arg10 harg10 arg11 harg11) K := by
  simp only [cc1__axial_attn_kernel_eq_skeleton]; unfold cc1__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf3 hf4 hf5 hf6 hf7 hf8 hf9
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  iexists _; isplitr
  swap; · iexact H11
  ipureintro
  sl_unfold_run_names
  rw [View.read_writes_eq_canon _ _ _ (cover_S512x64 _ _)]
  rw [View.canon_unit_zero (S := S512x64) hz2]
  simp only [View.readAt_eq_ld, View.ld_unit_zero (S := S64x64) hz2, View.ld_unit_zero (S := S1x64) hz2, View.ld_unit_zero (S := S512x64) hz2, View.ld_unit_zero (S := S1x512x64) hz3]

set_option maxHeartbeats 1000000 in
/-- The body at a point with key block strictly between 0 and 7 (neither conditional taken): the projected queries q stay,
    the key block's contribution is added to the running sum; the inputs' buffers and the output's stay as they were. -/
theorem kernelB1 (c : Dev nD) (E : Set ℕ) (i : grid1.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond1_0 i) (hc1 : ¬cond1_1 i)
    (x0 x1 : Vec F S1x512x64 .f32) (w : Vec F S64x64 .f32) (b : Vec F S1x64 .f32) (wv : Vec F S64x64 .f32) (bv : Vec F S1x64 .f32)
    (y : Vec F S1x512x64 .f32) (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ owns (c : Thread nD τ) arg9 fullShare y ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare y
            ∗ owns (c : Thread nD τ) arg10 fullShare (k1_pay1 acc (k1_pay7 w b wv bv x1 q))
            ∗ owns (c : Thread nD τ) arg11 fullShare q) -∗ K ⟨⟩))
      ⊢ wp frame (wpE (defs₀ (F := F)) Variants.none c none) E (cc1__axial_attn_kernel i arg3 harg3 arg4 harg4 arg5 harg5 arg6 harg6 arg7 harg7 arg8 harg8 arg9 harg9 arg10 harg10 arg11 harg11) K := by
  simp only [cc1__axial_attn_kernel_eq_skeleton]; unfold cc1__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

set_option maxHeartbeats 1000000 in
/-- The body at a point with key block 7 (only the second conditional taken): as between, and the running sum is then
    copied, reshaped, into the output's buffer, whatever that held. -/
theorem kernelC1 (c : Dev nD) (E : Set ℕ) (i : grid1.Coords) (arg3 : Memref sig .tc .vmem S1x512x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole) (arg10 : Memref sig .tc .vmem S512x64 .f32) (harg10 : arg10.IsWhole) (arg11 : Memref sig .tc .vmem S512x64 .f32) (harg11 : arg11.IsWhole)
    (hc0 : ¬cond1_0 i) (hc1 : cond1_1 i)
    (x0 x1 : Vec F S1x512x64 .f32) (w : Vec F S64x64 .f32) (b : Vec F S1x64 .f32) (wv : Vec F S64x64 .f32) (bv : Vec F S1x64 .f32)
    (acc q : Vec F S512x64 .f32) (K : PUnit → sProp 𝕄) :
    iprop(owns (c : Thread nD τ) arg3 fullShare x0 ∗ owns (c : Thread nD τ) arg4 fullShare x1 ∗ owns (c : Thread nD τ) arg5 fullShare w
        ∗ owns (c : Thread nD τ) arg6 fullShare b ∗ owns (c : Thread nD τ) arg7 fullShare wv ∗ owns (c : Thread nD τ) arg8 fullShare bv
        ∗ (∃ d, owns (c : Thread nD τ) arg9 fullShare d) ∗ owns (c : Thread nD τ) arg10 fullShare acc ∗ owns (c : Thread nD τ) arg11 fullShare q
        ∗ (iprop(owns (c : Thread nD τ) arg3 fullShare x0 ∗ owns (c : Thread nD τ) arg4 fullShare x1 ∗ owns (c : Thread nD τ) arg5 fullShare w
            ∗ owns (c : Thread nD τ) arg6 fullShare b ∗ owns (c : Thread nD τ) arg7 fullShare wv ∗ owns (c : Thread nD τ) arg8 fullShare bv
            ∗ owns (c : Thread nD τ) arg9 fullShare (k1_pay2 (k1_pay1 acc (k1_pay7 w b wv bv x1 q)))
            ∗ owns (c : Thread nD τ) arg10 fullShare (k1_pay1 acc (k1_pay7 w b wv bv x1 q))
            ∗ owns (c : Thread nD τ) arg11 fullShare q) -∗ K ⟨⟩))
      ⊢ wp frame (wpE (defs₀ (F := F)) Variants.none c none) E (cc1__axial_attn_kernel i arg3 harg3 arg4 harg4 arg5 harg5 arg6 harg6 arg7 harg7 arg8 harg8 arg9 harg9 arg10 harg10 arg11 harg11) K := by
  simp only [cc1__axial_attn_kernel_eq_skeleton]; unfold cc1__axial_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf3 hf4 hf5 hf6 hf7 hf8 hf10 hf11
  sl_exec (disch := first | exact hc0 | exact hc1)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    sl_unfold_run_names
    rw [View.read_writes_eq_canon _ _ _ (cover_S1x512x64 _ _)]
    rw [View.canon_cons_unit_zero (S := S1x512x64) hz3]
    simp only [View.readCov_unit_zero (S := S512x64) _ hz2]
    simp only [View.readAt_eq_ld, View.ld_unit_zero (S := S64x64) hz2, View.ld_unit_zero (S := S1x64) hz2, View.ld_unit_zero (S := S512x64) hz2, View.ld_unit_zero (S := S1x512x64) hz3]
  isplitl [H10]
  · iexists _; isplitr
    swap; · iexact H10
    ipureintro
    sl_unfold_run_names
    rw [View.read_writes_eq_canon _ _ _ (cover_S512x64 _ _)]
    rw [View.canon_cons_unit_zero (S := S512x64) hz2]
    simp only [View.readAt_eq_ld, View.ld_unit_zero (S := S64x64) hz2, View.ld_unit_zero (S := S1x64) hz2, View.ld_unit_zero (S := S512x64) hz2, View.ld_unit_zero (S := S1x512x64) hz3]
  iexists _; isplitr; · ipureintro; rfl
  iexact H11

end Cert.KernelIdeal.Ax

end
-- ==== Proof.KIBody.lean ====
/-
  The body obligation of the two pallas calls: at every grid point the kernel body, handed the invariant and each
  window's current staging buffer, runs to the invariant of the next point and each buffer at what the proof data say.
  The point's position mod 8 (the key block) selects one of three runs of the body; the pair (q, acc) in the two scratch
  buffers then moves from the pair the point before left to this point's, by the recursion that defines it.
-/
import proofs.«100374_j17686675325050_1_alg».proof.Proof.KIData
import proofs.«100374_j17686675325050_1_alg».proof.Proof.KIBodyRuns
set_option maxRecDepth 16384

noncomputable section

namespace Cert.KernelIdeal.Ax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Pallas call 0: where its windows are idle -/

/-- The six input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle exactly where the key block is not the last: there the body stores nothing into it, -/
theorem idleAt0_6 : ∀ t : Fin cfg0.N, ¬cond0_1 (grid0.coords t) → cfg0.idle 6 (grid0.coords t) = true := by decide +kernel
/-- and the pipeline does not write its block back; -/
theorem noFlush0_6 : ∀ t : Fin cfg0.N, ¬cond0_1 (grid0.coords t) → (cfg0.win 6).flush t = false := by decide +kernel
/-- at the last key block it is live. -/
theorem liveAt0_6 : ∀ t : Fin cfg0.N, cond0_1 (grid0.coords t) → cfg0.idle 6 (grid0.coords t) = false := by decide +kernel

/-! ## Pallas call 1: where its windows are idle -/

/-- The six input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The output window is idle exactly where the key block is not the last: there the body stores nothing into it, -/
theorem idleAt1_6 : ∀ t : Fin cfg1.N, ¬cond1_1 (grid1.coords t) → cfg1.idle 6 (grid1.coords t) = true := by decide +kernel
/-- and the pipeline does not write its block back; -/
theorem noFlush1_6 : ∀ t : Fin cfg1.N, ¬cond1_1 (grid1.coords t) → (cfg1.win 6).flush t = false := by decide +kernel
/-- at the last key block it is live. -/
theorem liveAt1_6 : ∀ t : Fin cfg1.N, cond1_1 (grid1.coords t) → cfg1.idle 6 (grid1.coords t) = false := by decide +kernel

section Region0
variable (V : (c : Dev nD) → (b : Ref sig .tc) → Buf (Elt F) ((c : Thread nD τ).loc b))

/-! ## Pallas call 0: the body at a point -/

/-- What the body is handed at point t: the invariant, the core's debts (none), and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the position's residue mod 8 says which conditionals are
    taken. At key block 0 the scratch buffers may hold anything (before the very first point the class's invariant says no
    more) and are left at the fresh pair; elsewhere they hold the pair the point before left and are left at the next pair;
    at key block 7 the output's buffer receives the running sum, elsewhere it is idle and handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  rw [show (dat0 V c).leavesExact 3 t = owns (c : Thread nD τ) (st0_3 t) fullShare ((dat0 V c).after 3 t) from by
      unfold Dat.leavesExact; rw [liveAt0_3 t], after0_3]
  rw [show (dat0 V c).leavesExact 4 t = owns (c : Thread nD τ) (st0_4 t) fullShare ((dat0 V c).after 4 t) from by
      unfold Dat.leavesExact; rw [liveAt0_4 t], after0_4]
  rw [show (dat0 V c).leavesExact 5 t = owns (c : Thread nD τ) (st0_5 t) fullShare ((dat0 V c).after 5 t) from by
      unfold Dat.leavesExact; rw [liveAt0_5 t], after0_5]
  have hN : t.val < 256 := lt_of_lt_of_eq t.isLt (show cfg0.N = 256 from N_0)
  by_cases h0 : t.val % 8 = 0
  · have h1 : ¬t.val % 8 = 7 := by omega
    rw [Dat.leavesExact_idle (dat0 V c) 6 t (idleAt0_6 t (fun h => h1 ((hcond0_1 t).mp h))) (noFlush0_6 t (fun h => h1 ((hcond0_1 t).mp h)))]
    rw [sc0_first V c t h0]
    unfold first0; dsimp only
    by_cases hz : t.val = 0
    · rw [Phi0_castSucc V c t, Phi0_zero V c _ _ hz, PhiA0_eq]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA0 c Set.univ (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi0_castSucc V c t, Phi0_pos V c _ _ hz]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA0 c Set.univ (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) ((dat0 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexists _; iexact HA
      isplitl [HQ]; · iexists _; iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [sc0_next V c t h0]
    unfold next0; dsimp only
    rw [Phi0_castSucc V c t, Phi0_pos V c _ _ hz]
    by_cases h1 : t.val % 8 = 7
    · rw [show (dat0 V c).leavesExact 6 t = owns (c : Thread nD τ) (st0_6 t) fullShare ((dat0 V c).after 6 t) from by
        unfold Dat.leavesExact; rw [liveAt0_6 t ((hcond0_1 t).mpr h1)], after0_6]
      rw [sc0_next V c t h0]
      unfold next0; dsimp only
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelC0 c Set.univ (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (sc0 V c (t.val - 1) (Nat.lt_of_le_of_lt (Nat.sub_le _ _) t.isLt)).2 (sc0 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HQ]; · iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idleAt0_6 t (fun h => h1 ((hcond0_1 t).mp h))) (noFlush0_6 t (fun h => h1 ((hcond0_1 t).mp h)))]
      iintro ⟨⟨⟨HA, HQ, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelB0 c Set.univ (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((dat0 V c).before 6 t d6) (sc0 V c (t.val - 1) (Nat.lt_of_le_of_lt (Nat.sub_le _ _) t.isLt)).2 (sc0 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [HA HQ Hoth Hg]
      · isplitl [HA HQ Hoth]
        · isplitl [HA]; · iexact HA
          isplitl [HQ]; · iexact HQ
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pallas call 0, at every point. -/
theorem body_obligation0 (c : Dev nD) : BodyObligation (dat0 (F := F) V c) (defs₀ (F := F)) Variants.none () Set.univ := fun t => by
  rw [bigSep_W0, bigSep_W0]
  exact sound_body0 V c t

end Region0

section Region1
variable (V : (c : Dev nD) → (b : Ref sig .tc) → Buf (Elt F) ((c : Thread nD τ).loc b))

/-! ## Pallas call 1: the body at a point -/

/-- What the body is handed at point t: the invariant, the core's debts (none), and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the position's residue mod 8 says which conditionals are
    taken. At key block 0 the scratch buffers may hold anything (before the very first point the class's invariant says no
    more) and are left at the fresh pair; elsewhere they hold the pair the point before left and are left at the next pair;
    at key block 7 the output's buffer receives the running sum, elsewhere it is idle and handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  rw [show (dat1 V c).leavesExact 4 t = owns (c : Thread nD τ) (st1_4 t) fullShare ((dat1 V c).after 4 t) from by
      unfold Dat.leavesExact; rw [liveAt1_4 t], after1_4]
  rw [show (dat1 V c).leavesExact 5 t = owns (c : Thread nD τ) (st1_5 t) fullShare ((dat1 V c).after 5 t) from by
      unfold Dat.leavesExact; rw [liveAt1_5 t], after1_5]
  have hN : t.val < 256 := lt_of_lt_of_eq t.isLt (show cfg1.N = 256 from N_1)
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [sc1_first V c t h0]
    unfold first1; dsimp only
    by_cases hz : t.val = 0
    · rw [Phi1_castSucc V c t, Phi1_zero V c _ _ hz, PhiA1_eq]
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA1 c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc V c t, Phi1_pos V c _ _ hz]
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelA1 c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexists _; iexact HA
      isplitl [HQ]; · iexists _; iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [sc1_next V c t h0]
    unfold next1; dsimp only
    rw [Phi1_castSucc V c t, Phi1_pos V c _ _ hz]
    by_cases h1 : t.val % 8 = 7
    · rw [show (dat1 V c).leavesExact 6 t = owns (c : Thread nD τ) (st1_6 t) fullShare ((dat1 V c).after 6 t) from by
        unfold Dat.leavesExact; rw [liveAt1_6 t ((hcond1_1 t).mpr h1)], after1_6]
      rw [sc1_next V c t h0]
      unfold next1; dsimp only
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelC1 c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (sc1 V c (t.val - 1) (Nat.lt_of_le_of_lt (Nat.sub_le _ _) t.isLt)).2 (sc1 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HQ]; · iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => h1 ((hcond1_1 t).mp h))) (noFlush1_6 t (fun h => h1 ((hcond1_1 t).mp h)))]
      iintro ⟨⟨⟨Hs0, Hs1, Hs2, Hs3, Hs4, Hs5, Hs6, Hs7, Hs8, Hs9, Hs10, Hs11, HA, HQ⟩, Hg⟩, Ho, ⟨%d0, H0⟩, ⟨%d1, H1⟩, ⟨%d2, H2⟩, ⟨%d3, H3⟩, ⟨%d4, H4⟩, ⟨%d5, H5⟩, ⟨%d6, H6⟩⟩
      iapply (kernelB1 c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((dat1 V c).before 6 t d6) (sc1 V c (t.val - 1) (Nat.lt_of_le_of_lt (Nat.sub_le _ _) t.isLt)).2 (sc1 V c (t.val - 1) (Nat.lt_of_le_of_lt (Nat.sub_le _ _) t.isLt)).1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HQ]; · iexact HQ
      iintro ⟨H0, H1, H2, H3, H4, H5, H6, HA, HQ⟩
      isplitl [Hs0 Hs1 Hs2 Hs3 Hs4 Hs5 Hs6 Hs7 Hs8 Hs9 Hs10 Hs11 HA HQ Hg]
      · isplitl [Hs0 Hs1 Hs2 Hs3 Hs4 Hs5 Hs6 Hs7 Hs8 Hs9 Hs10 Hs11 HA HQ]
        · isplitl [Hs0]; · iexact Hs0
          isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          isplitl [Hs10]; · iexact Hs10
          isplitl [Hs11]; · iexact Hs11
          isplitl [HA]; · iexact HA
          iexact HQ
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of pallas call 1, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Ax

end
-- ==== Proof.KIValueA.lean ====
/-
  The blocks of the two attention calls, read at a symbolic grid point: which entries of the arrays a point's windows
  hold, and which point's output block holds a given entry of the result.

  The grid is 4 × 8 × 8 = 256 points, point t being (batch, query block, key block) = (t / 64, t / 8 mod 8, t mod 8).
  The query window's block at t is rows 512 · (t / 8 mod 8) … of batch t / 64, the key window's rows 512 · (t mod 8) …
  of the same batch, the output window's block the query window's; the weights and biases are whole.
-/
import proofs.«100374_j17686675325050_1_alg».proof.Proof.KIData
import Idealize.ShloMosaic.Lib.Pipeline.Value
import Idealize.ShloMosaic.Lib.ValueIdx

set_option maxRecDepth 16384

noncomputable section

namespace Cert.KernelIdeal.AxValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Ax

variable (V : (c : Dev nD) → (b : Ref sig .tc) → Buf (Elt Ideal) ((c : Thread nD τ).loc b))

/-! ## Call 0 -/

/-- The index maps in closed form, decided over the grid. -/
theorem idx0 : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_6.index t (0 : Fin 3) = t.val / 64 ∧ win0_6.index t (1 : Fin 3) = t.val / 8 % 8 ∧ win0_6.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem N0 : cfg0.N = 256 := by decide +kernel

/-- The query window's block at point t: rows 512 · (t / 8 mod 8) … of batch t / 64. -/
theorem blkQ0 (c : Dev nD) (t : Fin cfg0.N) (r : Fin 512) (e : Fin 64) (g : Fin 4) (p : Fin 4096)
    (hg : g.val = t.val / 64) (hp : p.val = t.val / 8 % 8 * 512 + r.val) :
    iblk0 V c 0 t (ix3 (0 : Fin 1) r e) = V c main_v1 (ix3 g p e) := by
  obtain ⟨h0, h1, h2, -⟩ := idx0 t
  show V c main_v1 (((cfg0.win 0).blk t).view.emb (ix3 (0 : Fin 1) r e)) = V c main_v1 (ix3 g p e)
  congr 1
  funext a; apply Fin.ext
  match a with
  | ⟨0, _⟩ => show win0_0.index t (0 : Fin 3) * 1 + 1 * 0 = g.val; omega
  | ⟨1, _⟩ => show win0_0.index t (1 : Fin 3) * 512 + 1 * r.val = p.val; omega
  | ⟨2, _⟩ => show win0_0.index t (2 : Fin 3) * 64 + 1 * e.val = e.val; omega

/-- The key window's block at point t: rows 512 · (t mod 8) … of batch t / 64, of the same array. -/
theorem blkK0 (c : Dev nD) (t : Fin cfg0.N) (k : Fin 512) (f : Fin 64) (g : Fin 4) (p : Fin 4096)
    (hg : g.val = t.val / 64) (hp : p.val = t.val % 8 * 512 + k.val) :
    iblk0 V c 1 t (ix3 (0 : Fin 1) k f) = V c main_v1 (ix3 g p f) := by
  obtain ⟨-, -, -, h0, h1, h2, -⟩ := idx0 t
  show V c main_v1 (((cfg0.win 1).blk t).view.emb (ix3 (0 : Fin 1) k f)) = V c main_v1 (ix3 g p f)
  congr 1
  funext a; apply Fin.ext
  match a with
  | ⟨0, _⟩ => show win0_1.index t (0 : Fin 3) * 1 + 1 * 0 = g.val; omega
  | ⟨1, _⟩ => show win0_1.index t (1 : Fin 3) * 512 + 1 * k.val = p.val; omega
  | ⟨2, _⟩ => show win0_1.index t (2 : Fin 3) * 64 + 1 * f.val = f.val; omega

/-- The weights' and the biases' windows hold their whole arrays at every point. -/
theorem blkW0 (c : Dev nD) (t : Fin cfg0.N) (o e : Fin 64) : iblk0 V c 2 t (ix2 o e) = V c main_arg1 (ix2 o e) := by
  obtain ⟨-, -, -, -, -, -, -, -, -, h0, h1, -⟩ := idx0 t
  show V c main_arg1 (((cfg0.win 2).blk t).view.emb (ix2 o e)) = V c main_arg1 (ix2 o e)
  congr 1
  funext a; apply Fin.ext
  match a with
  | ⟨0, _⟩ => show win0_2.index t (0 : Fin 2) * 64 + 1 * o.val = o.val; omega
  | ⟨1, _⟩ => show win0_2.index t (1 : Fin 2) * 64 + 1 * e.val = e.val; omega

theorem blkB0 (c : Dev nD) (t : Fin cfg0.N) (o : Fin 64) : iblk0 V c 3 t (ix2 (0 : Fin 1) o) = V c main_v2 (ix2 (0 : Fin 1) o) := by
  obtain ⟨-, -, -, -, -, -, -, -, -, -, -, h0, h1, -⟩ := idx0 t
  show V c main_v2 (((cfg0.win 3).blk t).view.emb (ix2 (0 : Fin 1) o)) = V c main_v2 (ix2 (0 : Fin 1) o)
  congr 1
  funext a; apply Fin.ext
  match a with
  | ⟨0, _⟩ => show win0_3.index t (0 : Fin 2) * 1 + 1 * 0 = 0; omega
  | ⟨1, _⟩ => show win0_3.index t (1 : Fin 2) * 64 + 1 * o.val = o.val; omega

theorem blkWv0 (c : Dev nD) (t : Fin cfg0.N) (o e : Fin 64) : iblk0 V c 4 t (ix2 o e) = V c main_arg3 (ix2 o e) := by
  obtain ⟨-, -, -, -, -, -, -, -, -, -, -, -, -, h0, h1, -⟩ := idx0 t
  show V c main_arg3 (((cfg0.win 4).blk t).view.emb (ix2 o e)) = V c main_arg3 (ix2 o e)
  congr 1
  funext a; apply Fin.ext
  match a with
  | ⟨0, _⟩ => show win0_4.index t (0 : Fin 2) * 64 + 1 * o.val = o.val; omega
  | ⟨1, _⟩ => show win0_4.index t (1 : Fin 2) * 64 + 1 * e.val = e.val; omega

theorem blkBv0 (c : Dev nD) (t : Fin cfg0.N) (o : Fin 64) : iblk0 V c 5 t (ix2 (0 : Fin 1) o) = V c main_v3 (ix2 (0 : Fin 1) o) := by
  obtain ⟨-, -, -, -, -, -, -, -, -, -, -, -, -, -, -, h0, h1⟩ := idx0 t
  show V c main_v3 (((cfg0.win 5).blk t).view.emb (ix2 (0 : Fin 1) o)) = V c main_v3 (ix2 (0 : Fin 1) o)
  congr 1
  funext a; apply Fin.ext
  match a with
  | ⟨0, _⟩ => show win0_5.index t (0 : Fin 2) * 1 + 1 * 0 = 0; omega
  | ⟨1, _⟩ => show win0_5.index t (1 : Fin 2) * 64 + 1 * o.val = o.val; omega

/-- The output window's block at point t sits where the query window's does. -/
theorem embO0 (t : Fin cfg0.N) (r : Fin 512) (d : Fin 64) (g : Fin 4) (p : Fin 4096)
    (hg : g.val = t.val / 64) (hp : p.val = t.val / 8 % 8 * 512 + r.val) :
    ((cfg0.win 6).blk t).view.emb (ix3 (0 : Fin 1) r d) = ix3 g p d := by
  obtain ⟨-, -, -, -, -, -, h0, h1, h2, -⟩ := idx0 t
  funext a; apply Fin.ext
  match a with
  | ⟨0, _⟩ => show win0_6.index t (0 : Fin 3) * 1 + 1 * 0 = g.val; omega
  | ⟨1, _⟩ => show win0_6.index t (1 : Fin 3) * 512 + 1 * r.val = p.val; omega
  | ⟨2, _⟩ => show win0_6.index t (2 : Fin 3) * 64 + 1 * d.val = d.val; omega

/-- An entry of the result lies in point t's output block iff each coordinate is in the block's range on its axis. -/
theorem mem_blkO0 (t : Fin cfg0.N) (i : S4x4096x64.Idx) :
    i ∈ ((cfg0.win 6).blk t).view.set ↔ ∀ a : Fin 3, win0_6.index t a * S1x512x64.size a ≤ (i a).val ∧ (i a).val < win0_6.index t a * S1x512x64.size a + S1x512x64.size a := by
  show i ∈ ((View.whole main_v4).slice (win0_6.rect t)).set ↔ _
  rw [View.set_slice_whole, Rect.mem_set_unit]
  exact Iff.rfl

/-- Every entry (g, n, d) of the result is in the output block of the last key point of its query block,
    t = 64 g + 8 (n / 512) + 7, which is written back. -/
theorem cover0 (i : S4x4096x64.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  have hN : cfg0.N = 256 := N0
  refine ⟨⟨64 * (i 0).val + 8 * ((i 1).val / 512) + 7, by omega⟩, (flush0_6 _).mpr (by show (64 * (i 0).val + 8 * ((i 1).val / 512) + 7) % 8 = 7; omega), ?_⟩
  rw [mem_blkO0]
  obtain ⟨-, -, -, -, -, -, h0, h1, h2, -⟩ := idx0 ⟨64 * (i 0).val + 8 * ((i 1).val / 512) + 7, by omega⟩
  intro a
  match a with
  | ⟨0, _⟩ => show win0_6.index _ (0 : Fin 3) * 1 ≤ (i 0).val ∧ (i 0).val < win0_6.index _ (0 : Fin 3) * 1 + 1; rw [h0]; show (64 * (i 0).val + 8 * ((i 1).val / 512) + 7) / 64 * 1 ≤ (i 0).val ∧ (i 0).val < (64 * (i 0).val + 8 * ((i 1).val / 512) + 7) / 64 * 1 + 1; omega
  | ⟨1, _⟩ => show win0_6.index _ (1 : Fin 3) * 512 ≤ (i 1).val ∧ (i 1).val < win0_6.index _ (1 : Fin 3) * 512 + 512; rw [h1]; show (64 * (i 0).val + 8 * ((i 1).val / 512) + 7) / 8 % 8 * 512 ≤ (i 1).val ∧ (i 1).val < (64 * (i 0).val + 8 * ((i 1).val / 512) + 7) / 8 % 8 * 512 + 512; omega
  | ⟨2, _⟩ => show win0_6.index _ (2 : Fin 3) * 64 ≤ (i 2).val ∧ (i 2).val < win0_6.index _ (2 : Fin 3) * 64 + 64; rw [h2]; omega
/-! ## Call 1 -/

/-- The index maps in closed form, decided over the grid. -/
theorem idx1 : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = t.val % 8 ∧ win1_1.index t (2 : Fin 3) = 0
    ∧ win1_6.index t (0 : Fin 3) = t.val / 64 ∧ win1_6.index t (1 : Fin 3) = t.val / 8 % 8 ∧ win1_6.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem N1 : cfg1.N = 256 := by decide +kernel

/-- The query window's block at point t: rows 512 · (t / 8 mod 8) … of batch t / 64. -/
theorem blkQ1 (c : Dev nD) (t : Fin cfg1.N) (r : Fin 512) (e : Fin 64) (g : Fin 4) (p : Fin 4096)
    (hg : g.val = t.val / 64) (hp : p.val = t.val / 8 % 8 * 512 + r.val) :
    iblk1 V c 0 t (ix3 (0 : Fin 1) r e) = V c main_v12 (ix3 g p e) := by
  obtain ⟨h0, h1, h2, -⟩ := idx1 t
  show V c main_v12 (((cfg1.win 0).blk t).view.emb (ix3 (0 : Fin 1) r e)) = V c main_v12 (ix3 g p e)
  congr 1
  funext a; apply Fin.ext
  match a with
  | ⟨0, _⟩ => show win1_0.index t (0 : Fin 3) * 1 + 1 * 0 = g.val; omega
  | ⟨1, _⟩ => show win1_0.index t (1 : Fin 3) * 512 + 1 * r.val = p.val; omega
  | ⟨2, _⟩ => show win1_0.index t (2 : Fin 3) * 64 + 1 * e.val = e.val; omega

/-- The key window's block at point t: rows 512 · (t mod 8) … of batch t / 64, of the same array. -/
theorem blkK1 (c : Dev nD) (t : Fin cfg1.N) (k : Fin 512) (f : Fin 64) (g : Fin 4) (p : Fin 4096)
    (hg : g.val = t.val / 64) (hp : p.val = t.val % 8 * 512 + k.val) :
    iblk1 V c 1 t (ix3 (0 : Fin 1) k f) = V c main_v12 (ix3 g p f) := by
  obtain ⟨-, -, -, h0, h1, h2, -⟩ := idx1 t
  show V c main_v12 (((cfg1.win 1).blk t).view.emb (ix3 (0 : Fin 1) k f)) = V c main_v12 (ix3 g p f)
  congr 1
  funext a; apply Fin.ext
  match a with
  | ⟨0, _⟩ => show win1_1.index t (0 : Fin 3) * 1 + 1 * 0 = g.val; omega
  | ⟨1, _⟩ => show win1_1.index t (1 : Fin 3) * 512 + 1 * k.val = p.val; omega
  | ⟨2, _⟩ => show win1_1.index t (2 : Fin 3) * 64 + 1 * f.val = f.val; omega

/-- The weights' and the biases' windows hold their whole arrays at every point. -/
theorem blkW1 (c : Dev nD) (t : Fin cfg1.N) (o e : Fin 64) : iblk1 V c 2 t (ix2 o e) = V c main_arg5 (ix2 o e) := by
  obtain ⟨-, -, -, -, -, -, -, -, -, h0, h1, -⟩ := idx1 t
  show V c main_arg5 (((cfg1.win 2).blk t).view.emb (ix2 o e)) = V c main_arg5 (ix2 o e)
  congr 1
  funext a; apply Fin.ext
  match a with
  | ⟨0, _⟩ => show win1_2.index t (0 : Fin 2) * 64 + 1 * o.val = o.val; omega
  | ⟨1, _⟩ => show win1_2.index t (1 : Fin 2) * 64 + 1 * e.val = e.val; omega

theorem blkB1 (c : Dev nD) (t : Fin cfg1.N) (o : Fin 64) : iblk1 V c 3 t (ix2 (0 : Fin 1) o) = V c main_v13 (ix2 (0 : Fin 1) o) := by
  obtain ⟨-, -, -, -, -, -, -, -, -, -, -, h0, h1, -⟩ := idx1 t
  show V c main_v13 (((cfg1.win 3).blk t).view.emb (ix2 (0 : Fin 1) o)) = V c main_v13 (ix2 (0 : Fin 1) o)
  congr 1
  funext a; apply Fin.ext
  match a with
  | ⟨0, _⟩ => show win1_3.index t (0 : Fin 2) * 1 + 1 * 0 = 0; omega
  | ⟨1, _⟩ => show win1_3.index t (1 : Fin 2) * 64 + 1 * o.val = o.val; omega

theorem blkWv1 (c : Dev nD) (t : Fin cfg1.N) (o e : Fin 64) : iblk1 V c 4 t (ix2 o e) = V c main_arg7 (ix2 o e) := by
  obtain ⟨-, -, -, -, -, -, -, -, -, -, -, -, -, h0, h1, -⟩ := idx1 t
  show V c main_arg7 (((cfg1.win 4).blk t).view.emb (ix2 o e)) = V c main_arg7 (ix2 o e)
  congr 1
  funext a; apply Fin.ext
  match a with
  | ⟨0, _⟩ => show win1_4.index t (0 : Fin 2) * 64 + 1 * o.val = o.val; omega
  | ⟨1, _⟩ => show win1_4.index t (1 : Fin 2) * 64 + 1 * e.val = e.val; omega

theorem blkBv1 (c : Dev nD) (t : Fin cfg1.N) (o : Fin 64) : iblk1 V c 5 t (ix2 (0 : Fin 1) o) = V c main_v14 (ix2 (0 : Fin 1) o) := by
  obtain ⟨-, -, -, -, -, -, -, -, -, -, -, -, -, -, -, h0, h1⟩ := idx1 t
  show V c main_v14 (((cfg1.win 5).blk t).view.emb (ix2 (0 : Fin 1) o)) = V c main_v14 (ix2 (0 : Fin 1) o)
  congr 1
  funext a; apply Fin.ext
  match a with
  | ⟨0, _⟩ => show win1_5.index t (0 : Fin 2) * 1 + 1 * 0 = 0; omega
  | ⟨1, _⟩ => show win1_5.index t (1 : Fin 2) * 64 + 1 * o.val = o.val; omega

/-- The output window's block at point t sits where the query window's does. -/
theorem embO1 (t : Fin cfg1.N) (r : Fin 512) (d : Fin 64) (g : Fin 4) (p : Fin 4096)
    (hg : g.val = t.val / 64) (hp : p.val = t.val / 8 % 8 * 512 + r.val) :
    ((cfg1.win 6).blk t).view.emb (ix3 (0 : Fin 1) r d) = ix3 g p d := by
  obtain ⟨-, -, -, -, -, -, h0, h1, h2, -⟩ := idx1 t
  funext a; apply Fin.ext
  match a with
  | ⟨0, _⟩ => show win1_6.index t (0 : Fin 3) * 1 + 1 * 0 = g.val; omega
  | ⟨1, _⟩ => show win1_6.index t (1 : Fin 3) * 512 + 1 * r.val = p.val; omega
  | ⟨2, _⟩ => show win1_6.index t (2 : Fin 3) * 64 + 1 * d.val = d.val; omega

/-- An entry of the result lies in point t's output block iff each coordinate is in the block's range on its axis. -/
theorem mem_blkO1 (t : Fin cfg1.N) (i : S4x4096x64.Idx) :
    i ∈ ((cfg1.win 6).blk t).view.set ↔ ∀ a : Fin 3, win1_6.index t a * S1x512x64.size a ≤ (i a).val ∧ (i a).val < win1_6.index t a * S1x512x64.size a + S1x512x64.size a := by
  show i ∈ ((View.whole main_v15).slice (win1_6.rect t)).set ↔ _
  rw [View.set_slice_whole, Rect.mem_set_unit]
  exact Iff.rfl

/-- Every entry (g, n, d) of the result is in the output block of the last key point of its query block,
    t = 64 g + 8 (n / 512) + 7, which is written back. -/
theorem cover1 (i : S4x4096x64.Idx) : ∃ t : Fin cfg1.N, (cfg1.win 6).flush t = true ∧ i ∈ ((cfg1.win 6).blk t).view.set := by
  have hi0 : (i 0).val < 4 := (i 0).isLt
  have hi1 : (i 1).val < 4096 := (i 1).isLt
  have hi2 : (i 2).val < 64 := (i 2).isLt
  have hN : cfg1.N = 256 := N1
  refine ⟨⟨64 * (i 0).val + 8 * ((i 1).val / 512) + 7, by omega⟩, (flush1_6 _).mpr (by show (64 * (i 0).val + 8 * ((i 1).val / 512) + 7) % 8 = 7; omega), ?_⟩
  rw [mem_blkO1]
  obtain ⟨-, -, -, -, -, -, h0, h1, h2, -⟩ := idx1 ⟨64 * (i 0).val + 8 * ((i 1).val / 512) + 7, by omega⟩
  intro a
  match a with
  | ⟨0, _⟩ => show win1_6.index _ (0 : Fin 3) * 1 ≤ (i 0).val ∧ (i 0).val < win1_6.index _ (0 : Fin 3) * 1 + 1; rw [h0]; show (64 * (i 0).val + 8 * ((i 1).val / 512) + 7) / 64 * 1 ≤ (i 0).val ∧ (i 0).val < (64 * (i 0).val + 8 * ((i 1).val / 512) + 7) / 64 * 1 + 1; omega
  | ⟨1, _⟩ => show win1_6.index _ (1 : Fin 3) * 512 ≤ (i 1).val ∧ (i 1).val < win1_6.index _ (1 : Fin 3) * 512 + 512; rw [h1]; show (64 * (i 0).val + 8 * ((i 1).val / 512) + 7) / 8 % 8 * 512 ≤ (i 1).val ∧ (i 1).val < (64 * (i 0).val + 8 * ((i 1).val / 512) + 7) / 8 % 8 * 512 + 512; omega
  | ⟨2, _⟩ => show win1_6.index _ (2 : Fin 3) * 64 ≤ (i 2).val ∧ (i 2).val < win1_6.index _ (2 : Fin 3) * 64 + 64; rw [h2]; omega

end Cert.KernelIdeal.AxValue

end
-- ==== Proof.AxialSpec.lean ====
/-
  The axial self-attention both programs compute, as ONE function of a [4, 4096, 64] array and the two projections'
  weights and biases, index by index over the extended reals.

  For a batch g, a position n and a feature o the projection is  p(g, n, o) = Σ_e X(g, n, e) · W(o, e) + b(o)
  (the torch-style linear layer: the weight is read [out, in]). With q = the projection by (W, b) and v = the
  projection by (Wv, bv), the layer's value at (g, n, d) is

      Σ_m  logistic( (Σ_e q(g, n, e) · q(g, m, e)) · s ) · v(g, m, d)

  the keys being the queries' own projection, m ranging over all 4096 positions, and s the scale 1/8 kept as the
  single-precision word that denotes it (0x3E000000), so that a program multiplying by that word meets this
  function without evaluating it.
-/
import Idealize.ShloMosaic.PureOps.Ideal
import Idealize.ShloMosaic.Lib.ValueIdx

noncomputable section

namespace Cert.AxialSpec

open Idealize.ShloMosaic Idealize.ShloMosaic.ValueIdx

/-- The activations' shape [4, 4096, 64], a weight's [64, 64] and a bias's [64]. -/
abbrev T3 : Shape := ⟨3, ![4, 4096, 64]⟩
abbrev M2 : Shape := ⟨2, ![64, 64]⟩
abbrev B1 : Shape := ⟨1, ![64]⟩

/-- The scale 1/8 = 1/√64 as the single-precision word that denotes it. -/
abbrev scale : EReal := Ideal.ofBits .f32 0x3E000000#32

/-- The linear layer at (g, n, o): Σ_e X(g, n, e) · W(o, e) + b(o). -/
def proj (X : T3.Idx → EReal) (W : M2.Idx → EReal) (b : B1.Idx → EReal) (g : Fin 4) (n : Fin 4096) (o : Fin 64) : EReal :=
  (∑ e : Fin 64, X (ix3 g n e) * W (ix2 o e)) + b (ix1 o)

/-- The score of position n against position m in batch g, scaled: (Σ_e q(g, n, e) · q(g, m, e)) · s. -/
def score (X : T3.Idx → EReal) (W : M2.Idx → EReal) (b : B1.Idx → EReal) (g : Fin 4) (n m : Fin 4096) : EReal :=
  (∑ e : Fin 64, proj X W b g n e * proj X W b g m e) * scale

/-- Sigmoid attention over all positions: Σ_m logistic(score(n, m)) · v(g, m, d). -/
def attn (X : T3.Idx → EReal) (W : M2.Idx → EReal) (b : B1.Idx → EReal) (Wv : M2.Idx → EReal) (bv : B1.Idx → EReal) :
    T3.Idx → EReal := fun i =>
  ∑ m : Fin 4096, Ideal.logistic (score X W b (i 0) (i 1) m) * proj X Wv bv (i 0) m (i 2)

theorem attn_apply (X : T3.Idx → EReal) (W : M2.Idx → EReal) (b : B1.Idx → EReal) (Wv : M2.Idx → EReal) (bv : B1.Idx → EReal)
    (g : Fin 4) (n : Fin 4096) (d : Fin 64) :
    attn X W b Wv bv (ix3 g n d) = ∑ m : Fin 4096, Ideal.logistic (score X W b g n m) * proj X Wv bv g m d := rfl

end Cert.AxialSpec

end
-- ==== Proof.PayIdeal.lean ====
/-
  The kernel body's arithmetic over the extended reals, read at an index.

  Per grid point the kernel holds a block of 512 query rows and a block of 512 key rows of the [4, 4096, 64] activations.
  A linear layer sends a row x to  Σ_e x(e) · W(o, e) + b(o)  (the weight read [out, in]). Each named value of the body
  is read here at one index as an explicit finite sum:
    • the accumulator's start (zero), its update (a sum of two arrays), and the stored result (a unit axis added);
    • the query block's projection  Σ_e x(0, r, e) · W(o, e) + b(0, o);
    • one key block's share of the attention at (r, d):
        Σ_c logistic( (Σ_e q(r, e) · k(c, e)) · s ) · v(c, d),
      k and v the key block's projections by (W, b) and (Wv, bv), s the scale 1/8 kept as its single-precision word.
  Every operation is exact over the extended reals, and the changes of number format are the identity, so each
  statement is an equality of finite sums with no rounding left. A last lemma regroups eight partial sums over 512
  positions into one sum over 4096 positions.
-/
import proofs.«100374_j17686675325050_1_alg».proof.Proof.Gen.KernelIdeal.Skeleton
import proofs.«100374_j17686675325050_1_alg».proof.Proof.AxialSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal Cert.KernelIdeal.Gen

attribute [local instance] Cert.KernelIdeal.Gen.facts

/-! ## A matrix product into the zero accumulator, read at an index

With one contracting axis (the left operand's columns against the right operand's rows) the product's element at
(p, q) is the sum over the shared axis k of the left operand at (p, k) times the right operand at (k, q). The four
small facts before each product say which coordinate of an operand's index comes from the result's index and which
from the contraction's. -/

theorem mm_proj_l0 (j : S512x64.Idx) (kk : dot_S512x64_S64x64_S512x64_1_0_0_1_n_n.contr.Idx) :
    (dot_S512x64_S64x64_S512x64_1_0_0_1_n_n.lhsIdx j kk 0).val = (j 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem mm_proj_l1 (j : S512x64.Idx) (kk : dot_S512x64_S64x64_S512x64_1_0_0_1_n_n.contr.Idx) :
    (dot_S512x64_S64x64_S512x64_1_0_0_1_n_n.lhsIdx j kk 1).val = (kk ⟨0, by decide⟩).val :=
  dot_S512x64_S64x64_S512x64_1_0_0_1_n_n.lhsIdx_val_of_single rfl j kk
theorem mm_proj_r0 (j : S512x64.Idx) (kk : dot_S512x64_S64x64_S512x64_1_0_0_1_n_n.contr.Idx) :
    (dot_S512x64_S64x64_S512x64_1_0_0_1_n_n.rhsIdx j kk 0).val = (kk ⟨0, by decide⟩).val :=
  dot_S512x64_S64x64_S512x64_1_0_0_1_n_n.rhsIdx_val_of_single rfl j kk
theorem mm_proj_r1 (j : S512x64.Idx) (kk : dot_S512x64_S64x64_S512x64_1_0_0_1_n_n.contr.Idx) :
    (dot_S512x64_S64x64_S512x64_1_0_0_1_n_n.rhsIdx j kk 1).val = (j 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

theorem mm_proj (l : FVec Ideal S512x64 .bf16) (r : FVec Ideal S64x64 .bf16) (p : Fin 512) (q : Fin 64) :
    matmul (F := Ideal) dot_S512x64_S64x64_S512x64_1_0_0_1_n_n none l r (constant (F := Ideal) S512x64 .f32 0x00000000#32) (ix2 p q)
      = ∑ k : Fin 64, l (ix2 p k) * r (ix2 k q) := by
  refine (Ideal.matmul_constant_zero_apply dot_S512x64_S64x64_S512x64_1_0_0_1_n_n none l r (ix2 p q)).trans ?_
  rw [← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p q) ((contrEquiv1 dot_S512x64_S64x64_S512x64_1_0_0_1_n_n 64 rfl rfl).symm k) = ix2 p k :=
    funext fun a => Fin.ext (by
      match a with
      | ⟨0, _⟩ => exact mm_proj_l0 _ _
      | ⟨1, _⟩ => exact (mm_proj_l1 _ _).trans hk)
  have er : dot_S512x64_S64x64_S512x64_1_0_0_1_n_n.rhsIdx (ix2 p q) ((contrEquiv1 dot_S512x64_S64x64_S512x64_1_0_0_1_n_n 64 rfl rfl).symm k) = ix2 k q :=
    funext fun a => Fin.ext (by
      match a with
      | ⟨0, _⟩ => exact (mm_proj_r0 _ _).trans hk
      | ⟨1, _⟩ => exact mm_proj_r1 _ _)
  rw [el, er]

theorem mm_score_l0 (j : S512x512.Idx) (kk : dot_S512x64_S64x512_S512x512_1_0_0_1_n_n.contr.Idx) :
    (dot_S512x64_S64x512_S512x512_1_0_0_1_n_n.lhsIdx j kk 0).val = (j 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem mm_score_l1 (j : S512x512.Idx) (kk : dot_S512x64_S64x512_S512x512_1_0_0_1_n_n.contr.Idx) :
    (dot_S512x64_S64x512_S512x512_1_0_0_1_n_n.lhsIdx j kk 1).val = (kk ⟨0, by decide⟩).val :=
  dot_S512x64_S64x512_S512x512_1_0_0_1_n_n.lhsIdx_val_of_single rfl j kk
theorem mm_score_r0 (j : S512x512.Idx) (kk : dot_S512x64_S64x512_S512x512_1_0_0_1_n_n.contr.Idx) :
    (dot_S512x64_S64x512_S512x512_1_0_0_1_n_n.rhsIdx j kk 0).val = (kk ⟨0, by decide⟩).val :=
  dot_S512x64_S64x512_S512x512_1_0_0_1_n_n.rhsIdx_val_of_single rfl j kk
theorem mm_score_r1 (j : S512x512.Idx) (kk : dot_S512x64_S64x512_S512x512_1_0_0_1_n_n.contr.Idx) :
    (dot_S512x64_S64x512_S512x512_1_0_0_1_n_n.rhsIdx j kk 1).val = (j 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

theorem mm_score (l : FVec Ideal S512x64 .bf16) (r : FVec Ideal S64x512 .bf16) (p : Fin 512) (q : Fin 512) :
    matmul (F := Ideal) dot_S512x64_S64x512_S512x512_1_0_0_1_n_n none l r (constant (F := Ideal) S512x512 .f32 0x00000000#32) (ix2 p q)
      = ∑ k : Fin 64, l (ix2 p k) * r (ix2 k q) := by
  refine (Ideal.matmul_constant_zero_apply dot_S512x64_S64x512_S512x512_1_0_0_1_n_n none l r (ix2 p q)).trans ?_
  rw [← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p q) ((contrEquiv1 dot_S512x64_S64x512_S512x512_1_0_0_1_n_n 64 rfl rfl).symm k) = ix2 p k :=
    funext fun a => Fin.ext (by
      match a with
      | ⟨0, _⟩ => exact mm_score_l0 _ _
      | ⟨1, _⟩ => exact (mm_score_l1 _ _).trans hk)
  have er : dot_S512x64_S64x512_S512x512_1_0_0_1_n_n.rhsIdx (ix2 p q) ((contrEquiv1 dot_S512x64_S64x512_S512x512_1_0_0_1_n_n 64 rfl rfl).symm k) = ix2 k q :=
    funext fun a => Fin.ext (by
      match a with
      | ⟨0, _⟩ => exact (mm_score_r0 _ _).trans hk
      | ⟨1, _⟩ => exact mm_score_r1 _ _)
  rw [el, er]

theorem mm_out_l0 (j : S512x64.Idx) (kk : dot_S512x512_S512x64_S512x64_1_0_0_1_n_n.contr.Idx) :
    (dot_S512x512_S512x64_S512x64_1_0_0_1_n_n.lhsIdx j kk 0).val = (j 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem mm_out_l1 (j : S512x64.Idx) (kk : dot_S512x512_S512x64_S512x64_1_0_0_1_n_n.contr.Idx) :
    (dot_S512x512_S512x64_S512x64_1_0_0_1_n_n.lhsIdx j kk 1).val = (kk ⟨0, by decide⟩).val :=
  dot_S512x512_S512x64_S512x64_1_0_0_1_n_n.lhsIdx_val_of_single rfl j kk
theorem mm_out_r0 (j : S512x64.Idx) (kk : dot_S512x512_S512x64_S512x64_1_0_0_1_n_n.contr.Idx) :
    (dot_S512x512_S512x64_S512x64_1_0_0_1_n_n.rhsIdx j kk 0).val = (kk ⟨0, by decide⟩).val :=
  dot_S512x512_S512x64_S512x64_1_0_0_1_n_n.rhsIdx_val_of_single rfl j kk
theorem mm_out_r1 (j : S512x64.Idx) (kk : dot_S512x512_S512x64_S512x64_1_0_0_1_n_n.contr.Idx) :
    (dot_S512x512_S512x64_S512x64_1_0_0_1_n_n.rhsIdx j kk 1).val = (j 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

theorem mm_out (l : FVec Ideal S512x512 .bf16) (r : FVec Ideal S512x64 .bf16) (p : Fin 512) (q : Fin 64) :
    matmul (F := Ideal) dot_S512x512_S512x64_S512x64_1_0_0_1_n_n none l r (constant (F := Ideal) S512x64 .f32 0x00000000#32) (ix2 p q)
      = ∑ k : Fin 512, l (ix2 p k) * r (ix2 k q) := by
  refine (Ideal.matmul_constant_zero_apply dot_S512x512_S512x64_S512x64_1_0_0_1_n_n none l r (ix2 p q)).trans ?_
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 p q) ((contrEquiv1 dot_S512x512_S512x64_S512x64_1_0_0_1_n_n 512 rfl rfl).symm k) = ix2 p k :=
    funext fun a => Fin.ext (by
      match a with
      | ⟨0, _⟩ => exact mm_out_l0 _ _
      | ⟨1, _⟩ => exact (mm_out_l1 _ _).trans hk)
  have er : dot_S512x512_S512x64_S512x64_1_0_0_1_n_n.rhsIdx (ix2 p q) ((contrEquiv1 dot_S512x512_S512x64_S512x64_1_0_0_1_n_n 512 rfl rfl).symm k) = ix2 k q :=
    funext fun a => Fin.ext (by
      match a with
      | ⟨0, _⟩ => exact (mm_out_r0 _ _).trans hk
      | ⟨1, _⟩ => exact mm_out_r1 _ _)
  rw [el, er]

/-! ## The layout operations of the payloads, read at an index -/

/-- A block [1, 512, 64] with its unit axis dropped and rounded for the matrix unit (the identity here) reads, at
(r, e), the block at (0, r, e). -/
theorem rows_apply (x : Vec Ideal S1x512x64 .f32) (r : Fin 512) (e : Fin 64) :
    (truncf .bf16 (shapeCast S512x64 x shapeCasts_S1x512x64_S512x64) bitsLt_bf16_f32 : FVec Ideal S512x64 .bf16) (ix2 r e)
      = x (ix3 (0 : Fin 1) r e) :=
  shapeCast_1ab_ab_apply x shapeCasts_S1x512x64_S512x64 r e

/-- A weight, rounded and transposed, reads at (e, o) the weight at (o, e). -/
theorem wT_apply (w : Vec Ideal S64x64 .f32) (e o : Fin 64) :
    (transpose S64x64 [1, 0] (truncf .bf16 w bitsLt_bf16_f32 : FVec Ideal S64x64 .bf16) transposes_S64x64_p1_0_S64x64 :
      FVec Ideal S64x64 .bf16) (ix2 e o) = w (ix2 o e) :=
  transpose_ix2_apply (truncf .bf16 w bitsLt_bf16_f32 : FVec Ideal S64x64 .bf16) transposes_S64x64_p1_0_S64x64 e o

/-- A bias row broadcast over the 512 rows reads, at (r, o), the bias at (0, o). -/
theorem bias_apply (b : Vec Ideal S1x64 .f32) (r : Fin 512) (o : Fin 64) :
    (broadcastTo S512x64 (shapeCast S1x64 b shapeCasts_S1x64_S1x64) broadcasts_S1x64_S512x64 : FVec Ideal S512x64 .f32) (ix2 r o)
      = b (ix2 (0 : Fin 1) o) := by
  refine (broadcastTo_1b_ab_apply (shapeCast S1x64 b shapeCasts_S1x64_S1x64) broadcasts_S1x64_S512x64 r o).trans ?_
  rw [shapeCast_self]

/-- The projected keys, rounded and transposed, read at (e, c) the projection at (c, e). -/
theorem keysT_apply (y : FVec Ideal S512x64 .f32) (e : Fin 64) (c : Fin 512) :
    (transpose S64x512 [1, 0] (truncf .bf16 y bitsLt_bf16_f32 : FVec Ideal S512x64 .bf16) transposes_S512x64_p1_0_S64x512 :
      FVec Ideal S64x512 .bf16) (ix2 e c) = y (ix2 c e) :=
  transpose_ix2_apply (truncf .bf16 y bitsLt_bf16_f32 : FVec Ideal S512x64 .bf16) transposes_S512x64_p1_0_S64x512 e c

/-- The scores scaled, passed through the logistic function and rounded (the identity here): element by element. -/
theorem act_apply (s : FVec Ideal S512x512 .f32) (r c : Fin 512) :
    (truncf .bf16 (logistic (mulf s (broadcast S512x512 (Scalar.ofBits .f32 0x3E000000#32)))) bitsLt_bf16_f32 :
      FVec Ideal S512x512 .bf16) (ix2 r c) = Ideal.logistic (s (ix2 r c) * Cert.AxialSpec.scale) := rfl

/-! ## The linear layer of a block -/

/-- The linear layer of a block: at (r, o), Σ_e x(0, r, e) · w(o, e) + b(0, o). -/
theorem lin_apply (w : Vec Ideal S64x64 .f32) (b : Vec Ideal S1x64 .f32) (x : Vec Ideal S1x512x64 .f32) (r : Fin 512) (o : Fin 64) :
    (addf
        (matmul (F := Ideal) dot_S512x64_S64x64_S512x64_1_0_0_1_n_n none
          (truncf .bf16 (shapeCast S512x64 x shapeCasts_S1x512x64_S512x64) bitsLt_bf16_f32)
          (transpose S64x64 [1, 0] (truncf .bf16 w bitsLt_bf16_f32 : FVec Ideal S64x64 .bf16) transposes_S64x64_p1_0_S64x64)
          (constant (F := Ideal) S512x64 .f32 0x00000000#32))
        (broadcastTo S512x64 (shapeCast S1x64 b shapeCasts_S1x64_S1x64) broadcasts_S1x64_S512x64) : FVec Ideal S512x64 .f32) (ix2 r o)
      = (∑ e : Fin 64, x (ix3 (0 : Fin 1) r e) * w (ix2 o e)) + b (ix2 (0 : Fin 1) o) := by
  refine (addf_apply _ _ _).trans ?_
  rw [bias_apply, mm_proj]
  refine congrArg (· + b (ix2 (0 : Fin 1) o)) (Finset.sum_congr rfl fun e _ => ?_)
  rw [rows_apply, wT_apply]

/-! ## The payloads of the first call, read at an index -/

/-- The accumulator's initial value is zero everywhere. -/
theorem pay5_apply (j : S512x64.Idx) : k0_pay5 (F := Ideal) j = 0 := by
  unfold k0_pay5
  rw [shapeCast_self]
  exact Ideal.ofBits_zero_f32

/-- The accumulator's update adds the partial sum, element by element. -/
theorem pay1_apply (acc p : Vec Ideal S512x64 .f32) (j : S512x64.Idx) : k0_pay1 acc p j = acc j + p j := by
  unfold k0_pay1
  rw [shapeCast_self]
  rfl

/-- The stored result is the accumulator under a leading unit axis. -/
theorem pay2_apply (v : Vec Ideal S512x64 .f32) (r : Fin 512) (d : Fin 64) :
    k0_pay2 v (ix3 (0 : Fin 1) r d) = v (ix2 r d) := by
  unfold k0_pay2
  exact shapeCast_ab_1ab_apply v shapeCasts_S512x64_S1x512x64 0 r d

/-- The projection of the query block: at (r, o), Σ_e x(0, r, e) · w(o, e) + b(0, o). -/
theorem pay6_apply (w : Vec Ideal S64x64 .f32) (b : Vec Ideal S1x64 .f32) (x : Vec Ideal S1x512x64 .f32) (r : Fin 512) (o : Fin 64) :
    k0_pay6 w b x (ix2 r o) = (∑ e : Fin 64, x (ix3 (0 : Fin 1) r e) * w (ix2 o e)) + b (ix2 (0 : Fin 1) o) := by
  unfold k0_pay6 k0_pay3 k0_pay4
  rw [shapeCast_self]
  exact lin_apply w b x r o

/-- One key block's share of the attention: at (r, d), the sum over the block's 512 positions c of the logistic of the
scaled score of query row r against the key projection at c, times the value projection at (c, d). -/
theorem pay7_apply (w : Vec Ideal S64x64 .f32) (b : Vec Ideal S1x64 .f32) (wv : Vec Ideal S64x64 .f32) (bv : Vec Ideal S1x64 .f32)
    (xk : Vec Ideal S1x512x64 .f32) (q : Vec Ideal S512x64 .f32) (r : Fin 512) (d : Fin 64) :
    k0_pay7 w b wv bv xk q (ix2 r d)
      = ∑ c : Fin 512,
          Ideal.logistic ((∑ e : Fin 64, q (ix2 r e) * ((∑ f : Fin 64, xk (ix3 (0 : Fin 1) c f) * w (ix2 e f)) + b (ix2 (0 : Fin 1) e)))
              * Cert.AxialSpec.scale)
            * ((∑ f : Fin 64, xk (ix3 (0 : Fin 1) c f) * wv (ix2 d f)) + bv (ix2 (0 : Fin 1) d)) := by
  unfold k0_pay7 k0_pay3 k0_pay4
  refine (mm_out _ _ r d).trans (Finset.sum_congr rfl fun c _ => ?_)
  rw [act_apply, mm_score]
  refine congrArg₂ (fun s v => Ideal.logistic (s * Cert.AxialSpec.scale) * v) (Finset.sum_congr rfl fun e _ => ?_) ?_
  · rw [keysT_apply, lin_apply]
    rfl
  · exact lin_apply wv bv xk c d

/-! ## The payloads of the second call, read at an index -/

/-- The accumulator's initial value is zero everywhere. -/
theorem k1_pay5_apply (j : S512x64.Idx) : k1_pay5 (F := Ideal) j = 0 := by
  unfold k1_pay5
  rw [shapeCast_self]
  exact Ideal.ofBits_zero_f32

/-- The accumulator's update adds the partial sum, element by element. -/
theorem k1_pay1_apply (acc p : Vec Ideal S512x64 .f32) (j : S512x64.Idx) : k1_pay1 acc p j = acc j + p j := by
  unfold k1_pay1
  rw [shapeCast_self]
  rfl

/-- The stored result is the accumulator under a leading unit axis. -/
theorem k1_pay2_apply (v : Vec Ideal S512x64 .f32) (r : Fin 512) (d : Fin 64) :
    k1_pay2 v (ix3 (0 : Fin 1) r d) = v (ix2 r d) := by
  unfold k1_pay2
  exact shapeCast_ab_1ab_apply v shapeCasts_S512x64_S1x512x64 0 r d

/-- The projection of the query block: at (r, o), Σ_e x(0, r, e) · w(o, e) + b(0, o). -/
theorem k1_pay6_apply (w : Vec Ideal S64x64 .f32) (b : Vec Ideal S1x64 .f32) (x : Vec Ideal S1x512x64 .f32) (r : Fin 512) (o : Fin 64) :
    k1_pay6 w b x (ix2 r o) = (∑ e : Fin 64, x (ix3 (0 : Fin 1) r e) * w (ix2 o e)) + b (ix2 (0 : Fin 1) o) := by
  unfold k1_pay6 k1_pay3 k1_pay4
  rw [shapeCast_self]
  exact lin_apply w b x r o

/-- One key block's share of the attention: at (r, d), the sum over the block's 512 positions c of the logistic of the
scaled score of query row r against the key projection at c, times the value projection at (c, d). -/
theorem k1_pay7_apply (w : Vec Ideal S64x64 .f32) (b : Vec Ideal S1x64 .f32) (wv : Vec Ideal S64x64 .f32) (bv : Vec Ideal S1x64 .f32)
    (xk : Vec Ideal S1x512x64 .f32) (q : Vec Ideal S512x64 .f32) (r : Fin 512) (d : Fin 64) :
    k1_pay7 w b wv bv xk q (ix2 r d)
      = ∑ c : Fin 512,
          Ideal.logistic ((∑ e : Fin 64, q (ix2 r e) * ((∑ f : Fin 64, xk (ix3 (0 : Fin 1) c f) * w (ix2 e f)) + b (ix2 (0 : Fin 1) e)))
              * Cert.AxialSpec.scale)
            * ((∑ f : Fin 64, xk (ix3 (0 : Fin 1) c f) * wv (ix2 d f)) + bv (ix2 (0 : Fin 1) d)) := by
  unfold k1_pay7 k1_pay3 k1_pay4
  refine (mm_out _ _ r d).trans (Finset.sum_congr rfl fun c _ => ?_)
  rw [act_apply, mm_score]
  refine congrArg₂ (fun s v => Ideal.logistic (s * Cert.AxialSpec.scale) * v) (Finset.sum_congr rfl fun e _ => ?_) ?_
  · rw [keysT_apply, lin_apply]
    rfl
  · exact lin_apply wv bv xk c d

/-! ## Eight partial sums over 512 positions are one sum over 4096

Addition of extended reals is commutative and associative with neutral element 0, so regrouping a finite sum needs no
finiteness. Position m of the 4096 is position m % 512 of block m / 512. -/

theorem fold8 (f : Fin 8 → Fin 512 → EReal) :
    ((((((((0 + ∑ c : Fin 512, f 0 c) + ∑ c : Fin 512, f 1 c) + ∑ c : Fin 512, f 2 c) + ∑ c : Fin 512, f 3 c)
        + ∑ c : Fin 512, f 4 c) + ∑ c : Fin 512, f 5 c) + ∑ c : Fin 512, f 6 c) + ∑ c : Fin 512, f 7 c)
      = ∑ m : Fin 4096, f ⟨m.val / 512, by omega⟩ ⟨m.val % 512, Nat.mod_lt _ (by norm_num)⟩ := by
  rw [zero_add, ← Fin.sum_univ_eight (fun j => ∑ c : Fin 512, f j c), ← Fintype.sum_prod_type']
  exact (Equiv.sum_comp (finProdFinEquiv (m := 8) (n := 512)).symm (fun x : Fin 8 × Fin 512 => f x.1 x.2)).symm

end Cert.KernelIdeal.PayIdeal

end
-- ==== Proof.KIValueB.lean ====
/-
  The running sum of an attention call over the eight key blocks of one query block, as the axial attention.

  At the first key block of a query block the projected queries are set to the projection of the query block's rows
  and the running sum to zero plus the first key block's share; each later key block adds its share. A key block's
  share at (r, d) is the sum over its 512 positions of the logistic of the scaled score of query row r against that
  position, times the value projection there. After the eighth key block the running sum is the eight shares added
  in order from zero, which is the sum over all 4096 positions: the axial attention at that row.
-/
import proofs.«100374_j17686675325050_1_alg».proof.Proof.KIValueA
import proofs.«100374_j17686675325050_1_alg».proof.Proof.PayIdeal
import proofs.«100374_j17686675325050_1_alg».proof.Proof.AxialSpec

set_option maxRecDepth 16384

noncomputable section

namespace Cert.KernelIdeal.AxValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Ax Cert.KernelIdeal.PayIdeal Cert.AxialSpec

attribute [local instance] Cert.KernelIdeal.Gen.facts

/-- The running sum 0 + S 0 + S 1 + … + S j, added in this order. -/
def chain (S : ℕ → EReal) : ℕ → EReal
  | 0 => 0 + S 0
  | j + 1 => chain S j + S (j + 1)

/-- Position k of key block j among the 4096 positions. -/
def kpos (j : ℕ) (k : Fin 512) : Fin 4096 := ⟨(j * 512 + k.val) % 4096, Nat.mod_lt _ (by norm_num)⟩

theorem kpos_val (j : ℕ) (hj : j < 8) (k : Fin 512) : (kpos j k).val = j * 512 + k.val := by
  have hk : k.val < 512 := k.isLt
  show (j * 512 + k.val) % 4096 = _
  omega

/-- Eight shares added in order from zero are the sum over all 4096 positions. -/
theorem chain_seven (G : Fin 4096 → EReal) :
    chain (fun j => ∑ k : Fin 512, G (kpos j k)) 7 = ∑ m : Fin 4096, G m := by
  have h := fold8 (fun (j : Fin 8) (k : Fin 512) => G (kpos j.val k))
  refine Eq.trans ?_ (h.trans (Finset.sum_congr rfl fun m _ => congrArg G (Fin.ext ?_)))
  · rfl
  · have hm : m.val < 4096 := m.isLt
    show (m.val / 512 * 512 + m.val % 512) % 4096 = m.val
    omega

variable (V : (c : Dev nD) → (b : Ref sig .tc) → Buf (Elt Ideal) ((c : Thread nD τ).loc b))

section Call0

/-! ## Call 0 -/

variable (c : Dev nD) (bq bv : B1.Idx → EReal)
  (hq : ∀ o : Fin 64, V c main_v2 (ix2 (0 : Fin 1) o) = bq (ix1 o))
  (hv : ∀ o : Fin 64, V c main_v3 (ix2 (0 : Fin 1) o) = bv (ix1 o))

include hq in
/-- A row of the query window through the first linear layer, as the projection of the array's row. -/
theorem projQ0 (t : Fin cfg0.N) (x : Vec Ideal S1x512x64 .f32) (w : Vec Ideal S64x64 .f32) (b : Vec Ideal S1x64 .f32)
    (hx : x = iblk0 V c 0 t) (hw : w = iblk0 V c 2 t) (hb : b = iblk0 V c 3 t) (r : Fin 512) (o : Fin 64) (g : Fin 4) (p : Fin 4096)
    (hg : g.val = t.val / 64) (hp : p.val = t.val / 8 % 8 * 512 + r.val) :
    (∑ e : Fin 64, x (ix3 (0 : Fin 1) r e) * w (ix2 o e)) + b (ix2 (0 : Fin 1) o)
      = proj (V c main_v1) (V c main_arg1) bq g p o := by
  subst hx hw hb
  unfold proj
  rw [blkB0, hq]
  congr 1
  exact Finset.sum_congr rfl fun e _ => by rw [blkQ0 V c t r e g p hg hp, blkW0]

include hq in
/-- A row of the key window through the first linear layer. -/
theorem projK0 (t : Fin cfg0.N) (x : Vec Ideal S1x512x64 .f32) (w : Vec Ideal S64x64 .f32) (b : Vec Ideal S1x64 .f32)
    (hx : x = iblk0 V c 1 t) (hw : w = iblk0 V c 2 t) (hb : b = iblk0 V c 3 t) (r : Fin 512) (o : Fin 64) (g : Fin 4) (p : Fin 4096)
    (hg : g.val = t.val / 64) (hp : p.val = t.val % 8 * 512 + r.val) :
    (∑ e : Fin 64, x (ix3 (0 : Fin 1) r e) * w (ix2 o e)) + b (ix2 (0 : Fin 1) o)
      = proj (V c main_v1) (V c main_arg1) bq g p o := by
  subst hx hw hb
  unfold proj
  rw [blkB0, hq]
  congr 1
  exact Finset.sum_congr rfl fun e _ => by rw [blkK0 V c t r e g p hg hp, blkW0]

include hv in
/-- A row of the key window through the second linear layer. -/
theorem projV0 (t : Fin cfg0.N) (x : Vec Ideal S1x512x64 .f32) (w : Vec Ideal S64x64 .f32) (b : Vec Ideal S1x64 .f32)
    (hx : x = iblk0 V c 1 t) (hw : w = iblk0 V c 4 t) (hb : b = iblk0 V c 5 t) (r : Fin 512) (o : Fin 64) (g : Fin 4) (p : Fin 4096)
    (hg : g.val = t.val / 64) (hp : p.val = t.val % 8 * 512 + r.val) :
    (∑ e : Fin 64, x (ix3 (0 : Fin 1) r e) * w (ix2 o e)) + b (ix2 (0 : Fin 1) o)
      = proj (V c main_v1) (V c main_arg3) bv g p o := by
  subst hx hw hb
  unfold proj
  rw [blkBv0, hv]
  congr 1
  exact Finset.sum_congr rfl fun e _ => by rw [blkK0 V c t r e g p hg hp, blkWv0]

include hq hv in
/-- Key block j's share at row r of the query block: the sum over the block's positions of the logistic of the scaled
    score against the position, times the value projection there. -/
theorem share0 (t : Fin cfg0.N) (j : ℕ) (hj : t.val % 8 = j) (q : Vec Ideal S512x64 .f32) (r : Fin 512) (d : Fin 64)
    (g : Fin 4) (p : Fin 4096) (hg : g.val = t.val / 64)
    (hqr : ∀ e : Fin 64, q (ix2 r e) = proj (V c main_v1) (V c main_arg1) bq g p e) :
    k0_pay7 (iblk0 V c 2 t) (iblk0 V c 3 t) (iblk0 V c 4 t) (iblk0 V c 5 t) (iblk0 V c 1 t) q (ix2 r d)
      = ∑ k : Fin 512, Ideal.logistic (score (V c main_v1) (V c main_arg1) bq g p (kpos j k)) * proj (V c main_v1) (V c main_arg3) bv g (kpos j k) d := by
  refine (pay7_apply (iblk0 V c 2 t) (iblk0 V c 3 t) (iblk0 V c 4 t) (iblk0 V c 5 t) (iblk0 V c 1 t) q r d).trans
    (Finset.sum_congr rfl fun k _ => ?_)
  have hk : (kpos j k).val = t.val % 8 * 512 + k.val := by rw [hj]; exact kpos_val j (by omega) k
  rw [projV0 V c bv hv t (iblk0 V c 1 t) (iblk0 V c 4 t) (iblk0 V c 5 t) rfl rfl rfl k d g (kpos j k) hg hk]
  unfold score
  congr 3
  exact Finset.sum_congr rfl fun e _ => by rw [hqr e, projK0 V c bq hq t (iblk0 V c 1 t) (iblk0 V c 2 t) (iblk0 V c 3 t) rfl rfl rfl k e g (kpos j k) hg hk]

/-- A later point continues from the point before. -/
theorem sc0_succ (n : ℕ) (hn : n + 1 < cfg0.N) (h : ¬(n + 1) % 8 = 0) :
    sc0 V c (n + 1) hn = next0 V c ⟨n + 1, hn⟩ (sc0 V c n (Nat.lt_of_succ_lt hn)) :=
  (if_neg h).trans rfl

include hq hv in
/-- After key block j of the query block that starts at point s, row r of the projected queries is the projection of
    the array's row, and row r of the running sum is the first j + 1 shares added in order from zero. -/
theorem acc0 (s : ℕ) (hs : s % 8 = 0) (r : Fin 512) (g : Fin 4) (p : Fin 4096) (hg : g.val = s / 64)
    (hp : p.val = s / 8 % 8 * 512 + r.val) :
    ∀ (j : ℕ) (hj : j ≤ 7) (h : s + j < cfg0.N),
      (∀ e : Fin 64, (sc0 V c (s + j) h).1 (ix2 r e) = proj (V c main_v1) (V c main_arg1) bq g p e)
      ∧ (∀ d : Fin 64, (sc0 V c (s + j) h).2 (ix2 r d)
          = chain (fun j' => ∑ k : Fin 512, Ideal.logistic (score (V c main_v1) (V c main_arg1) bq g p (kpos j' k))
              * proj (V c main_v1) (V c main_arg3) bv g (kpos j' k) d) j)
  | 0, _, h => by
    have e0 : sc0 V c (s + 0) h = first0 V c ⟨s, h⟩ := sc0_first V c ⟨s, h⟩ hs
    have hQ : ∀ e : Fin 64, k0_pay6 (iblk0 V c 2 ⟨s, h⟩) (iblk0 V c 3 ⟨s, h⟩) (iblk0 V c 0 ⟨s, h⟩) (ix2 r e)
        = proj (V c main_v1) (V c main_arg1) bq g p e := fun e =>
      (pay6_apply (iblk0 V c 2 ⟨s, h⟩) (iblk0 V c 3 ⟨s, h⟩) (iblk0 V c 0 ⟨s, h⟩) r e).trans
        (projQ0 V c bq hq ⟨s, h⟩ (iblk0 V c 0 ⟨s, h⟩) (iblk0 V c 2 ⟨s, h⟩) (iblk0 V c 3 ⟨s, h⟩) rfl rfl rfl r e g p hg hp)
    rw [e0]
    refine ⟨hQ, fun d => ?_⟩
    refine (pay1_apply _ _ (ix2 r d)).trans ?_
    rw [pay5_apply, share0 V c bq bv hq hv ⟨s, h⟩ 0 hs _ r d g p hg hQ]
    rfl
  | j + 1, hj, h => by
    have ih := acc0 s hs r g p hg hp j (by omega) (by omega)
    have hne : ¬(s + j + 1) % 8 = 0 := by omega
    have e1 : sc0 V c (s + (j + 1)) h = next0 V c ⟨s + (j + 1), h⟩ (sc0 V c (s + j) (by omega)) :=
      sc0_succ V c (s + j) h hne
    rw [e1]
    refine ⟨ih.1, fun d => ?_⟩
    refine (pay1_apply _ _ (ix2 r d)).trans ?_
    rw [ih.2 d, share0 V c bq bv hq hv ⟨s + (j + 1), h⟩ (j + 1) (by show (s + (j + 1)) % 8 = j + 1; omega) _ r d g p
      (by show g.val = (s + (j + 1)) / 64; omega) ih.1]
    rfl

include hq hv in
/-- At the last key block of a query block, row r of the running sum is the axial attention at that row. -/
theorem acc0_last (t : Fin cfg0.N) (ht : t.val % 8 = 7) (r : Fin 512) (d : Fin 64) (g : Fin 4) (p : Fin 4096)
    (hg : g.val = t.val / 64) (hp : p.val = t.val / 8 % 8 * 512 + r.val) :
    (sc0 V c t.val t.isLt).2 (ix2 r d) = attn (V c main_v1) (V c main_arg1) bq (V c main_arg3) bv (ix3 g p d) := by
  have hst : t.val - 7 + 7 = t.val := by omega
  have h7 := (acc0 V c bq bv hq hv (t.val - 7) (by omega) r g p (by omega) (by omega) 7 (le_refl 7) (by rw [hst]; exact t.isLt)).2 d
  have e : ∀ (n : ℕ) (hn : n = t.val) (h : n < cfg0.N), (sc0 V c n h).2 (ix2 r d) = (sc0 V c t.val t.isLt).2 (ix2 r d) := by
    intro n hn h; subst hn; rfl
  rw [← e (t.val - 7 + 7) hst (by rw [hst]; exact t.isLt), h7, attn_apply]
  exact chain_seven (fun m => Ideal.logistic (score (V c main_v1) (V c main_arg1) bq g p m) * proj (V c main_v1) (V c main_arg3) bv g m d)

end Call0

section Call1

/-! ## Call 1 -/

variable (c : Dev nD) (bq bv : B1.Idx → EReal)
  (hq : ∀ o : Fin 64, V c main_v13 (ix2 (0 : Fin 1) o) = bq (ix1 o))
  (hv : ∀ o : Fin 64, V c main_v14 (ix2 (0 : Fin 1) o) = bv (ix1 o))

include hq in
/-- A row of the query window through the first linear layer, as the projection of the array's row. -/
theorem projQ1 (t : Fin cfg1.N) (x : Vec Ideal S1x512x64 .f32) (w : Vec Ideal S64x64 .f32) (b : Vec Ideal S1x64 .f32)
    (hx : x = iblk1 V c 0 t) (hw : w = iblk1 V c 2 t) (hb : b = iblk1 V c 3 t) (r : Fin 512) (o : Fin 64) (g : Fin 4) (p : Fin 4096)
    (hg : g.val = t.val / 64) (hp : p.val = t.val / 8 % 8 * 512 + r.val) :
    (∑ e : Fin 64, x (ix3 (0 : Fin 1) r e) * w (ix2 o e)) + b (ix2 (0 : Fin 1) o)
      = proj (V c main_v12) (V c main_arg5) bq g p o := by
  subst hx hw hb
  unfold proj
  rw [blkB1, hq]
  congr 1
  exact Finset.sum_congr rfl fun e _ => by rw [blkQ1 V c t r e g p hg hp, blkW1]

include hq in
/-- A row of the key window through the first linear layer. -/
theorem projK1 (t : Fin cfg1.N) (x : Vec Ideal S1x512x64 .f32) (w : Vec Ideal S64x64 .f32) (b : Vec Ideal S1x64 .f32)
    (hx : x = iblk1 V c 1 t) (hw : w = iblk1 V c 2 t) (hb : b = iblk1 V c 3 t) (r : Fin 512) (o : Fin 64) (g : Fin 4) (p : Fin 4096)
    (hg : g.val = t.val / 64) (hp : p.val = t.val % 8 * 512 + r.val) :
    (∑ e : Fin 64, x (ix3 (0 : Fin 1) r e) * w (ix2 o e)) + b (ix2 (0 : Fin 1) o)
      = proj (V c main_v12) (V c main_arg5) bq g p o := by
  subst hx hw hb
  unfold proj
  rw [blkB1, hq]
  congr 1
  exact Finset.sum_congr rfl fun e _ => by rw [blkK1 V c t r e g p hg hp, blkW1]

include hv in
/-- A row of the key window through the second linear layer. -/
theorem projV1 (t : Fin cfg1.N) (x : Vec Ideal S1x512x64 .f32) (w : Vec Ideal S64x64 .f32) (b : Vec Ideal S1x64 .f32)
    (hx : x = iblk1 V c 1 t) (hw : w = iblk1 V c 4 t) (hb : b = iblk1 V c 5 t) (r : Fin 512) (o : Fin 64) (g : Fin 4) (p : Fin 4096)
    (hg : g.val = t.val / 64) (hp : p.val = t.val % 8 * 512 + r.val) :
    (∑ e : Fin 64, x (ix3 (0 : Fin 1) r e) * w (ix2 o e)) + b (ix2 (0 : Fin 1) o)
      = proj (V c main_v12) (V c main_arg7) bv g p o := by
  subst hx hw hb
  unfold proj
  rw [blkBv1, hv]
  congr 1
  exact Finset.sum_congr rfl fun e _ => by rw [blkK1 V c t r e g p hg hp, blkWv1]

include hq hv in
/-- Key block j's share at row r of the query block: the sum over the block's positions of the logistic of the scaled
    score against the position, times the value projection there. -/
theorem share1 (t : Fin cfg1.N) (j : ℕ) (hj : t.val % 8 = j) (q : Vec Ideal S512x64 .f32) (r : Fin 512) (d : Fin 64)
    (g : Fin 4) (p : Fin 4096) (hg : g.val = t.val / 64)
    (hqr : ∀ e : Fin 64, q (ix2 r e) = proj (V c main_v12) (V c main_arg5) bq g p e) :
    k1_pay7 (iblk1 V c 2 t) (iblk1 V c 3 t) (iblk1 V c 4 t) (iblk1 V c 5 t) (iblk1 V c 1 t) q (ix2 r d)
      = ∑ k : Fin 512, Ideal.logistic (score (V c main_v12) (V c main_arg5) bq g p (kpos j k)) * proj (V c main_v12) (V c main_arg7) bv g (kpos j k) d := by
  refine (k1_pay7_apply (iblk1 V c 2 t) (iblk1 V c 3 t) (iblk1 V c 4 t) (iblk1 V c 5 t) (iblk1 V c 1 t) q r d).trans
    (Finset.sum_congr rfl fun k _ => ?_)
  have hk : (kpos j k).val = t.val % 8 * 512 + k.val := by rw [hj]; exact kpos_val j (by omega) k
  rw [projV1 V c bv hv t (iblk1 V c 1 t) (iblk1 V c 4 t) (iblk1 V c 5 t) rfl rfl rfl k d g (kpos j k) hg hk]
  unfold score
  congr 3
  exact Finset.sum_congr rfl fun e _ => by rw [hqr e, projK1 V c bq hq t (iblk1 V c 1 t) (iblk1 V c 2 t) (iblk1 V c 3 t) rfl rfl rfl k e g (kpos j k) hg hk]

/-- A later point continues from the point before. -/
theorem sc1_succ (n : ℕ) (hn : n + 1 < cfg1.N) (h : ¬(n + 1) % 8 = 0) :
    sc1 V c (n + 1) hn = next1 V c ⟨n + 1, hn⟩ (sc1 V c n (Nat.lt_of_succ_lt hn)) :=
  (if_neg h).trans rfl

include hq hv in
/-- After key block j of the query block that starts at point s, row r of the projected queries is the projection of
    the array's row, and row r of the running sum is the first j + 1 shares added in order from zero. -/
theorem acc1 (s : ℕ) (hs : s % 8 = 0) (r : Fin 512) (g : Fin 4) (p : Fin 4096) (hg : g.val = s / 64)
    (hp : p.val = s / 8 % 8 * 512 + r.val) :
    ∀ (j : ℕ) (hj : j ≤ 7) (h : s + j < cfg1.N),
      (∀ e : Fin 64, (sc1 V c (s + j) h).1 (ix2 r e) = proj (V c main_v12) (V c main_arg5) bq g p e)
      ∧ (∀ d : Fin 64, (sc1 V c (s + j) h).2 (ix2 r d)
          = chain (fun j' => ∑ k : Fin 512, Ideal.logistic (score (V c main_v12) (V c main_arg5) bq g p (kpos j' k))
              * proj (V c main_v12) (V c main_arg7) bv g (kpos j' k) d) j)
  | 0, _, h => by
    have e0 : sc1 V c (s + 0) h = first1 V c ⟨s, h⟩ := sc1_first V c ⟨s, h⟩ hs
    have hQ : ∀ e : Fin 64, k1_pay6 (iblk1 V c 2 ⟨s, h⟩) (iblk1 V c 3 ⟨s, h⟩) (iblk1 V c 0 ⟨s, h⟩) (ix2 r e)
        = proj (V c main_v12) (V c main_arg5) bq g p e := fun e =>
      (k1_pay6_apply (iblk1 V c 2 ⟨s, h⟩) (iblk1 V c 3 ⟨s, h⟩) (iblk1 V c 0 ⟨s, h⟩) r e).trans
        (projQ1 V c bq hq ⟨s, h⟩ (iblk1 V c 0 ⟨s, h⟩) (iblk1 V c 2 ⟨s, h⟩) (iblk1 V c 3 ⟨s, h⟩) rfl rfl rfl r e g p hg hp)
    rw [e0]
    refine ⟨hQ, fun d => ?_⟩
    refine (k1_pay1_apply _ _ (ix2 r d)).trans ?_
    rw [k1_pay5_apply, share1 V c bq bv hq hv ⟨s, h⟩ 0 hs _ r d g p hg hQ]
    rfl
  | j + 1, hj, h => by
    have ih := acc1 s hs r g p hg hp j (by omega) (by omega)
    have hne : ¬(s + j + 1) % 8 = 0 := by omega
    have e1 : sc1 V c (s + (j + 1)) h = next1 V c ⟨s + (j + 1), h⟩ (sc1 V c (s + j) (by omega)) :=
      sc1_succ V c (s + j) h hne
    rw [e1]
    refine ⟨ih.1, fun d => ?_⟩
    refine (k1_pay1_apply _ _ (ix2 r d)).trans ?_
    rw [ih.2 d, share1 V c bq bv hq hv ⟨s + (j + 1), h⟩ (j + 1) (by show (s + (j + 1)) % 8 = j + 1; omega) _ r d g p
      (by show g.val = (s + (j + 1)) / 64; omega) ih.1]
    rfl

include hq hv in
/-- At the last key block of a query block, row r of the running sum is the axial attention at that row. -/
theorem acc1_last (t : Fin cfg1.N) (ht : t.val % 8 = 7) (r : Fin 512) (d : Fin 64) (g : Fin 4) (p : Fin 4096)
    (hg : g.val = t.val / 64) (hp : p.val = t.val / 8 % 8 * 512 + r.val) :
    (sc1 V c t.val t.isLt).2 (ix2 r d) = attn (V c main_v12) (V c main_arg5) bq (V c main_arg7) bv (ix3 g p d) := by
  have hst : t.val - 7 + 7 = t.val := by omega
  have h7 := (acc1 V c bq bv hq hv (t.val - 7) (by omega) r g p (by omega) (by omega) 7 (le_refl 7) (by rw [hst]; exact t.isLt)).2 d
  have e : ∀ (n : ℕ) (hn : n = t.val) (h : n < cfg1.N), (sc1 V c n h).2 (ix2 r d) = (sc1 V c t.val t.isLt).2 (ix2 r d) := by
    intro n hn h; subst hn; rfl
  rw [← e (t.val - 7 + 7) hst (by rw [hst]; exact t.isLt), h7, attn_apply]
  exact chain_seven (fun m => Ideal.logistic (score (V c main_v12) (V c main_arg5) bq g p m) * proj (V c main_v12) (V c main_arg7) bv g m d)

end Call1

end Cert.KernelIdeal.AxValue

end
-- ==== Proof.KIValue.lean ====
/-
  The result arrays of the two attention calls are the axial attention of their inputs.

  The output window is written back at the last key point of every query block, where its block holds the running
  sum under a leading unit axis; that running sum is the axial attention at the block's rows, and the 32 written
  blocks tile the [4, 4096, 64] result.
-/
import proofs.«100374_j17686675325050_1_alg».proof.Proof.KIValueB

set_option maxRecDepth 16384

noncomputable section

namespace Cert.KernelIdeal.AxValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Ax Cert.KernelIdeal.PayIdeal Cert.AxialSpec

attribute [local instance] Cert.KernelIdeal.Gen.facts

variable (V : (c : Dev nD) → (b : Ref sig .tc) → Buf (Elt Ideal) ((c : Thread nD τ).loc b))

/-! ## Call 0 -/

/-- What a point that writes the output back writes: its block of the axial attention. -/
theorem flushed0 (c : Dev nD) (bq bv : B1.Idx → EReal)
    (hq : ∀ o : Fin 64, V c main_v2 (ix2 (0 : Fin 1) o) = bq (ix1 o)) (hv : ∀ o : Fin 64, V c main_v3 (ix2 (0 : Fin 1) o) = bv (ix1 o))
    (t : Fin cfg0.N) (hf : (cfg0.win 6).flush t = true) :
    (dat0 (F := Ideal) V c).flushed 6 t
      = ((cfg0.win 6).blk t).view.read (Elt Ideal) (attn (V c main_v1) (V c main_arg1) bq (V c main_arg3) bv) := by
  have ht : t.val % 8 = 7 := (flush0_6 t).mp hf
  have hN : cfg0.N = 256 := N0
  have htl : t.val < 256 := hN ▸ t.isLt
  show (cfg0.win 6).cut (grid0.coords t) ((dat0 (F := Ideal) V c).after 6 t) = _
  rw [after0_6]
  refine funext fun (y : S1x512x64.Idx) => ?_
  obtain ⟨u, r, d, rfl⟩ : ∃ (u : Fin 1) (r : Fin 512) (d : Fin 64), y = ix3 u r d := ⟨y 0, y 1, y 2, eq_ix3 y⟩
  obtain rfl : u = 0 := Subsingleton.elim _ _
  rw [View.read_apply, embO0 t r d ⟨t.val / 64, by omega⟩ ⟨t.val / 8 % 8 * 512 + r.val, by omega⟩ rfl rfl]
  refine (pay2_apply _ r d).trans ?_
  exact acc0_last V c bq bv hq hv t ht r d _ _ rfl rfl

/-- The result array after the call is the axial attention of the call's input, its two weights and its two biases. -/
theorem final0 (c : Dev nD) (bq bv : B1.Idx → EReal)
    (hq : ∀ o : Fin 64, V c main_v2 (ix2 (0 : Fin 1) o) = bq (ix1 o)) (hv : ∀ o : Fin 64, V c main_v3 (ix2 (0 : Fin 1) o) = bv (ix1 o)) :
    (dat0 (F := Ideal) V c).arrAt 6 cfg0.N = attn (V c main_v1) (V c main_arg1) bq (V c main_arg3) bv :=
  (dat0 (F := Ideal) V c).arrAt_eq_of_cover 6 (attn (V c main_v1) (V c main_arg1) bq (V c main_arg3) bv)
    (fun t hf => flushed0 V c bq bv hq hv t hf) cover0

/-! ## Call 1 -/

/-- What a point that writes the output back writes: its block of the axial attention. -/
theorem flushed1 (c : Dev nD) (bq bv : B1.Idx → EReal)
    (hq : ∀ o : Fin 64, V c main_v13 (ix2 (0 : Fin 1) o) = bq (ix1 o)) (hv : ∀ o : Fin 64, V c main_v14 (ix2 (0 : Fin 1) o) = bv (ix1 o))
    (t : Fin cfg1.N) (hf : (cfg1.win 6).flush t = true) :
    (dat1 (F := Ideal) V c).flushed 6 t
      = ((cfg1.win 6).blk t).view.read (Elt Ideal) (attn (V c main_v12) (V c main_arg5) bq (V c main_arg7) bv) := by
  have ht : t.val % 8 = 7 := (flush1_6 t).mp hf
  have hN : cfg1.N = 256 := N1
  have htl : t.val < 256 := hN ▸ t.isLt
  show (cfg1.win 6).cut (grid1.coords t) ((dat1 (F := Ideal) V c).after 6 t) = _
  rw [after1_6]
  refine funext fun (y : S1x512x64.Idx) => ?_
  obtain ⟨u, r, d, rfl⟩ : ∃ (u : Fin 1) (r : Fin 512) (d : Fin 64), y = ix3 u r d := ⟨y 0, y 1, y 2, eq_ix3 y⟩
  obtain rfl : u = 0 := Subsingleton.elim _ _
  rw [View.read_apply, embO1 t r d ⟨t.val / 64, by omega⟩ ⟨t.val / 8 % 8 * 512 + r.val, by omega⟩ rfl rfl]
  refine (k1_pay2_apply _ r d).trans ?_
  exact acc1_last V c bq bv hq hv t ht r d _ _ rfl rfl

/-- The result array after the call is the axial attention of the call's input, its two weights and its two biases. -/
theorem final1 (c : Dev nD) (bq bv : B1.Idx → EReal)
    (hq : ∀ o : Fin 64, V c main_v13 (ix2 (0 : Fin 1) o) = bq (ix1 o)) (hv : ∀ o : Fin 64, V c main_v14 (ix2 (0 : Fin 1) o) = bv (ix1 o)) :
    (dat1 (F := Ideal) V c).arrAt 6 cfg1.N = attn (V c main_v12) (V c main_arg5) bq (V c main_arg7) bv :=
  (dat1 (F := Ideal) V c).arrAt_eq_of_cover 6 (attn (V c main_v12) (V c main_arg5) bq (V c main_arg7) bv)
    (fun t hf => flushed1 V c bq bv hq hv t hf) cover1

end Cert.KernelIdeal.AxValue

end
-- ==== Proof.RefAttn.lean ====
/-
  The reference's two attention layers, each read index by index as the axial self-attention of AxialSpec.

  A layer of the reference is: two linear layers of one [4, 4096, 64] array X (a contraction with a [64, 64] weight
  read [out, in], plus a bias broadcast along the feature axis), the batched product q·qᵀ of the first with itself,
  the quotient of every score by √64, the sigmoid written out as 1 / (1 + exp(−s)), and the batched product of the
  sigmoids with the second linear layer. Read at an index (g, n, d) this is

      Σ_m  1 / (1 + exp(−((Σ_e q(g, n, e) · q(g, m, e)) / √64))) · v(g, m, d),

  and the only fact beyond unfolding is that dividing an extended real by √64 = 8 is multiplying it by 1/8, the
  value of the single-precision word 0x3E000000 (at the infinities too: 8 is a nonzero real).
-/
import proofs.«100374_j17686675325050_1_alg».proof.Proof.Gen.ReferenceIdeal.Read
import proofs.«100374_j17686675325050_1_alg».proof.Proof.AxialSpec

noncomputable section

namespace Cert.ReferenceIdeal.RefAttn

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.AxialSpec

/-! ## The constants -/

/-- The word 0x42800000 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The word 0x3F800000 denotes 1. -/
theorem ofBits_one : Ideal.ofBits .f32 0x3F800000#32 = 1 := by
  simp [Ideal.ofBits, Ideal.ieee, -EReal.coe_mul]; norm_num

/-- Dividing by √64 is multiplying by 1/8, for every extended real: √64 = 8 is a nonzero real, and the quotient by a
    nonzero real is the product with its reciprocal at the infinities too. -/
theorem div_sqrt_64 (s : EReal) :
    Ideal.div s (Ideal.sqrt (Ideal.ofBits .f32 0x42800000#32)) = s * Ideal.ofBits .f32 0x3E000000#32 := by
  have h8 : Real.sqrt 64 = 8 := by
    rw [show (64 : ℝ) = 8 ^ 2 by norm_num, Real.sqrt_sq (by norm_num)]
  rw [ofBits_64, ofBits_eighth, Ideal.sqrt_coe, if_neg (by norm_num), h8, Ideal.div_coe (by norm_num)]

variable (x0 : (⟨S4x64x64x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S1, .f32⟩ : BufTy).Contents (Elt Ideal))

/-! ## Layer 1: the index functions of its operations, at an index written by coordinates -/

theorem lq1 (g : Fin 4) (p : Fin 4096) (o k : Fin 64) : lidx_main_v2 (ix3 g p o) k = ix3 g p k :=
  funext fun a => Fin.ext (by match a with | ⟨0, _⟩ => rfl | ⟨1, _⟩ => rfl | ⟨2, _⟩ => rfl)
theorem rq1 (g : Fin 4) (p : Fin 4096) (o k : Fin 64) : ridx_main_v2 (ix3 g p o) k = ix2 o k :=
  funext fun a => Fin.ext (by match a with | ⟨0, _⟩ => rfl | ⟨1, _⟩ => rfl)
theorem bq1 (g : Fin 4) (p : Fin 4096) (o : Fin 64) : idx_main_v3 (idx_main_v4 (ix3 g p o)) = ix1 o :=
  funext fun a => Fin.ext (by match a with | ⟨0, _⟩ => rfl)
theorem lv1 (g : Fin 4) (p : Fin 4096) (o k : Fin 64) : lidx_main_v6 (ix3 g p o) k = ix3 g p k :=
  funext fun a => Fin.ext (by match a with | ⟨0, _⟩ => rfl | ⟨1, _⟩ => rfl | ⟨2, _⟩ => rfl)
theorem rv1 (g : Fin 4) (p : Fin 4096) (o k : Fin 64) : ridx_main_v6 (ix3 g p o) k = ix2 o k :=
  funext fun a => Fin.ext (by match a with | ⟨0, _⟩ => rfl | ⟨1, _⟩ => rfl)
theorem bv1 (g : Fin 4) (p : Fin 4096) (o : Fin 64) : idx_main_v7 (idx_main_v8 (ix3 g p o)) = ix1 o :=
  funext fun a => Fin.ext (by match a with | ⟨0, _⟩ => rfl)
theorem ls1 (g : Fin 4) (p m : Fin 4096) (e : Fin 64) : lidx_main_v10 (ix3 g p m) e = ix3 g p e :=
  funext fun a => Fin.ext (by match a with | ⟨0, _⟩ => rfl | ⟨1, _⟩ => rfl | ⟨2, _⟩ => rfl)
theorem rs1 (g : Fin 4) (p m : Fin 4096) (e : Fin 64) : ridx_main_v10 (ix3 g p m) e = ix3 g m e :=
  funext fun a => Fin.ext (by match a with | ⟨0, _⟩ => rfl | ⟨1, _⟩ => rfl | ⟨2, _⟩ => rfl)
theorem lo1 (g : Fin 4) (p : Fin 4096) (d : Fin 64) (m : Fin 4096) : lidx_main_v20 (ix3 g p d) m = ix3 g p m :=
  funext fun a => Fin.ext (by match a with | ⟨0, _⟩ => rfl | ⟨1, _⟩ => rfl | ⟨2, _⟩ => rfl)
theorem ro1 (g : Fin 4) (p : Fin 4096) (d : Fin 64) (m : Fin 4096) : ridx_main_v20 (ix3 g p d) m = ix3 g m d :=
  funext fun a => Fin.ext (by match a with | ⟨0, _⟩ => rfl | ⟨1, _⟩ => rfl | ⟨2, _⟩ => rfl)

/-! ## Layer 1: its operations at an index -/

/-- The first linear layer (the queries, which are the keys too) at (g, p, o). -/
theorem q1 (g : Fin 4) (p : Fin 4096) (o : Fin 64) :
    val_main_v5 (F := Ideal) x0 x1 x2 (ix3 g p o) = proj (val_main_v1 (F := Ideal) x0) x1 x2 g p o := by
  rw [val_main_v5_apply, val_main_v2_apply, val_main_v4_apply, val_main_v3_apply, Ideal.addf_def, bq1]
  unfold proj
  congr 1
  exact Finset.sum_congr rfl fun k _ => by rw [lq1, rq1]

/-- The second linear layer (the values) at (g, p, o). -/
theorem v1 (g : Fin 4) (p : Fin 4096) (o : Fin 64) :
    val_main_v9 (F := Ideal) x0 x3 x4 (ix3 g p o) = proj (val_main_v1 (F := Ideal) x0) x3 x4 g p o := by
  rw [val_main_v9_apply, val_main_v6_apply, val_main_v8_apply, val_main_v7_apply, Ideal.addf_def, bv1]
  unfold proj
  congr 1
  exact Finset.sum_congr rfl fun k _ => by rw [lv1, rv1]

/-- The scaled score of position p against position m: the quotient by √64 is the product with the scale's word. -/
theorem s1 (g : Fin 4) (p m : Fin 4096) :
    val_main_v13 (F := Ideal) x0 x1 x2 (ix3 g p m) = score (val_main_v1 (F := Ideal) x0) x1 x2 g p m := by
  rw [val_main_v13_apply, val_main_v10_apply, val_main_v12_apply, val_main_v11_apply, val_main_cst_apply, Ideal.hostDivf_def,
    Ideal.hostUnary_sqrt_def, Ideal.ofBits_def, div_sqrt_64]
  unfold score
  congr 1
  exact Finset.sum_congr rfl fun e _ => by rw [ls1, rs1, q1, q1]

/-- The reference's 1 / (1 + exp(−s)) is the logistic function of the score, by definition. -/
theorem a1 (g : Fin 4) (p m : Fin 4096) :
    val_main_v19 (F := Ideal) x0 x1 x2 (ix3 g p m) = Ideal.logistic (score (val_main_v1 (F := Ideal) x0) x1 x2 g p m) := by
  rw [val_main_v19_apply, val_main_v18_apply, val_main_cst_1_apply, val_main_v17_apply, val_main_v16_apply, val_main_cst_0_apply,
    val_main_v15_apply, val_main_v14_apply, s1, Ideal.hostDivf_def, Ideal.addf_def, Ideal.hostUnary_exp_def, Ideal.hostNegf_def,
    Ideal.negf_def, Ideal.ofBits_def, ofBits_one]
  rfl

/-- Layer 1 of the reference is the axial self-attention of its input. -/
theorem attn1 :
    val_main_v20 (F := Ideal) x0 x1 x2 x3 x4 = attn (val_main_v1 (F := Ideal) x0) x1 x2 x3 x4 := by
  funext i
  obtain ⟨g, p, d, rfl⟩ : ∃ (g : Fin 4) (p : Fin 4096) (d : Fin 64), i = ix3 g p d := ⟨i 0, i 1, i 2, eq_ix3 i⟩
  rw [attn_apply, val_main_v20_apply]
  exact Finset.sum_congr rfl fun m _ => by rw [lo1, ro1, a1, v1]

/-! ## Layer 2: the index functions of its operations, at an index written by coordinates -/

theorem lq2 (g : Fin 4) (p : Fin 4096) (o k : Fin 64) : lidx_main_v29 (ix3 g p o) k = ix3 g p k :=
  funext fun a => Fin.ext (by match a with | ⟨0, _⟩ => rfl | ⟨1, _⟩ => rfl | ⟨2, _⟩ => rfl)
theorem rq2 (g : Fin 4) (p : Fin 4096) (o k : Fin 64) : ridx_main_v29 (ix3 g p o) k = ix2 o k :=
  funext fun a => Fin.ext (by match a with | ⟨0, _⟩ => rfl | ⟨1, _⟩ => rfl)
theorem bq2 (g : Fin 4) (p : Fin 4096) (o : Fin 64) : idx_main_v30 (idx_main_v31 (ix3 g p o)) = ix1 o :=
  funext fun a => Fin.ext (by match a with | ⟨0, _⟩ => rfl)
theorem lv2 (g : Fin 4) (p : Fin 4096) (o k : Fin 64) : lidx_main_v33 (ix3 g p o) k = ix3 g p k :=
  funext fun a => Fin.ext (by match a with | ⟨0, _⟩ => rfl | ⟨1, _⟩ => rfl | ⟨2, _⟩ => rfl)
theorem rv2 (g : Fin 4) (p : Fin 4096) (o k : Fin 64) : ridx_main_v33 (ix3 g p o) k = ix2 o k :=
  funext fun a => Fin.ext (by match a with | ⟨0, _⟩ => rfl | ⟨1, _⟩ => rfl)
theorem bv2 (g : Fin 4) (p : Fin 4096) (o : Fin 64) : idx_main_v34 (idx_main_v35 (ix3 g p o)) = ix1 o :=
  funext fun a => Fin.ext (by match a with | ⟨0, _⟩ => rfl)
theorem ls2 (g : Fin 4) (p m : Fin 4096) (e : Fin 64) : lidx_main_v37 (ix3 g p m) e = ix3 g p e :=
  funext fun a => Fin.ext (by match a with | ⟨0, _⟩ => rfl | ⟨1, _⟩ => rfl | ⟨2, _⟩ => rfl)
theorem rs2 (g : Fin 4) (p m : Fin 4096) (e : Fin 64) : ridx_main_v37 (ix3 g p m) e = ix3 g m e :=
  funext fun a => Fin.ext (by match a with | ⟨0, _⟩ => rfl | ⟨1, _⟩ => rfl | ⟨2, _⟩ => rfl)
theorem lo2 (g : Fin 4) (p : Fin 4096) (d : Fin 64) (m : Fin 4096) : lidx_main_v47 (ix3 g p d) m = ix3 g p m :=
  funext fun a => Fin.ext (by match a with | ⟨0, _⟩ => rfl | ⟨1, _⟩ => rfl | ⟨2, _⟩ => rfl)
theorem ro2 (g : Fin 4) (p : Fin 4096) (d : Fin 64) (m : Fin 4096) : ridx_main_v47 (ix3 g p d) m = ix3 g m d :=
  funext fun a => Fin.ext (by match a with | ⟨0, _⟩ => rfl | ⟨1, _⟩ => rfl | ⟨2, _⟩ => rfl)

/-! ## Layer 2: its operations at an index -/

/-- The first linear layer (the queries, which are the keys too) at (g, p, o). -/
theorem q2 (g : Fin 4) (p : Fin 4096) (o : Fin 64) :
    val_main_v32 (F := Ideal) x0 x1 x2 x3 x4 x5 x6 x9 (ix3 g p o) = proj (val_main_v28 (F := Ideal) x0 x1 x2 x3 x4 x9) x5 x6 g p o := by
  rw [val_main_v32_apply, val_main_v29_apply, val_main_v31_apply, val_main_v30_apply, Ideal.addf_def, bq2]
  unfold proj
  congr 1
  exact Finset.sum_congr rfl fun k _ => by rw [lq2, rq2]

/-- The second linear layer (the values) at (g, p, o). -/
theorem v2 (g : Fin 4) (p : Fin 4096) (o : Fin 64) :
    val_main_v36 (F := Ideal) x0 x1 x2 x3 x4 x7 x8 x9 (ix3 g p o) = proj (val_main_v28 (F := Ideal) x0 x1 x2 x3 x4 x9) x7 x8 g p o := by
  rw [val_main_v36_apply, val_main_v33_apply, val_main_v35_apply, val_main_v34_apply, Ideal.addf_def, bv2]
  unfold proj
  congr 1
  exact Finset.sum_congr rfl fun k _ => by rw [lv2, rv2]

/-- The scaled score of position p against position m: the quotient by √64 is the product with the scale's word. -/
theorem s2 (g : Fin 4) (p m : Fin 4096) :
    val_main_v40 (F := Ideal) x0 x1 x2 x3 x4 x5 x6 x9 (ix3 g p m) = score (val_main_v28 (F := Ideal) x0 x1 x2 x3 x4 x9) x5 x6 g p m := by
  rw [val_main_v40_apply, val_main_v37_apply, val_main_v39_apply, val_main_v38_apply, val_main_cst_2_apply, Ideal.hostDivf_def,
    Ideal.hostUnary_sqrt_def, Ideal.ofBits_def, div_sqrt_64]
  unfold score
  congr 1
  exact Finset.sum_congr rfl fun e _ => by rw [ls2, rs2, q2, q2]

/-- The reference's 1 / (1 + exp(−s)) is the logistic function of the score, by definition. -/
theorem a2 (g : Fin 4) (p m : Fin 4096) :
    val_main_v46 (F := Ideal) x0 x1 x2 x3 x4 x5 x6 x9 (ix3 g p m) = Ideal.logistic (score (val_main_v28 (F := Ideal) x0 x1 x2 x3 x4 x9) x5 x6 g p m) := by
  rw [val_main_v46_apply, val_main_v45_apply, val_main_cst_4_apply, val_main_v44_apply, val_main_v43_apply, val_main_cst_3_apply,
    val_main_v42_apply, val_main_v41_apply, s2, Ideal.hostDivf_def, Ideal.addf_def, Ideal.hostUnary_exp_def, Ideal.hostNegf_def,
    Ideal.negf_def, Ideal.ofBits_def, ofBits_one]
  rfl

/-- Layer 2 of the reference is the axial self-attention of its input. -/
theorem attn2 :
    val_main_v47 (F := Ideal) x0 x1 x2 x3 x4 x5 x6 x7 x8 x9 = attn (val_main_v28 (F := Ideal) x0 x1 x2 x3 x4 x9) x5 x6 x7 x8 := by
  funext i
  obtain ⟨g, p, d, rfl⟩ : ∃ (g : Fin 4) (p : Fin 4096) (d : Fin 64), i = ix3 g p d := ⟨i 0, i 1, i 2, eq_ix3 i⟩
  rw [attn_apply, val_main_v47_apply]
  exact Finset.sum_congr rfl fun m _ => by rw [lo2, ro2, a2, v2]

end Cert.ReferenceIdeal.RefAttn

end
-- ==== Proof.HostGlue.lean ====
/-
  The host operations around the two attention layers, the same in both programs.

  Both programs move the [4, 64, 64, 64] activations to [4, 4096, 64] (a transpose and a reshape), apply an attention
  layer, put its output back on the input's layout, scale it by one learned number and add the input; the sum, with its
  last two axes swapped and read as [4, 4096, 64], enters the second layer, whose output is put back, scaled by a
  second number and added to the same sum. The only difference is that one program reshapes each bias [64] to [1, 64]
  before its layers, which reads the same numbers: (0, o) ↦ o.

  So if each layer of the one program leaves the axial self-attention of its input, as each layer of the reference
  does, the two results are equal: the shared operations are carried as two functions (the residual step and the
  re-layout) applied to equal arguments, and never opened.
-/
import proofs.«100374_j17686675325050_1_alg».proof.Proof.Gen.KernelIdeal.Regions
import proofs.«100374_j17686675325050_1_alg».proof.Proof.Gen.ReferenceIdeal.Read
import proofs.«100374_j17686675325050_1_alg».proof.Proof.RefAttn
import proofs.«100374_j17686675325050_1_alg».proof.Proof.AxialSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostGlue

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (outs : Outs (F := Ideal)) (c : Dev nD)

/-! ## The shared host operations as functions -/

/-- A layer's output put back on the input's layout (a reshape and a transpose), scaled by one learned number and added
to a residual array. -/
def resid (perm : List (Fin S4x64x64x64.rank)) (h : S4x64x64x64.Transposes perm S4x64x64x64)
    (y : FVec Ideal S4x4096x64 .f32) (g : FVec Ideal S1 .f32) (x : FVec Ideal S4x64x64x64 .f32) : FVec Ideal S4x64x64x64 .f32 :=
  addf (mulf (transpose S4x64x64x64 perm (shapeCast S4x64x64x64 y shapeCasts_S4x4096x64_S4x64x64x64) h)
    (broadcastInDim S4x64x64x64 ![0, 1, 2, 3] bcast_S1x1x1x1_S4x64x64x64_0_1_2_3 (broadcastInDim S1x1x1x1 ![3] bcast_S1_S1x1x1x1_3 g))) x

/-- An array [4, 64, 64, 64] with its last two axes swapped, read as [4, 4096, 64]. -/
def relay (x : FVec Ideal S4x64x64x64 .f32) : FVec Ideal S4x4096x64 .f32 :=
  shapeCast S4x4096x64 (transpose S4x64x64x64 [0, 1, 3, 2] x transposes_S4x64x64x64_S4x64x64x64_0_1_3_2) shapeCasts_S4x64x64x64_S4x4096x64

/-! ## What each stretch of host operations writes, from any contents before it -/

theorem ops0_v1 (W : Valuation τ sig (Elt Ideal)) :
    after hostOps0 W main_v1 = shapeCast S4x4096x64 (transpose S4x64x64x64 [0, 2, 3, 1] (W main_arg0) transposes_S4x64x64x64_S4x64x64x64_0_2_3_1) shapeCasts_S4x64x64x64_S4x4096x64 := by
  dsimp only [hostOps0]
  after_results
  rfl

theorem ops0_v2 (W : Valuation τ sig (Elt Ideal)) :
    after hostOps0 W main_v2 = shapeCast S1x64 (W main_arg2) shapeCasts_S64_S1x64 := by
  dsimp only [hostOps0]
  after_results
  rfl

theorem ops0_v3 (W : Valuation τ sig (Elt Ideal)) :
    after hostOps0 W main_v3 = shapeCast S1x64 (W main_arg4) shapeCasts_S64_S1x64 := by
  dsimp only [hostOps0]
  after_results
  rfl

theorem ops1_v10 (W : Valuation τ sig (Elt Ideal)) :
    after hostOps1 W main_v10 = resid [0, 3, 1, 2] transposes_S4x64x64x64_S4x64x64x64_0_3_1_2 (W main_v4) (W main_arg9) (W main_arg0) := by
  dsimp only [hostOps1]
  after_results
  rfl

theorem ops1_v12 (W : Valuation τ sig (Elt Ideal)) :
    after hostOps1 W main_v12 = relay (resid [0, 3, 1, 2] transposes_S4x64x64x64_S4x64x64x64_0_3_1_2 (W main_v4) (W main_arg9) (W main_arg0)) := by
  dsimp only [hostOps1]
  after_results
  rfl

theorem ops1_v13 (W : Valuation τ sig (Elt Ideal)) :
    after hostOps1 W main_v13 = shapeCast S1x64 (W main_arg6) shapeCasts_S64_S1x64 := by
  dsimp only [hostOps1]
  after_results
  rfl

theorem ops1_v14 (W : Valuation τ sig (Elt Ideal)) :
    after hostOps1 W main_v14 = shapeCast S1x64 (W main_arg8) shapeCasts_S64_S1x64 := by
  dsimp only [hostOps1]
  after_results
  rfl

theorem ops2_v21 (W : Valuation τ sig (Elt Ideal)) :
    after hostOps2 W main_v21 = resid [0, 1, 3, 2] transposes_S4x64x64x64_S4x64x64x64_0_1_3_2 (W main_v15) (W main_arg10) (W main_v10) := by
  dsimp only [hostOps2]
  after_results
  rfl

/-! ## The arguments and the biases as the regions find them -/

/-- No host operation before the first region writes an argument. -/
theorem V1_arg (r : Ref sig .tc) (h : r ∉ hostOps0_W) : V1 m c r = m ((c.tc : Thread nD τ).loc r) := V1_of m c r h

/-- Nor does anything before the second region. -/
theorem V3_arg (r : Ref sig .tc) (h3 : r ∉ hostOps1_W) (h2 : r ∉ ([main_v4] : List (Ref sig .tc))) (h1 : r ∉ hostOps0_W) :
    V3 m outs c r = m ((c.tc : Thread nD τ).loc r) :=
  (V3_of m outs c r h3).trans ((V2_of m outs c r h2).trans (V1_of m c r h1))

/-- Nor before the last stretch of host operations. -/
theorem V4_arg (r : Ref sig .tc) (h4 : r ∉ ([main_v15] : List (Ref sig .tc))) (h3 : r ∉ hostOps1_W)
    (h2 : r ∉ ([main_v4] : List (Ref sig .tc))) (h1 : r ∉ hostOps0_W) :
    V4 m outs c r = m ((c.tc : Thread nD τ).loc r) :=
  (V4_of m outs c r h4).trans (V3_arg m outs c r h3 h2 h1)

theorem w1 : V1 m c main_arg1 = (m ((c.tc : Thread nD τ).loc main_arg1)) := V1_arg m c main_arg1 (by decide)
theorem w3 : V1 m c main_arg3 = (m ((c.tc : Thread nD τ).loc main_arg3)) := V1_arg m c main_arg3 (by decide)
theorem w5 : V3 m outs c main_arg5 = (m ((c.tc : Thread nD τ).loc main_arg5)) := V3_arg m outs c main_arg5 (by decide) (by decide) (by decide)
theorem w7 : V3 m outs c main_arg7 = (m ((c.tc : Thread nD τ).loc main_arg7)) := V3_arg m outs c main_arg7 (by decide) (by decide) (by decide)

/-- A bias [64] reshaped to [1, 64] reads, at (0, o), the bias at o. -/
theorem bias2 (o : Fin 64) : V1 m c main_v2 (ix2 (0 : Fin 1) o) = (m ((c.tc : Thread nD τ).loc main_arg2)) (ix1 o) := by
  rw [show V1 m c main_v2 = shapeCast S1x64 (V0 m c main_arg2) shapeCasts_S64_S1x64 from ops0_v2 (V0 m c)]
  exact shapeCast_a_1a_apply _ shapeCasts_S64_S1x64 0 o

theorem bias3 (o : Fin 64) : V1 m c main_v3 (ix2 (0 : Fin 1) o) = (m ((c.tc : Thread nD τ).loc main_arg4)) (ix1 o) := by
  rw [show V1 m c main_v3 = shapeCast S1x64 (V0 m c main_arg4) shapeCasts_S64_S1x64 from ops0_v3 (V0 m c)]
  exact shapeCast_a_1a_apply _ shapeCasts_S64_S1x64 0 o

theorem bias13 (o : Fin 64) : V3 m outs c main_v13 (ix2 (0 : Fin 1) o) = (m ((c.tc : Thread nD τ).loc main_arg6)) (ix1 o) := by
  rw [show V3 m outs c main_v13 = shapeCast S1x64 (V2 m outs c main_arg6) shapeCasts_S64_S1x64 from ops1_v13 (V2 m outs c),
    (V2_of m outs c main_arg6 (by decide)).trans (V1_arg m c main_arg6 (by decide))]
  exact shapeCast_a_1a_apply _ shapeCasts_S64_S1x64 0 o

theorem bias14 (o : Fin 64) : V3 m outs c main_v14 (ix2 (0 : Fin 1) o) = (m ((c.tc : Thread nD τ).loc main_arg8)) (ix1 o) := by
  rw [show V3 m outs c main_v14 = shapeCast S1x64 (V2 m outs c main_arg8) shapeCasts_S64_S1x64 from ops1_v14 (V2 m outs c),
    (V2_of m outs c main_arg8 (by decide)).trans (V1_arg m c main_arg8 (by decide))]
  exact shapeCast_a_1a_apply _ shapeCasts_S64_S1x64 0 o

/-! ## The two programs' arrays between the layers -/

/-- The first layer's input: the activations moved to [4, 4096, 64], the same operations in both programs. -/
theorem first_in : V1 m c main_v1 = Cert.ReferenceIdeal.Read.val_main_v1 (F := Ideal) (m ((c.tc : Thread nD τ).loc main_arg0)) :=
  (ops0_v1 (V0 m c)).trans rfl

/-- The reference's array between the layers is the first layer's output put back on the input's layout, scaled and
added to the input. -/
theorem ref_mid (x0 : FVec Ideal S4x64x64x64 .f32) (x1 : FVec Ideal S64x64 .f32) (x2 : FVec Ideal S64 .f32) (x3 : FVec Ideal S64x64 .f32)
    (x4 : FVec Ideal S64 .f32) (x9 : FVec Ideal S1 .f32) :
    Cert.ReferenceIdeal.Read.val_main_v26 (F := Ideal) x0 x1 x2 x3 x4 x9
      = resid [0, 3, 1, 2] transposes_S4x64x64x64_S4x64x64x64_0_3_1_2 (Cert.ReferenceIdeal.Read.val_main_v20 (F := Ideal) x0 x1 x2 x3 x4) x9 x0 := rfl

/-- The reference's second layer reads that array with its last two axes swapped, as [4, 4096, 64]. -/
theorem ref_second_in (x0 : FVec Ideal S4x64x64x64 .f32) (x1 : FVec Ideal S64x64 .f32) (x2 : FVec Ideal S64 .f32) (x3 : FVec Ideal S64x64 .f32)
    (x4 : FVec Ideal S64 .f32) (x9 : FVec Ideal S1 .f32) :
    Cert.ReferenceIdeal.Read.val_main_v28 (F := Ideal) x0 x1 x2 x3 x4 x9 = relay (Cert.ReferenceIdeal.Read.val_main_v26 (F := Ideal) x0 x1 x2 x3 x4 x9) := rfl

/-- The reference's result is the second layer's output put back on the input's layout, scaled and added to the array
between the layers. -/
theorem ref_out (x0 : FVec Ideal S4x64x64x64 .f32) (x1 : FVec Ideal S64x64 .f32) (x2 : FVec Ideal S64 .f32) (x3 : FVec Ideal S64x64 .f32)
    (x4 : FVec Ideal S64 .f32) (x5 : FVec Ideal S64x64 .f32) (x6 : FVec Ideal S64 .f32) (x7 : FVec Ideal S64x64 .f32) (x8 : FVec Ideal S64 .f32)
    (x9 x10 : FVec Ideal S1 .f32) :
    Cert.ReferenceIdeal.Read.val_main_v53 (F := Ideal) x0 x1 x2 x3 x4 x5 x6 x7 x8 x9 x10
      = resid [0, 1, 3, 2] transposes_S4x64x64x64_S4x64x64x64_0_1_3_2 (Cert.ReferenceIdeal.Read.val_main_v47 (F := Ideal) x0 x1 x2 x3 x4 x5 x6 x7 x8 x9) x10
          (Cert.ReferenceIdeal.Read.val_main_v26 (F := Ideal) x0 x1 x2 x3 x4 x9) := rfl

/-- If the first region leaves the attention of its input, the array between the layers is the reference's. -/
theorem first_out (h2 : outs 2 main_v4 c = Cert.AxialSpec.attn (V1 m c main_v1) (m ((c.tc : Thread nD τ).loc main_arg1)) (m ((c.tc : Thread nD τ).loc main_arg2)) (m ((c.tc : Thread nD τ).loc main_arg3)) (m ((c.tc : Thread nD τ).loc main_arg4))) :
    V3 m outs c main_v10 = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) := by
  have e4 : V2 m outs c main_v4 = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
    refine (Function.update_self _ _ _).trans (h2.trans ?_)
    rw [first_in, ← Cert.ReferenceIdeal.RefAttn.attn1]
  have e9 : V2 m outs c main_arg9 = (m ((c.tc : Thread nD τ).loc main_arg9)) := (V2_of m outs c main_arg9 (by decide)).trans (V1_arg m c main_arg9 (by decide))
  have e0 : V2 m outs c main_arg0 = (m ((c.tc : Thread nD τ).loc main_arg0)) := (V2_of m outs c main_arg0 (by decide)).trans (V1_arg m c main_arg0 (by decide))
  refine (ops1_v10 (V2 m outs c)).trans ?_
  rw [e4, e9, e0]
  exact (ref_mid _ _ _ _ _ _).symm

/-- The second layer's input is then the reference's too. -/
theorem second_in (h2 : outs 2 main_v4 c = Cert.AxialSpec.attn (V1 m c main_v1) (m ((c.tc : Thread nD τ).loc main_arg1)) (m ((c.tc : Thread nD τ).loc main_arg2)) (m ((c.tc : Thread nD τ).loc main_arg3)) (m ((c.tc : Thread nD τ).loc main_arg4))) :
    V3 m outs c main_v12 = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) := by
  refine (ops1_v12 (V2 m outs c)).trans ?_
  rw [← ops1_v10 (V2 m outs c)]
  exact (congrArg relay (first_out m outs c h2)).trans (ref_second_in _ _ _ _ _ _).symm

/-- If moreover the second region leaves the attention of its input, the program's result is the reference's. -/
theorem glue (h2 : outs 2 main_v4 c = Cert.AxialSpec.attn (V1 m c main_v1) (m ((c.tc : Thread nD τ).loc main_arg1)) (m ((c.tc : Thread nD τ).loc main_arg2)) (m ((c.tc : Thread nD τ).loc main_arg3)) (m ((c.tc : Thread nD τ).loc main_arg4)))
    (h4 : outs 4 main_v15 c = Cert.AxialSpec.attn (V3 m outs c main_v12) (m ((c.tc : Thread nD τ).loc main_arg5)) (m ((c.tc : Thread nD τ).loc main_arg6)) (m ((c.tc : Thread nD τ).loc main_arg7)) (m ((c.tc : Thread nD τ).loc main_arg8))) :
    V5 m outs c main_v21 = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e15 : V4 m outs c main_v15 = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    refine (Function.update_self _ _ _).trans (h4.trans ?_)
    rw [second_in m outs c h2, ← Cert.ReferenceIdeal.RefAttn.attn2]
  have e10a : V4 m outs c main_arg10 = (m ((c.tc : Thread nD τ).loc main_arg10)) := V4_arg m outs c main_arg10 (by decide) (by decide) (by decide) (by decide)
  have e10 : V4 m outs c main_v10 = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) :=
    (V4_of m outs c main_v10 (by decide)).trans (first_out m outs c h2)
  refine (ops2_v21 (V4 m outs c)).trans ?_
  rw [e15, e10a, e10]
  exact (ref_out _ _ _ _ _ _ _ _ _ _ _).symm

end Cert.KernelIdeal.HostGlue

end
-- ==== Proof.lean ====
/-
  The certificate's five claims.

  The kernel runs two axial sigmoid-attention layers as two pallas calls between short stretches of host operations;
  the reference is the same computation in jnp. Each call walks a 4 × 8 × 8 grid (batch, query block, key block): it
  keeps the projected queries of the current query block and a running sum in two scratch buffers, adds one key
  block's contribution per point, and writes the sum out at the last key block. Read over the extended reals this is,
  at every (batch, position, feature), the sum over ALL 4096 key positions of logistic(q·k / 8) · v — eight partial
  sums of 512 regrouped, the reference's quotient by √64 being the kernel's product with 1/8 — and around the two
  layers both programs apply the same transposes, reshapes, scalings and residual additions.

  The frames: both kernel programs run to the end, fault nowhere and leave the arguments as launched (the run of the
  two calls as regions of the host program, each call's body obligation at every grid point); the reference's frame
  is its run with the result dropped. Nothing was rewritten by the idealization, so the preservation claim is trivial.
  The value claim: the kernel's result array, the last host stretch applied to the second call's output, is the
  reference's result term.
-/
import proofs.«100374_j17686675325050_1_alg».proof.Defs
import proofs.«100374_j17686675325050_1_alg».proof.Proof.Gen.Kernel
import proofs.«100374_j17686675325050_1_alg».proof.Proof.Gen.KernelIdeal
import proofs.«100374_j17686675325050_1_alg».proof.Proof.Gen.ReferenceIdeal
import proofs.«100374_j17686675325050_1_alg».proof.Proof.Gen.ReferenceIdeal.Read
import proofs.«100374_j17686675325050_1_alg».proof.Proof.Gen.Pre_finite_inputs
import proofs.«100374_j17686675325050_1_alg».proof.Proof.KRun
import proofs.«100374_j17686675325050_1_alg».proof.Proof.KBody
import proofs.«100374_j17686675325050_1_alg».proof.Proof.KIRun
import proofs.«100374_j17686675325050_1_alg».proof.Proof.KIBody
import proofs.«100374_j17686675325050_1_alg».proof.Proof.KIValue
import proofs.«100374_j17686675325050_1_alg».proof.Proof.HostGlue
import proofs.«100374_j17686675325050_1_alg».proof.Proof.RefAttn
import Idealize.ShloMosaic.Adequacy
import Idealize.ShloMosaic.Init

noncomputable section

namespace Cert.Proof

open Idealize.ShloMosaic Idealize.ShloMosaic.ValueIdx Idealize.ShloMosaic.TcCoe Idealize.SL.Sem

/-- The kernel as printed runs and keeps its arguments. -/
theorem frame_k : Cert.frame_Kernel (hKernel := Cert.Kernel.Gen.facts) (hPre_finite_inputs := Cert.Pre_finite_inputs.Gen.facts) := fun m ρ _ =>
  Cert.Kernel.Ax.frame m ρ (fun c => Cert.Kernel.Ax.body_obligation0 _ c) (fun c => Cert.Kernel.Ax.body_obligation1 _ c)

/-- So does its idealization. -/
theorem frame_ki : Cert.frame_KernelIdeal (hKernelIdeal := Cert.KernelIdeal.Gen.facts) (hPre_finite_inputs := Cert.Pre_finite_inputs.Gen.facts) := fun m ρ _ =>
  Cert.KernelIdeal.Ax.frame m ρ (fun c => Cert.KernelIdeal.Ax.body_obligation0 _ c) (fun c => Cert.KernelIdeal.Ax.body_obligation1 _ c)

/-- The reference's frame is its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

open Cert.KernelIdeal Cert.KernelIdeal.Gen Cert.KernelIdeal.Ax in
/-- What the first call leaves in its output array is the axial attention of the array it was given. -/
theorem layer1 (m : (ℓ : Loc Cert.KernelIdeal.nD Cert.KernelIdeal.τ Cert.KernelIdeal.sig) → Buf (Elt Ideal) ℓ) (c : Dev Cert.KernelIdeal.nD) :
    outs m 2 main_v4 c = Cert.AxialSpec.attn (V1 m c main_v1) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [outs_2]
  refine (Cert.KernelIdeal.AxValue.final0 (VA m) c _ _ (Cert.KernelIdeal.HostGlue.bias2 m c) (Cert.KernelIdeal.HostGlue.bias3 m c)).trans ?_
  rw [show VA m c main_arg1 = V1 m c main_arg1 from rfl, show VA m c main_arg3 = V1 m c main_arg3 from rfl,
    Cert.KernelIdeal.HostGlue.w1, Cert.KernelIdeal.HostGlue.w3]

open Cert.KernelIdeal Cert.KernelIdeal.Gen Cert.KernelIdeal.Ax in
/-- And the second call likewise, of the array the middle host stretch made of the first layer's result. -/
theorem layer2 (m : (ℓ : Loc Cert.KernelIdeal.nD Cert.KernelIdeal.τ Cert.KernelIdeal.sig) → Buf (Elt Ideal) ℓ) (c : Dev Cert.KernelIdeal.nD) :
    outs m 4 main_v15 c = Cert.AxialSpec.attn (V3 m (outs m) c main_v12) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [outs_4]
  refine (Cert.KernelIdeal.AxValue.final1 (VB m) c _ _ (Cert.KernelIdeal.HostGlue.bias13 m (outsA m) c) (Cert.KernelIdeal.HostGlue.bias14 m (outsA m) c)).trans ?_
  rw [show VB m c main_arg5 = V3 m (outsA m) c main_arg5 from rfl, show VB m c main_arg7 = V3 m (outsA m) c main_arg7 from rfl,
    show VB m c main_v12 = V3 m (outsA m) c main_v12 from rfl,
    Cert.KernelIdeal.HostGlue.w5, Cert.KernelIdeal.HostGlue.w7, V3_outs]

/-- At the ideal instance the two programs, run from memories that agree on the arguments, end with the same result
    array: the kernel's is the last host stretch applied to the second layer's output, the reference's its result term,
    and the two are one function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.V5 m (Cert.KernelIdeal.Ax.outs m) c Cert.KernelIdeal.main_v21,
    Cert.KernelIdeal.Ax.run_value m ρ (fun c => Cert.KernelIdeal.Ax.body_obligation0 _ c) (fun c => Cert.KernelIdeal.Ax.body_obligation1 _ c), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v53_eq, h0, h1, h2, h3, h4, h5, h6, h7, h8, h9, h10]
  exact (Cert.KernelIdeal.HostGlue.glue m (Cert.KernelIdeal.Ax.outs m) c (layer1 m c) (layer2 m c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
